-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v132)) (v1 : (c : Dev Cert.KernelIdeal.nD) → Buf (Elt Ideal) ((c.tc : Thread Cert.KernelIdeal.nD Cert.KernelIdeal.τ).loc Cert.KernelIdeal.main_v125)) (v2 : (c : Dev Cert.KernelIdeal.nD) → Buf (Elt Ideal) ((c.tc : Thread Cert.KernelIdeal.nD Cert.KernelIdeal.τ).loc Cert.KernelIdeal.main_v13)) (v3 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v132) = v0 c
          ∧ r.2.mem ((c.tc : Thread Cert.KernelIdeal.nD Cert.KernelIdeal.τ).loc Cert.KernelIdeal.main_v125) = v1 c
          ∧ r.2.mem ((c.tc : Thread Cert.KernelIdeal.nD Cert.KernelIdeal.τ).loc Cert.KernelIdeal.main_v13) = v2 c
          ∧ r.2.mem ((c.tc : Thread Cert.KernelIdeal.nD Cert.KernelIdeal.τ).loc Cert.KernelIdeal.main_v15) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v175) = v0 c
          ∧ r.2.mem ((c.tc : Thread Cert.ReferenceIdeal.nD Cert.ReferenceIdeal.τ).loc Cert.ReferenceIdeal.main_v168) = v1 c
          ∧ r.2.mem ((c.tc : Thread Cert.ReferenceIdeal.nD Cert.ReferenceIdeal.τ).loc Cert.ReferenceIdeal.main_v13) = v2 c
          ∧ r.2.mem ((c.tc : Thread Cert.ReferenceIdeal.nD Cert.ReferenceIdeal.τ).loc Cert.ReferenceIdeal.main_v15) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x3x256x256 : Shape := ⟨4, ![32, 3, 256, 256]⟩
abbrev S32x2048x2 : Shape := ⟨3, ![32, 2048, 2]⟩
abbrev S32x2048 : Shape := ⟨2, ![32, 2048]⟩
abbrev S32x1024x2 : Shape := ⟨3, ![32, 1024, 2]⟩
abbrev S32x1024x64 : Shape := ⟨3, ![32, 1024, 64]⟩
abbrev S768 : Shape := ⟨1, ![768]⟩
abbrev S768x1023 : Shape := ⟨2, ![768, 1023]⟩
abbrev S1023 : Shape := ⟨1, ![1023]⟩
abbrev S1024x6 : Shape := ⟨2, ![1024, 6]⟩
abbrev S6 : Shape := ⟨1, ![6]⟩
abbrev S_ : Shape := ⟨0, ![]⟩

class Facts : Prop where
  bcast_S_S32x3x256x256 : S_.BroadcastsInDim S32x3x256x256 (![] : Fin 0 → Fin S32x3x256x256.rank)
  reducesTo_S32x3x256x256_S_d0_1_2_3 : S32x3x256x256.ReducesTo [0, 1, 2, 3] S_
  h_S_ : 0 < S_.numel
  bcast_S_S32x2048x2 : S_.BroadcastsInDim S32x2048x2 (![] : Fin 0 → Fin S32x2048x2.rank)
  reducesTo_S32x2048x2_S_d0_1_2 : S32x2048x2.ReducesTo [0, 1, 2] S_
  bcast_S_S32x2048 : S_.BroadcastsInDim S32x2048 (![] : Fin 0 → Fin S32x2048.rank)
  reducesTo_S32x2048_S_d0_1 : S32x2048.ReducesTo [0, 1] S_
  bcast_S_S32x1024x64 : S_.BroadcastsInDim S32x1024x64 (![] : Fin 0 → Fin S32x1024x64.rank)
  reducesTo_S32x1024x64_S_d0_1_2 : S32x1024x64.ReducesTo [0, 1, 2] S_
  bcast_S_S768 : S_.BroadcastsInDim S768 (![] : Fin 0 → Fin S768.rank)
  reducesTo_S768_S_d0 : S768.ReducesTo [0] S_
  bcast_S_S768x1023 : S_.BroadcastsInDim S768x1023 (![] : Fin 0 → Fin S768x1023.rank)
  reducesTo_S768x1023_S_d0_1 : S768x1023.ReducesTo [0, 1] S_
  bcast_S_S1023 : S_.BroadcastsInDim S1023 (![] : Fin 0 → Fin S1023.rank)
  reducesTo_S1023_S_d0 : S1023.ReducesTo [0] S_
  bcast_S_S1024x6 : S_.BroadcastsInDim S1024x6 (![] : Fin 0 → Fin S1024x6.rank)
  reducesTo_S1024x6_S_d0_1 : S1024x6.ReducesTo [0, 1] S_
  bcast_S_S6 : S_.BroadcastsInDim S6 (![] : Fin 0 → Fin S6.rank)
  reducesTo_S6_S_d0 : S6.ReducesTo [0] S_

variable [Facts]

def fn_part4 {F : FTy → Type} [FloatOps F] (main_arg15 : FVec F S6 .f32) (main_v63 : IVec S_ 1) (main_v67 : IVec S_ 1) : IVec S_ 1 :=
  let main_v68 : IVec S_ 1 := andi main_v63 main_v67
  let main_v69 : FVec F S6 .f32 := Host.absf main_arg15
  let main_cst_26 : FVec F S_ .f32 := constant S_ .f32 0x7F800000#32
  let main_v70 : FVec F S6 .f32 := broadcastInDim S6 ![] bcast_S_S6 main_cst_26
  let main_v71 : IVec S6 1 := cmpf .olt main_v69 main_v70
  let main_c_27 : IVec S_ 1 := constantI S_ 1 1#1
  let main_v72 : IVec S_ 1 := (fun x v => Host.reduce IntOp.andi x v reducesTo_S6_S_d0 h_S_) main_v71 main_c_27
  let main_v73 : IVec S_ 1 := andi main_v68 main_v72
  main_v73

def fn_part3 {F : FTy → Type} [FloatOps F] (main_arg12 : FVec F S1023 .f32) (main_arg13 : FVec F S1023 .f32) (main_arg14 : FVec F S1024x6 .f32) (main_arg15 : FVec F S6 .f32) (main_v48 : IVec S_ 1) (main_v49 : FVec F S1023 .f32) (main_v50 : FVec F S1023 .f32) : IVec S_ 1 :=
  let main_v51 : IVec S1023 1 := cmpf .olt main_v49 main_v50
  let main_c_19 : IVec S_ 1 := constantI S_ 1 1#1
  let main_v52 : IVec S_ 1 := (fun x v => Host.reduce IntOp.andi x v reducesTo_S1023_S_d0 h_S_) main_v51 main_c_19
  let main_v53 : IVec S_ 1 := andi main_v48 main_v52
  let main_v54 : FVec F S1023 .f32 := Host.absf main_arg12
  let main_cst_20 : FVec F S_ .f32 := constant S_ .f32 0x7F800000#32
  let main_v55 : FVec F S1023 .f32 := broadcastInDim S1023 ![] bcast_S_S1023 main_cst_20
  let main_v56 : IVec S1023 1 := cmpf .olt main_v54 main_v55
  let main_c_21 : IVec S_ 1 := constantI S_ 1 1#1
  let main_v57 : IVec S_ 1 := (fun x v => Host.reduce IntOp.andi x v reducesTo_S1023_S_d0 h_S_) main_v56 main_c_21
  let main_v58 : IVec S_ 1 := andi main_v53 main_v57
  let main_v59 : FVec F S1023 .f32 := Host.absf main_arg13
  let main_cst_22 : FVec F S_ .f32 := constant S_ .f32 0x7F800000#32
  let main_v60 : FVec F S1023 .f32 := broadcastInDim S1023 ![] bcast_S_S1023 main_cst_22
  let main_v61 : IVec S1023 1 := cmpf .olt main_v59 main_v60
  let main_c_23 : IVec S_ 1 := constantI S_ 1 1#1
  let main_v62 : IVec S_ 1 := (fun x v => Host.reduce IntOp.andi x v reducesTo_S1023_S_d0 h_S_) main_v61 main_c_23
  let main_v63 : IVec S_ 1 := andi main_v58 main_v62
  let main_v64 : FVec F S1024x6 .f32 := Host.absf main_arg14
  let main_cst_24 : FVec F S_ .f32 := constant S_ .f32 0x7F800000#32
  let main_v65 : FVec F S1024x6 .f32 := broadcastInDim S1024x6 ![] bcast_S_S1024x6 main_cst_24
  let main_v66 : IVec S1024x6 1 := cmpf .olt main_v64 main_v65
  let main_c_25 : IVec S_ 1 := constantI S_ 1 1#1
  let main_v67 : IVec S_ 1 := (fun x v => Host.reduce IntOp.andi x v reducesTo_S1024x6_S_d0_1 h_S_) main_v66 main_c_25
  fn_part4 (F := F) main_arg15 main_v63 main_v67

def fn_part2 {F : FTy → Type} [FloatOps F] (main_arg8 : FVec F S768 .f32) (main_arg9 : FVec F S768 .f32) (main_arg10 : FVec F S768x1023 .f32) (main_arg11 : FVec F S1023 .f32) (main_arg12 : FVec F S1023 .f32) (main_arg13 : FVec F S1023 .f32) (main_arg14 : FVec F S1024x6 .f32) (main_arg15 : FVec F S6 .f32) (main_v33 : IVec S_ 1) : IVec S_ 1 :=
  let main_v34 : FVec F S768 .f32 := Host.absf main_arg8
  let main_cst_12 : FVec F S_ .f32 := constant S_ .f32 0x7F800000#32
  let main_v35 : FVec F S768 .f32 := broadcastInDim S768 ![] bcast_S_S768 main_cst_12
  let main_v36 : IVec S768 1 := cmpf .olt main_v34 main_v35
  let main_c_13 : IVec S_ 1 := constantI S_ 1 1#1
  let main_v37 : IVec S_ 1 := (fun x v => Host.reduce IntOp.andi x v reducesTo_S768_S_d0 h_S_) main_v36 main_c_13
  let main_v38 : IVec S_ 1 := andi main_v33 main_v37
  let main_v39 : FVec F S768 .f32 := Host.absf main_arg9
  let main_cst_14 : FVec F S_ .f32 := constant S_ .f32 0x7F800000#32
  let main_v40 : FVec F S768 .f32 := broadcastInDim S768 ![] bcast_S_S768 main_cst_14
  let main_v41 : IVec S768 1 := cmpf .olt main_v39 main_v40
  let main_c_15 : IVec S_ 1 := constantI S_ 1 1#1
  let main_v42 : IVec S_ 1 := (fun x v => Host.reduce IntOp.andi x v reducesTo_S768_S_d0 h_S_) main_v41 main_c_15
  let main_v43 : IVec S_ 1 := andi main_v38 main_v42
  let main_v44 : FVec F S768x1023 .f32 := Host.absf main_arg10
  let main_cst_16 : FVec F S_ .f32 := constant S_ .f32 0x7F800000#32
  let main_v45 : FVec F S768x1023 .f32 := broadcastInDim S768x1023 ![] bcast_S_S768x1023 main_cst_16
  let main_v46 : IVec S768x1023 1 := cmpf .olt main_v44 main_v45
  let main_c_17 : IVec S_ 1 := constantI S_ 1 1#1
  let main_v47 : IVec S_ 1 := (fun x v => Host.reduce IntOp.andi x v reducesTo_S768x1023_S_d0_1 h_S_) main_v46 main_c_17
  let main_v48 : IVec S_ 1 := andi main_v43 main_v47
  let main_v49 : FVec F S1023 .f32 := Host.absf main_arg11
  let main_cst_18 : FVec F S_ .f32 := constant S_ .f32 0x7F800000#32
  let main_v50 : FVec F S1023 .f32 := broadcastInDim S1023 ![] bcast_S_S1023 main_cst_18
  fn_part3 (F := F) main_arg12 main_arg13 main_arg14 main_arg15 main_v48 main_v49 main_v50

def fn_part1 {F : FTy → Type} [FloatOps F] (main_arg4 : FVec F S32x2048 .f32) (main_arg5 : FVec F S32x2048 .f32) (main_arg7 : FVec F S32x1024x64 .f32) (main_arg8 : FVec F S768 .f32) (main_arg9 : FVec F S768 .f32) (main_arg10 : FVec F S768x1023 .f32) (main_arg11 : FVec F S1023 .f32) (main_arg12 : FVec F S1023 .f32) (main_arg13 : FVec F S1023 .f32) (main_arg14 : FVec F S1024x6 .f32) (main_arg15 : FVec F S6 .f32) (main_v13 : IVec S_ 1) (main_v16 : IVec S32x2048x2 1) : IVec S_ 1 :=
  let main_c_5 : IVec S_ 1 := constantI S_ 1 1#1
  let main_v17 : IVec S_ 1 := (fun x v => Host.reduce IntOp.andi x v reducesTo_S32x2048x2_S_d0_1_2 h_S_) main_v16 main_c_5
  let main_v18 : IVec S_ 1 := andi main_v13 main_v17
  let main_v19 : FVec F S32x2048 .f32 := Host.absf main_arg4
  let main_cst_6 : FVec F S_ .f32 := constant S_ .f32 0x7F800000#32
  let main_v20 : FVec F S32x2048 .f32 := broadcastInDim S32x2048 ![] bcast_S_S32x2048 main_cst_6
  let main_v21 : IVec S32x2048 1 := cmpf .olt main_v19 main_v20
  let main_c_7 : IVec S_ 1 := constantI S_ 1 1#1
  let main_v22 : IVec S_ 1 := (fun x v => Host.reduce IntOp.andi x v reducesTo_S32x2048_S_d0_1 h_S_) main_v21 main_c_7
  let main_v23 : IVec S_ 1 := andi main_v18 main_v22
  let main_v24 : FVec F S32x2048 .f32 := Host.absf main_arg5
  let main_cst_8 : FVec F S_ .f32 := constant S_ .f32 0x7F800000#32
  let main_v25 : FVec F S32x2048 .f32 := broadcastInDim S32x2048 ![] bcast_S_S32x2048 main_cst_8
  let main_v26 : IVec S32x2048 1 := cmpf .olt main_v24 main_v25
  let main_c_9 : IVec S_ 1 := constantI S_ 1 1#1
  let main_v27 : IVec S_ 1 := (fun x v => Host.reduce IntOp.andi x v reducesTo_S32x2048_S_d0_1 h_S_) main_v26 main_c_9
  let main_v28 : IVec S_ 1 := andi main_v23 main_v27
  let main_v29 : FVec F S32x1024x64 .f32 := Host.absf main_arg7
  let main_cst_10 : FVec F S_ .f32 := constant S_ .f32 0x7F800000#32
  let main_v30 : FVec F S32x1024x64 .f32 := broadcastInDim S32x1024x64 ![] bcast_S_S32x1024x64 main_cst_10
  let main_v31 : IVec S32x1024x64 1 := cmpf .olt main_v29 main_v30
  let main_c_11 : IVec S_ 1 := constantI S_ 1 1#1
  let main_v32 : IVec S_ 1 := (fun x v => Host.reduce IntOp.andi x v reducesTo_S32x1024x64_S_d0_1_2 h_S_) main_v31 main_c_11
  let main_v33 : IVec S_ 1 := andi main_v28 main_v32
  fn_part2 (F := F) main_arg8 main_arg9 main_arg10 main_arg11 main_arg12 main_arg13 main_arg14 main_arg15 main_v33

def fn {F : FTy → Type} [FloatOps F] (main_arg0 : FVec F S32x3x256x256 .f32) (main_arg1 : FVec F S32x3x256x256 .f32) (main_arg2 : FVec F S32x2048x2 .f32) (main_arg3 : FVec F S32x2048x2 .f32) (main_arg4 : FVec F S32x2048 .f32) (main_arg5 : FVec F S32x2048 .f32) (main_arg6 : IVec S32x1024x2 32) (main_arg7 : FVec F S32x1024x64 .f32) (main_arg8 : FVec F S768 .f32) (main_arg9 : FVec F S768 .f32) (main_arg10 : FVec F S768x1023 .f32) (main_arg11 : FVec F S1023 .f32) (main_arg12 : FVec F S1023 .f32) (main_arg13 : FVec F S1023 .f32) (main_arg14 : FVec F S1024x6 .f32) (main_arg15 : FVec F S6 .f32) : IVec S_ 1 :=
  let main_v0 : FVec F S32x3x256x256 .f32 := Host.absf main_arg0
  let main_cst : FVec F S_ .f32 := constant S_ .f32 0x7F800000#32
  let main_v1 : FVec F S32x3x256x256 .f32 := broadcastInDim S32x3x256x256 ![] bcast_S_S32x3x256x256 main_cst
  let main_v2 : IVec S32x3x256x256 1 := cmpf .olt main_v0 main_v1
  let main_c : IVec S_ 1 := constantI S_ 1 1#1
  let main_v3 : IVec S_ 1 := (fun x v => Host.reduce IntOp.andi x v reducesTo_S32x3x256x256_S_d0_1_2_3 h_S_) main_v2 main_c
  let main_v4 : FVec F S32x3x256x256 .f32 := Host.absf main_arg1
  let main_cst_0 : FVec F S_ .f32 := constant S_ .f32 0x7F800000#32
  let main_v5 : FVec F S32x3x256x256 .f32 := broadcastInDim S32x3x256x256 ![] bcast_S_S32x3x256x256 main_cst_0
  let main_v6 : IVec S32x3x256x256 1 := cmpf .olt main_v4 main_v5
  let main_c_1 : IVec S_ 1 := constantI S_ 1 1#1
  let main_v7 : IVec S_ 1 := (fun x v => Host.reduce IntOp.andi x v reducesTo_S32x3x256x256_S_d0_1_2_3 h_S_) main_v6 main_c_1
  let main_v8 : IVec S_ 1 := andi main_v3 main_v7
  let main_v9 : FVec F S32x2048x2 .f32 := Host.absf main_arg2
  let main_cst_2 : FVec F S_ .f32 := constant S_ .f32 0x7F800000#32
  let main_v10 : FVec F S32x2048x2 .f32 := broadcastInDim S32x2048x2 ![] bcast_S_S32x2048x2 main_cst_2
  let main_v11 : IVec S32x2048x2 1 := cmpf .olt main_v9 main_v10
  let main_c_3 : IVec S_ 1 := constantI S_ 1 1#1
  let main_v12 : IVec S_ 1 := (fun x v => Host.reduce IntOp.andi x v reducesTo_S32x2048x2_S_d0_1_2 h_S_) main_v11 main_c_3
  let main_v13 : IVec S_ 1 := andi main_v8 main_v12
  let main_v14 : FVec F S32x2048x2 .f32 := Host.absf main_arg3
  let main_cst_4 : FVec F S_ .f32 := constant S_ .f32 0x7F800000#32
  let main_v15 : FVec F S32x2048x2 .f32 := broadcastInDim S32x2048x2 ![] bcast_S_S32x2048x2 main_cst_4
  let main_v16 : IVec S32x2048x2 1 := cmpf .olt main_v14 main_v15
  fn_part1 (F := F) main_arg4 main_arg5 main_arg7 main_arg8 main_arg9 main_arg10 main_arg11 main_arg12 main_arg13 main_arg14 main_arg15 main_v13 main_v16
-- ==== Kernel.lean ====
abbrev S32x3x256x256 : Shape := ⟨4, ![32, 3, 256, 256]⟩
abbrev S32x2048x2 : Shape := ⟨3, ![32, 2048, 2]⟩
abbrev S32x2048 : Shape := ⟨2, ![32, 2048]⟩
abbrev S32x1024x2 : Shape := ⟨3, ![32, 1024, 2]⟩
abbrev S32x1024x64 : Shape := ⟨3, ![32, 1024, 64]⟩
abbrev S768 : Shape := ⟨1, ![768]⟩
abbrev S768x1023 : Shape := ⟨2, ![768, 1023]⟩
abbrev S1023 : Shape := ⟨1, ![1023]⟩
abbrev S1024x6 : Shape := ⟨2, ![1024, 6]⟩
abbrev S6 : Shape := ⟨1, ![6]⟩
abbrev S32x1024x1 : Shape := ⟨3, ![32, 1024, 1]⟩
abbrev S32x1024 : Shape := ⟨2, ![32, 1024]⟩
abbrev S_ : Shape := ⟨0, ![]⟩
abbrev S1 : Shape := ⟨1, ![1]⟩
abbrev S1x1x1 : Shape := ⟨3, ![1, 1, 1]⟩
abbrev S16 : Shape := ⟨1, ![16]⟩
abbrev S1x1x16 : Shape := ⟨3, ![1, 1, 16]⟩
abbrev S32x1024x16 : Shape := ⟨3, ![32, 1024, 16]⟩
abbrev S32x1024x16x1 : Shape := ⟨4, ![32, 1024, 16, 1]⟩
abbrev S32x1024x1x16 : Shape := ⟨4, ![32, 1024, 1, 16]⟩
abbrev S32x1024x16x16 : Shape := ⟨4, ![32, 1024, 16, 16]⟩
abbrev S32x1024x16x16x1 : Shape := ⟨5, ![32, 1024, 16, 16, 1]⟩
abbrev S32x1024x16x16x2 : Shape := ⟨5, ![32, 1024, 16, 16, 2]⟩
abbrev S32x3x1024x16x16 : Shape := ⟨5, ![32, 3, 1024, 16, 16]⟩
abbrev S32x1024x3x16x16 : Shape := ⟨5, ![32, 1024, 3, 16, 16]⟩
abbrev S32x1024x1x1x1 : Shape := ⟨5, ![32, 1024, 1, 1, 1]⟩
abbrev S32x2048x3x16x16 : Shape := ⟨5, ![32, 2048, 3, 16, 16]⟩
abbrev S32x2048x768 : Shape := ⟨3, ![32, 2048, 768]⟩
abbrev S65536x768 : Shape := ⟨2, ![65536, 768]⟩
abbrev S1x768 : Shape := ⟨2, ![1, 768]⟩
abbrev S1x1023 : Shape := ⟨2, ![1, 1023]⟩
abbrev S65536x1023 : Shape := ⟨2, ![65536, 1023]⟩
abbrev S512x768 : Shape := ⟨2, ![512, 768]⟩
abbrev S512x1023 : Shape := ⟨2, ![512, 1023]⟩
abbrev S512 : Shape := ⟨1, ![512]⟩
abbrev S512x1 : Shape := ⟨2, ![512, 1]⟩
abbrev S32x2048x1023 : Shape := ⟨3, ![32, 2048, 1023]⟩
abbrev S32x2048x1 : Shape := ⟨3, ![32, 2048, 1]⟩
abbrev S32x2048x1024 : Shape := ⟨3, ![32, 2048, 1024]⟩
abbrev S32x6 : Shape := ⟨2, ![32, 6]⟩
abbrev S1x6 : Shape := ⟨2, ![1, 6]⟩

abbrev nBuf : Space → Nat
  | .hbm => 308
  | .vmem => 10
  | .smem => 0
  | _ => 0

abbrev hbmTy0_0 (i : Nat) : BufTy := match i % 128 with
  | 0 => ⟨S32x3x256x256, .f32⟩
  | 1 => ⟨S32x3x256x256, .f32⟩
  | 2 => ⟨S32x2048x2, .f32⟩
  | 3 => ⟨S32x2048x2, .f32⟩
  | 4 => ⟨S32x2048, .f32⟩
  | 5 => ⟨S32x2048, .f32⟩
  | 6 => ⟨S32x1024x2, .i32⟩
  | 7 => ⟨S32x1024x64, .f32⟩
  | 8 => ⟨S768, .f32⟩
  | 9 => ⟨S768, .f32⟩
  | 10 => ⟨S768x1023, .f32⟩
  | 11 => ⟨S1023, .f32⟩
  | 12 => ⟨S1023, .f32⟩
  | 13 => ⟨S1023, .f32⟩
  | 14 => ⟨S1024x6, .f32⟩
  | 15 => ⟨S6, .f32⟩
  | 16 => ⟨S32x1024x1, .i32⟩
  | 17 => ⟨S32x1024, .i32⟩
  | 18 => ⟨S32x1024x1, .i32⟩
  | 19 => ⟨S32x1024, .i32⟩
  | 20 => ⟨S_, .i32⟩
  | 21 => ⟨S32x1024, .i32⟩
  | 22 => ⟨S32x1024, .i1⟩
  | 23 => ⟨S_, .i32⟩
  | 24 => ⟨S_, .i32⟩
  | 25 => ⟨S32x1024, .i32⟩
  | 26 => ⟨S32x1024, .i32⟩
  | 27 => ⟨S_, .i32⟩
  | 28 => ⟨S_, .i32⟩
  | 29 => ⟨S32x1024, .i32⟩
  | 30 => ⟨S32x1024, .i32⟩
  | 31 => ⟨S32x1024x1, .i32⟩
  | 32 => ⟨S_, .i32⟩
  | 33 => ⟨S32x1024x1, .i32⟩
  | 34 => ⟨S32x1024x1, .i1⟩
  | 35 => ⟨S_, .i32⟩
  | 36 => ⟨S32x1024x1, .i32⟩
  | 37 => ⟨S32x1024x1, .i32⟩
  | 38 => ⟨S32x1024x1, .i32⟩
  | 39 => ⟨S1, .i32⟩
  | 40 => ⟨S_, .i32⟩
  | 41 => ⟨S32x1024x1, .i32⟩
  | 42 => ⟨S32x1024x1, .i1⟩
  | 43 => ⟨S1x1x1, .i32⟩
  | 44 => ⟨S32x1024x1, .i32⟩
  | 45 => ⟨S32x1024x1, .i1⟩
  | 46 => ⟨S32x1024x1, .i1⟩
  | 47 => ⟨S_, .i1⟩
  | 48 => ⟨S32x1024, .i1⟩
  | 49 => ⟨S32x1024x2, .f32⟩
  | 50 => ⟨S32x1024x2, .i1⟩
  | 51 => ⟨S_, .f32⟩
  | 52 => ⟨S32x1024x2, .f32⟩
  | 53 => ⟨S32x1024x2, .f32⟩
  | 54 => ⟨S32x1024x1, .i32⟩
  | 55 => ⟨S_, .i32⟩
  | 56 => ⟨S32x1024x1, .i32⟩
  | 57 => ⟨S32x1024x1, .i1⟩
  | 58 => ⟨S_, .i32⟩
  | 59 => ⟨S32x1024x1, .i32⟩
  | 60 => ⟨S32x1024x1, .i32⟩
  | 61 => ⟨S32x1024x1, .i32⟩
  | 62 => ⟨S1, .i32⟩
  | 63 => ⟨S_, .i32⟩
  | 64 => ⟨S32x1024x1, .i32⟩
  | 65 => ⟨S32x1024x1, .i1⟩
  | 66 => ⟨S1x1x1, .i32⟩
  | 67 => ⟨S32x1024x1, .i32⟩
  | 68 => ⟨S32x1024x1, .i1⟩
  | 69 => ⟨S32x1024x1, .i1⟩
  | 70 => ⟨S_, .i1⟩
  | 71 => ⟨S32x1024, .i1⟩
  | 72 => ⟨S32x1024x2, .f32⟩
  | 73 => ⟨S32x1024x2, .i1⟩
  | 74 => ⟨S_, .f32⟩
  | 75 => ⟨S32x1024x2, .f32⟩
  | 76 => ⟨S32x1024x2, .f32⟩
  | 77 => ⟨S32x1024x1, .i1⟩
  | 78 => ⟨S_, .f32⟩
  | 79 => ⟨S32x1024x2, .i1⟩
  | 80 => ⟨S32x1024x2, .f32⟩
  | 81 => ⟨S32x1024x2, .f32⟩
  | 82 => ⟨S32x1024x1, .i1⟩
  | 83 => ⟨S_, .f32⟩
  | 84 => ⟨S32x1024x2, .i1⟩
  | 85 => ⟨S32x1024x2, .f32⟩
  | 86 => ⟨S32x1024x2, .f32⟩
  | 87 => ⟨S_, .i32⟩
  | 88 => ⟨S32x1024, .i32⟩
  | 89 => ⟨S32x1024, .i1⟩
  | 90 => ⟨S_, .i32⟩
  | 91 => ⟨S32x1024, .i32⟩
  | 92 => ⟨S32x1024, .i32⟩
  | 93 => ⟨S32x1024, .i32⟩
  | 94 => ⟨S32x1024x1, .i32⟩
  | 95 => ⟨S1, .i32⟩
  | 96 => ⟨S_, .i32⟩
  | 97 => ⟨S32x1024x1, .i32⟩
  | 98 => ⟨S32x1024x1, .i1⟩
  | 99 => ⟨S1x1x1, .i32⟩
  | 100 => ⟨S32x1024x1, .i32⟩
  | 101 => ⟨S32x1024x1, .i1⟩
  | 102 => ⟨S32x1024x1, .i1⟩
  | 103 => ⟨S_, .i1⟩
  | 104 => ⟨S32x1024, .i1⟩
  | 105 => ⟨S32x1024, .f32⟩
  | 106 => ⟨S_, .f32⟩
  | 107 => ⟨S32x1024, .f32⟩
  | 108 => ⟨S32x1024, .f32⟩
  | 109 => ⟨S_, .f32⟩
  | 110 => ⟨S_, .f32⟩
  | 111 => ⟨S32x1024, .f32⟩
  | 112 => ⟨S32x1024, .f32⟩
  | 113 => ⟨S_, .i32⟩
  | 114 => ⟨S32x1024, .i32⟩
  | 115 => ⟨S32x1024, .i1⟩
  | 116 => ⟨S_, .i32⟩
  | 117 => ⟨S32x1024, .i32⟩
  | 118 => ⟨S32x1024, .i32⟩
  | 119 => ⟨S32x1024, .i32⟩
  | 120 => ⟨S32x1024x1, .i32⟩
  | 121 => ⟨S1, .i32⟩
  | 122 => ⟨S_, .i32⟩
  | 123 => ⟨S32x1024x1, .i32⟩
  | 124 => ⟨S32x1024x1, .i1⟩
  | 125 => ⟨S1x1x1, .i32⟩
  | 126 => ⟨S32x1024x1, .i32⟩
  | 127 => ⟨S32x1024x1, .i1⟩
  | _ => ⟨S32x3x256x256, .f32⟩

abbrev hbmTy0_1 (i : Nat) : BufTy := match i % 128 with
  | 0 => ⟨S32x1024x1, .i1⟩
  | 1 => ⟨S_, .i1⟩
  | 2 => ⟨S32x1024, .i1⟩
  | 3 => ⟨S32x1024, .f32⟩
  | 4 => ⟨S_, .f32⟩
  | 5 => ⟨S32x1024, .f32⟩
  | 6 => ⟨S32x1024, .f32⟩
  | 7 => ⟨S_, .f32⟩
  | 8 => ⟨S_, .f32⟩
  | 9 => ⟨S32x1024, .f32⟩
  | 10 => ⟨S32x1024, .f32⟩
  | 11 => ⟨S16, .i32⟩
  | 12 => ⟨S_, .i32⟩
  | 13 => ⟨S16, .i32⟩
  | 14 => ⟨S16, .i32⟩
  | 15 => ⟨S32x1024x1, .i1⟩
  | 16 => ⟨S_, .f32⟩
  | 17 => ⟨S_, .f32⟩
  | 18 => ⟨S32x1024x2, .i1⟩
  | 19 => ⟨S32x1024x2, .f32⟩
  | 20 => ⟨S32x1024x2, .f32⟩
  | 21 => ⟨S32x1024x1, .f32⟩
  | 22 => ⟨S32x1024, .f32⟩
  | 23 => ⟨S32x1024, .f32⟩
  | 24 => ⟨S32x1024, .i32⟩
  | 25 => ⟨S32x1024x1, .f32⟩
  | 26 => ⟨S32x1024, .f32⟩
  | 27 => ⟨S32x1024, .f32⟩
  | 28 => ⟨S32x1024, .i32⟩
  | 29 => ⟨S32x1024x1, .i32⟩
  | 30 => ⟨S1x1x16, .i32⟩
  | 31 => ⟨S32x1024x16, .i32⟩
  | 32 => ⟨S32x1024x16, .i32⟩
  | 33 => ⟨S32x1024x16, .i32⟩
  | 34 => ⟨S_, .i32⟩
  | 35 => ⟨S_, .i32⟩
  | 36 => ⟨S_, .i32⟩
  | 37 => ⟨S32x1024x16, .i32⟩
  | 38 => ⟨S32x1024x16, .i32⟩
  | 39 => ⟨S_, .i32⟩
  | 40 => ⟨S32x1024x16, .i32⟩
  | 41 => ⟨S32x1024x16, .i32⟩
  | 42 => ⟨S32x1024x1, .i32⟩
  | 43 => ⟨S1x1x16, .i32⟩
  | 44 => ⟨S32x1024x16, .i32⟩
  | 45 => ⟨S32x1024x16, .i32⟩
  | 46 => ⟨S32x1024x16, .i32⟩
  | 47 => ⟨S_, .i32⟩
  | 48 => ⟨S_, .i32⟩
  | 49 => ⟨S_, .i32⟩
  | 50 => ⟨S32x1024x16, .i32⟩
  | 51 => ⟨S32x1024x16, .i32⟩
  | 52 => ⟨S_, .i32⟩
  | 53 => ⟨S32x1024x16, .i32⟩
  | 54 => ⟨S32x1024x16, .i32⟩
  | 55 => ⟨S32x1024x16x1, .i32⟩
  | 56 => ⟨S32x1024x1x16, .i32⟩
  | 57 => ⟨S_, .i32⟩
  | 58 => ⟨S32x1024x16x1, .i32⟩
  | 59 => ⟨S32x1024x16x1, .i1⟩
  | 60 => ⟨S_, .i32⟩
  | 61 => ⟨S32x1024x16x1, .i32⟩
  | 62 => ⟨S32x1024x16x1, .i32⟩
  | 63 => ⟨S32x1024x16x1, .i32⟩
  | 64 => ⟨S_, .i32⟩
  | 65 => ⟨S32x1024x1x16, .i32⟩
  | 66 => ⟨S32x1024x1x16, .i1⟩
  | 67 => ⟨S_, .i32⟩
  | 68 => ⟨S32x1024x1x16, .i32⟩
  | 69 => ⟨S32x1024x1x16, .i32⟩
  | 70 => ⟨S32x1024x1x16, .i32⟩
  | 71 => ⟨S32x1024x16x16, .i32⟩
  | 72 => ⟨S32x1024x16x16, .i32⟩
  | 73 => ⟨S32x1024x16x16x1, .i32⟩
  | 74 => ⟨S32x1024x16x16x1, .i32⟩
  | 75 => ⟨S32x1024x16x16x2, .i32⟩
  | 76 => ⟨S32x3x1024x16x16, .f32⟩
  | 77 => ⟨S32x1024x3x16x16, .f32⟩
  | 78 => ⟨S32x1024x1x1x1, .i1⟩
  | 79 => ⟨S_, .f32⟩
  | 80 => ⟨S_, .f32⟩
  | 81 => ⟨S32x1024x3x16x16, .i1⟩
  | 82 => ⟨S32x1024x3x16x16, .f32⟩
  | 83 => ⟨S32x1024x3x16x16, .f32⟩
  | 84 => ⟨S16, .i32⟩
  | 85 => ⟨S_, .i32⟩
  | 86 => ⟨S16, .i32⟩
  | 87 => ⟨S16, .i32⟩
  | 88 => ⟨S32x1024x1, .i1⟩
  | 89 => ⟨S_, .f32⟩
  | 90 => ⟨S_, .f32⟩
  | 91 => ⟨S32x1024x2, .i1⟩
  | 92 => ⟨S32x1024x2, .f32⟩
  | 93 => ⟨S32x1024x2, .f32⟩
  | 94 => ⟨S32x1024x1, .f32⟩
  | 95 => ⟨S32x1024, .f32⟩
  | 96 => ⟨S32x1024, .f32⟩
  | 97 => ⟨S32x1024, .i32⟩
  | 98 => ⟨S32x1024x1, .f32⟩
  | 99 => ⟨S32x1024, .f32⟩
  | 100 => ⟨S32x1024, .f32⟩
  | 101 => ⟨S32x1024, .i32⟩
  | 102 => ⟨S32x1024x1, .i32⟩
  | 103 => ⟨S1x1x16, .i32⟩
  | 104 => ⟨S32x1024x16, .i32⟩
  | 105 => ⟨S32x1024x16, .i32⟩
  | 106 => ⟨S32x1024x16, .i32⟩
  | 107 => ⟨S_, .i32⟩
  | 108 => ⟨S_, .i32⟩
  | 109 => ⟨S_, .i32⟩
  | 110 => ⟨S32x1024x16, .i32⟩
  | 111 => ⟨S32x1024x16, .i32⟩
  | 112 => ⟨S_, .i32⟩
  | 113 => ⟨S32x1024x16, .i32⟩
  | 114 => ⟨S32x1024x16, .i32⟩
  | 115 => ⟨S32x1024x1, .i32⟩
  | 116 => ⟨S1x1x16, .i32⟩
  | 117 => ⟨S32x1024x16, .i32⟩
  | 118 => ⟨S32x1024x16, .i32⟩
  | 119 => ⟨S32x1024x16, .i32⟩
  | 120 => ⟨S_, .i32⟩
  | 121 => ⟨S_, .i32⟩
  | 122 => ⟨S_, .i32⟩
  | 123 => ⟨S32x1024x16, .i32⟩
  | 124 => ⟨S32x1024x16, .i32⟩
  | 125 => ⟨S_, .i32⟩
  | 126 => ⟨S32x1024x16, .i32⟩
  | 127 => ⟨S32x1024x16, .i32⟩
  | _ => ⟨S32x3x256x256, .f32⟩

abbrev hbmTy0_2 (i : Nat) : BufTy := match i % 128 with
  | 0 => ⟨S32x1024x16x1, .i32⟩
  | 1 => ⟨S32x1024x1x16, .i32⟩
  | 2 => ⟨S_, .i32⟩
  | 3 => ⟨S32x1024x16x1, .i32⟩
  | 4 => ⟨S32x1024x16x1, .i1⟩
  | 5 => ⟨S_, .i32⟩
  | 6 => ⟨S32x1024x16x1, .i32⟩
  | 7 => ⟨S32x1024x16x1, .i32⟩
  | 8 => ⟨S32x1024x16x1, .i32⟩
  | 9 => ⟨S_, .i32⟩
  | 10 => ⟨S32x1024x1x16, .i32⟩
  | 11 => ⟨S32x1024x1x16, .i1⟩
  | 12 => ⟨S_, .i32⟩
  | 13 => ⟨S32x1024x1x16, .i32⟩
  | 14 => ⟨S32x1024x1x16, .i32⟩
  | 15 => ⟨S32x1024x1x16, .i32⟩
  | 16 => ⟨S32x1024x16x16, .i32⟩
  | 17 => ⟨S32x1024x16x16, .i32⟩
  | 18 => ⟨S32x1024x16x16x1, .i32⟩
  | 19 => ⟨S32x1024x16x16x1, .i32⟩
  | 20 => ⟨S32x1024x16x16x2, .i32⟩
  | 21 => ⟨S32x3x1024x16x16, .f32⟩
  | 22 => ⟨S32x1024x3x16x16, .f32⟩
  | 23 => ⟨S32x1024x1x1x1, .i1⟩
  | 24 => ⟨S_, .f32⟩
  | 25 => ⟨S_, .f32⟩
  | 26 => ⟨S32x1024x3x16x16, .i1⟩
  | 27 => ⟨S32x1024x3x16x16, .f32⟩
  | 28 => ⟨S32x1024x3x16x16, .f32⟩
  | 29 => ⟨S32x2048x3x16x16, .f32⟩
  | 30 => ⟨S32x2048x768, .f32⟩
  | 31 => ⟨S65536x768, .f32⟩
  | 32 => ⟨S768x1023, .bf16⟩
  | 33 => ⟨S1x768, .f32⟩
  | 34 => ⟨S1x768, .f32⟩
  | 35 => ⟨S1x1023, .f32⟩
  | 36 => ⟨S1x1023, .f32⟩
  | 37 => ⟨S1x1023, .f32⟩
  | 38 => ⟨S65536x1023, .f32⟩
  | 39 => ⟨S32x2048x1023, .f32⟩
  | 40 => ⟨S32x2048, .f32⟩
  | 41 => ⟨S32x2048x1, .f32⟩
  | 42 => ⟨S32x2048x1024, .f32⟩
  | 43 => ⟨S_, .f32⟩
  | 44 => ⟨S32x1024, .f32⟩
  | 45 => ⟨S_, .f32⟩
  | 46 => ⟨S32x1024, .f32⟩
  | 47 => ⟨S32x1024, .f32⟩
  | 48 => ⟨S32x6, .f32⟩
  | 49 => ⟨S1x6, .f32⟩
  | 50 => ⟨S32x6, .f32⟩
  | 51 => ⟨S32x6, .f32⟩
  | _ => ⟨S32x3x256x256, .f32⟩

abbrev hbmTy (i : Nat) : BufTy := match i / 128 with
  | 0 => hbmTy0_0 i
  | 1 => hbmTy0_1 i
  | 2 => hbmTy0_2 i
  | _ => ⟨S32x3x256x256, .f32⟩

abbrev bufTy : (tb : Table) → Fin (tcTables nBuf tb) → BufTy
  | .hbm, ⟨i, _⟩ => hbmTy i
  | .local _ .vmem, ⟨0, _⟩ => ⟨S512x768, .f32⟩
  | .local _ .vmem, ⟨1, _⟩ => ⟨S512x768, .f32⟩
  | .local _ .vmem, ⟨2, _⟩ => ⟨S1x768, .f32⟩
  | .local _ .vmem, ⟨3, _⟩ => ⟨S1x768, .f32⟩
  | .local _ .vmem, ⟨4, _⟩ => ⟨S768x1023, .bf16⟩
  | .local _ .vmem, ⟨5, _⟩ => ⟨S1x1023, .f32⟩
  | .local _ .vmem, ⟨6, _⟩ => ⟨S1x1023, .f32⟩
  | .local _ .vmem, ⟨7, _⟩ => ⟨S1x1023, .f32⟩
  | .local _ .vmem, ⟨8, _⟩ => ⟨S512x1023, .f32⟩
  | .local _ .vmem, ⟨9, _⟩ => ⟨S512x1023, .f32⟩
  | _, _ => ⟨S32x3x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_call0_v0 : Ref sig .tc := ⟨.hbm, 24, rfl⟩
abbrev main_call0_v1 : Ref sig .tc := ⟨.hbm, 25, rfl⟩
abbrev main_v6 : Ref sig .tc := ⟨.hbm, 26, rfl⟩
abbrev main_c_1 : Ref sig .tc := ⟨.hbm, 27, rfl⟩
abbrev main_call1_v0 : Ref sig .tc := ⟨.hbm, 28, rfl⟩
abbrev main_call1_v1 : Ref sig .tc := ⟨.hbm, 29, rfl⟩
abbrev main_v7 : Ref sig .tc := ⟨.hbm, 30, rfl⟩
abbrev main_v8 : Ref sig .tc := ⟨.hbm, 31, rfl⟩
abbrev main_call2_c : Ref sig .tc := ⟨.hbm, 32, rfl⟩
abbrev main_call2_v0 : Ref sig .tc := ⟨.hbm, 33, rfl⟩
abbrev main_call2_v1 : Ref sig .tc := ⟨.hbm, 34, rfl⟩
abbrev main_call2_c_0 : Ref sig .tc := ⟨.hbm, 35, rfl⟩
abbrev main_call2_v2 : Ref sig .tc := ⟨.hbm, 36, rfl⟩
abbrev main_call2_v3 : Ref sig .tc := ⟨.hbm, 37, rfl⟩
abbrev main_call2_v4 : Ref sig .tc := ⟨.hbm, 38, rfl⟩
abbrev main_call2_c_1 : Ref sig .tc := ⟨.hbm, 39, rfl⟩
abbrev main_call2_c_2 : Ref sig .tc := ⟨.hbm, 40, rfl⟩
abbrev main_call2_v5 : Ref sig .tc := ⟨.hbm, 41, rfl⟩
abbrev main_call2_v6 : Ref sig .tc := ⟨.hbm, 42, rfl⟩
abbrev main_call2_v7 : Ref sig .tc := ⟨.hbm, 43, rfl⟩
abbrev main_call2_v8 : Ref sig .tc := ⟨.hbm, 44, rfl⟩
abbrev main_call2_v9 : Ref sig .tc := ⟨.hbm, 45, rfl⟩
abbrev main_call2_v10 : Ref sig .tc := ⟨.hbm, 46, rfl⟩
abbrev main_call2_c_3 : Ref sig .tc := ⟨.hbm, 47, rfl⟩
abbrev main_call2_v11 : Ref sig .tc := ⟨.hbm, 48, rfl⟩
abbrev main_call2_v12 : Ref sig .tc := ⟨.hbm, 49, rfl⟩
abbrev main_call2_v13 : Ref sig .tc := ⟨.hbm, 50, rfl⟩
abbrev main_call2_cst : Ref sig .tc := ⟨.hbm, 51, rfl⟩
abbrev main_call2_v14 : Ref sig .tc := ⟨.hbm, 52, rfl⟩
abbrev main_v9 : Ref sig .tc := ⟨.hbm, 53, rfl⟩
abbrev main_v10 : Ref sig .tc := ⟨.hbm, 54, rfl⟩
abbrev main_call3_c : Ref sig .tc := ⟨.hbm, 55, rfl⟩
abbrev main_call3_v0 : Ref sig .tc := ⟨.hbm, 56, rfl⟩
abbrev main_call3_v1 : Ref sig .tc := ⟨.hbm, 57, rfl⟩
abbrev main_call3_c_0 : Ref sig .tc := ⟨.hbm, 58, rfl⟩
abbrev main_call3_v2 : Ref sig .tc := ⟨.hbm, 59, rfl⟩
abbrev main_call3_v3 : Ref sig .tc := ⟨.hbm, 60, rfl⟩
abbrev main_call3_v4 : Ref sig .tc := ⟨.hbm, 61, rfl⟩
abbrev main_call3_c_1 : Ref sig .tc := ⟨.hbm, 62, rfl⟩
abbrev main_call3_c_2 : Ref sig .tc := ⟨.hbm, 63, rfl⟩
abbrev main_call3_v5 : Ref sig .tc := ⟨.hbm, 64, rfl⟩
abbrev main_call3_v6 : Ref sig .tc := ⟨.hbm, 65, rfl⟩
abbrev main_call3_v7 : Ref sig .tc := ⟨.hbm, 66, rfl⟩
abbrev main_call3_v8 : Ref sig .tc := ⟨.hbm, 67, rfl⟩
abbrev main_call3_v9 : Ref sig .tc := ⟨.hbm, 68, rfl⟩
abbrev main_call3_v10 : Ref sig .tc := ⟨.hbm, 69, rfl⟩
abbrev main_call3_c_3 : Ref sig .tc := ⟨.hbm, 70, rfl⟩
abbrev main_call3_v11 : Ref sig .tc := ⟨.hbm, 71, rfl⟩
abbrev main_call3_v12 : Ref sig .tc := ⟨.hbm, 72, rfl⟩
abbrev main_call3_v13 : Ref sig .tc := ⟨.hbm, 73, rfl⟩
abbrev main_call3_cst : Ref sig .tc := ⟨.hbm, 74, rfl⟩
abbrev main_call3_v14 : Ref sig .tc := ⟨.hbm, 75, rfl⟩
abbrev main_v11 : Ref sig .tc := ⟨.hbm, 76, rfl⟩
abbrev main_v12 : Ref sig .tc := ⟨.hbm, 77, rfl⟩
abbrev main_cst : Ref sig .tc := ⟨.hbm, 78, rfl⟩
abbrev main_call4_v0 : Ref sig .tc := ⟨.hbm, 79, rfl⟩
abbrev main_call4_v1 : Ref sig .tc := ⟨.hbm, 80, rfl⟩
abbrev main_v13 : Ref sig .tc := ⟨.hbm, 81, rfl⟩
abbrev main_v14 : Ref sig .tc := ⟨.hbm, 82, rfl⟩
abbrev main_cst_2 : Ref sig .tc := ⟨.hbm, 83, rfl⟩
abbrev main_call5_v0 : Ref sig .tc := ⟨.hbm, 84, rfl⟩
abbrev main_call5_v1 : Ref sig .tc := ⟨.hbm, 85, rfl⟩
abbrev main_v15 : Ref sig .tc := ⟨.hbm, 86, rfl⟩
abbrev main_call6_c : Ref sig .tc := ⟨.hbm, 87, rfl⟩
abbrev main_call6_v0 : Ref sig .tc := ⟨.hbm, 88, rfl⟩
abbrev main_call6_v1 : Ref sig .tc := ⟨.hbm, 89, rfl⟩
abbrev main_call6_c_0 : Ref sig .tc := ⟨.hbm, 90, rfl⟩
abbrev main_call6_v2 : Ref sig .tc := ⟨.hbm, 91, rfl⟩
abbrev main_call6_v3 : Ref sig .tc := ⟨.hbm, 92, rfl⟩
abbrev main_call6_v4 : Ref sig .tc := ⟨.hbm, 93, rfl⟩
abbrev main_call6_v5 : Ref sig .tc := ⟨.hbm, 94, rfl⟩
abbrev main_call6_c_1 : Ref sig .tc := ⟨.hbm, 95, rfl⟩
abbrev main_call6_c_2 : Ref sig .tc := ⟨.hbm, 96, rfl⟩
abbrev main_call6_v6 : Ref sig .tc := ⟨.hbm, 97, rfl⟩
abbrev main_call6_v7 : Ref sig .tc := ⟨.hbm, 98, rfl⟩
abbrev main_call6_v8 : Ref sig .tc := ⟨.hbm, 99, rfl⟩
abbrev main_call6_v9 : Ref sig .tc := ⟨.hbm, 100, rfl⟩
abbrev main_call6_v10 : Ref sig .tc := ⟨.hbm, 101, rfl⟩
abbrev main_call6_v11 : Ref sig .tc := ⟨.hbm, 102, rfl⟩
abbrev main_call6_c_3 : Ref sig .tc := ⟨.hbm, 103, rfl⟩
abbrev main_call6_v12 : Ref sig .tc := ⟨.hbm, 104, rfl⟩
abbrev main_call6_v13 : Ref sig .tc := ⟨.hbm, 105, rfl⟩
abbrev main_call6_cst : Ref sig .tc := ⟨.hbm, 106, rfl⟩
abbrev main_call6_v14 : Ref sig .tc := ⟨.hbm, 107, rfl⟩
abbrev main_v16 : Ref sig .tc := ⟨.hbm, 108, rfl⟩
abbrev main_cst_3 : Ref sig .tc := ⟨.hbm, 109, rfl⟩
abbrev main_call7_v0 : Ref sig .tc := ⟨.hbm, 110, rfl⟩
abbrev main_call7_v1 : Ref sig .tc := ⟨.hbm, 111, rfl⟩
abbrev main_v17 : Ref sig .tc := ⟨.hbm, 112, rfl⟩
abbrev main_call8_c : Ref sig .tc := ⟨.hbm, 113, rfl⟩
abbrev main_call8_v0 : Ref sig .tc := ⟨.hbm, 114, rfl⟩
abbrev main_call8_v1 : Ref sig .tc := ⟨.hbm, 115, rfl⟩
abbrev main_call8_c_0 : Ref sig .tc := ⟨.hbm, 116, rfl⟩
abbrev main_call8_v2 : Ref sig .tc := ⟨.hbm, 117, rfl⟩
abbrev main_call8_v3 : Ref sig .tc := ⟨.hbm, 118, rfl⟩
abbrev main_call8_v4 : Ref sig .tc := ⟨.hbm, 119, rfl⟩
abbrev main_call8_v5 : Ref sig .tc := ⟨.hbm, 120, rfl⟩
abbrev main_call8_c_1 : Ref sig .tc := ⟨.hbm, 121, rfl⟩
abbrev main_call8_c_2 : Ref sig .tc := ⟨.hbm, 122, rfl⟩
abbrev main_call8_v6 : Ref sig .tc := ⟨.hbm, 123, rfl⟩
abbrev main_call8_v7 : Ref sig .tc := ⟨.hbm, 124, rfl⟩
abbrev main_call8_v8 : Ref sig .tc := ⟨.hbm, 125, rfl⟩
abbrev main_call8_v9 : Ref sig .tc := ⟨.hbm, 126, rfl⟩
abbrev main_call8_v10 : Ref sig .tc := ⟨.hbm, 127, rfl⟩
abbrev main_call8_v11 : Ref sig .tc := ⟨.hbm, 128, rfl⟩
abbrev main_call8_c_3 : Ref sig .tc := ⟨.hbm, 129, rfl⟩
abbrev main_call8_v12 : Ref sig .tc := ⟨.hbm, 130, rfl⟩
abbrev main_call8_v13 : Ref sig .tc := ⟨.hbm, 131, rfl⟩
abbrev main_call8_cst : Ref sig .tc := ⟨.hbm, 132, rfl⟩
abbrev main_call8_v14 : Ref sig .tc := ⟨.hbm, 133, rfl⟩
abbrev main_v18 : Ref sig .tc := ⟨.hbm, 134, rfl⟩
abbrev main_cst_4 : Ref sig .tc := ⟨.hbm, 135, rfl⟩
abbrev main_call9_v0 : Ref sig .tc := ⟨.hbm, 136, rfl⟩
abbrev main_call9_v1 : Ref sig .tc := ⟨.hbm, 137, rfl⟩
abbrev main_v19 : Ref sig .tc := ⟨.hbm, 138, rfl⟩
abbrev main_v20 : Ref sig .tc := ⟨.hbm, 139, rfl⟩
abbrev main_c_5 : Ref sig .tc := ⟨.hbm, 140, rfl⟩
abbrev main_v21 : Ref sig .tc := ⟨.hbm, 141, rfl⟩
abbrev main_v22 : Ref sig .tc := ⟨.hbm, 142, rfl⟩
abbrev main_v23 : Ref sig .tc := ⟨.hbm, 143, rfl⟩
abbrev main_cst_6 : Ref sig .tc := ⟨.hbm, 144, rfl⟩
abbrev main_call10_v0 : Ref sig .tc := ⟨.hbm, 145, rfl⟩
abbrev main_call10_v1 : Ref sig .tc := ⟨.hbm, 146, rfl⟩
abbrev main_call10_v2 : Ref sig .tc := ⟨.hbm, 147, rfl⟩
abbrev main_v24 : Ref sig .tc := ⟨.hbm, 148, rfl⟩
abbrev main_v25 : Ref sig .tc := ⟨.hbm, 149, rfl⟩
abbrev main_v26 : Ref sig .tc := ⟨.hbm, 150, rfl⟩
abbrev main_v27 : Ref sig .tc := ⟨.hbm, 151, rfl⟩
abbrev main_v28 : Ref sig .tc := ⟨.hbm, 152, rfl⟩
abbrev main_v29 : Ref sig .tc := ⟨.hbm, 153, rfl⟩
abbrev main_v30 : Ref sig .tc := ⟨.hbm, 154, rfl⟩
abbrev main_v31 : Ref sig .tc := ⟨.hbm, 155, rfl⟩
abbrev main_v32 : Ref sig .tc := ⟨.hbm, 156, rfl⟩
abbrev main_v33 : Ref sig .tc := ⟨.hbm, 157, rfl⟩
abbrev main_v34 : Ref sig .tc := ⟨.hbm, 158, rfl⟩
abbrev main_v35 : Ref sig .tc := ⟨.hbm, 159, rfl⟩
abbrev main_v36 : Ref sig .tc := ⟨.hbm, 160, rfl⟩
abbrev main_v37 : Ref sig .tc := ⟨.hbm, 161, rfl⟩
abbrev main_c_7 : Ref sig .tc := ⟨.hbm, 162, rfl⟩
abbrev main_c_8 : Ref sig .tc := ⟨.hbm, 163, rfl⟩
abbrev main_call13_v0 : Ref sig .tc := ⟨.hbm, 164, rfl⟩
abbrev main_call13_v1 : Ref sig .tc := ⟨.hbm, 165, rfl⟩
abbrev main_call13_v2 : Ref sig .tc := ⟨.hbm, 166, rfl⟩
abbrev main_call13_v3 : Ref sig .tc := ⟨.hbm, 167, rfl⟩
abbrev main_call13_v4 : Ref sig .tc := ⟨.hbm, 168, rfl⟩
abbrev main_v38 : Ref sig .tc := ⟨.hbm, 169, rfl⟩
abbrev main_v39 : Ref sig .tc := ⟨.hbm, 170, rfl⟩
abbrev main_v40 : Ref sig .tc := ⟨.hbm, 171, rfl⟩
abbrev main_v41 : Ref sig .tc := ⟨.hbm, 172, rfl⟩
abbrev main_v42 : Ref sig .tc := ⟨.hbm, 173, rfl⟩
abbrev main_v43 : Ref sig .tc := ⟨.hbm, 174, rfl⟩
abbrev main_c_9 : Ref sig .tc := ⟨.hbm, 175, rfl⟩
abbrev main_c_10 : Ref sig .tc := ⟨.hbm, 176, rfl⟩
abbrev main_call14_v0 : Ref sig .tc := ⟨.hbm, 177, rfl⟩
abbrev main_call14_v1 : Ref sig .tc := ⟨.hbm, 178, rfl⟩
abbrev main_call14_v2 : Ref sig .tc := ⟨.hbm, 179, rfl⟩
abbrev main_call14_v3 : Ref sig .tc := ⟨.hbm, 180, rfl⟩
abbrev main_call14_v4 : Ref sig .tc := ⟨.hbm, 181, rfl⟩
abbrev main_v44 : Ref sig .tc := ⟨.hbm, 182, rfl⟩
abbrev main_v45 : Ref sig .tc := ⟨.hbm, 183, rfl⟩
abbrev main_v46 : Ref sig .tc := ⟨.hbm, 184, rfl⟩
abbrev main_c_11 : Ref sig .tc := ⟨.hbm, 185, rfl⟩
abbrev main_v47 : Ref sig .tc := ⟨.hbm, 186, rfl⟩
abbrev main_v48 : Ref sig .tc := ⟨.hbm, 187, rfl⟩
abbrev main_c_12 : Ref sig .tc := ⟨.hbm, 188, rfl⟩
abbrev main_v49 : Ref sig .tc := ⟨.hbm, 189, rfl⟩
abbrev main_v50 : Ref sig .tc := ⟨.hbm, 190, rfl⟩
abbrev main_v51 : Ref sig .tc := ⟨.hbm, 191, rfl⟩
abbrev main_c_13 : Ref sig .tc := ⟨.hbm, 192, rfl⟩
abbrev main_v52 : Ref sig .tc := ⟨.hbm, 193, rfl⟩
abbrev main_v53 : Ref sig .tc := ⟨.hbm, 194, rfl⟩
abbrev main_c_14 : Ref sig .tc := ⟨.hbm, 195, rfl⟩
abbrev main_v54 : Ref sig .tc := ⟨.hbm, 196, rfl⟩
abbrev main_v55 : Ref sig .tc := ⟨.hbm, 197, rfl⟩
abbrev main_v56 : Ref sig .tc := ⟨.hbm, 198, rfl⟩
abbrev main_v57 : Ref sig .tc := ⟨.hbm, 199, rfl⟩
abbrev main_v58 : Ref sig .tc := ⟨.hbm, 200, rfl⟩
abbrev main_v59 : Ref sig .tc := ⟨.hbm, 201, rfl⟩
abbrev main_v60 : Ref sig .tc := ⟨.hbm, 202, rfl⟩
abbrev main_v61 : Ref sig .tc := ⟨.hbm, 203, rfl⟩
abbrev main_v62 : Ref sig .tc := ⟨.hbm, 204, rfl⟩
abbrev main_v63 : Ref sig .tc := ⟨.hbm, 205, rfl⟩
abbrev main_v64 : Ref sig .tc := ⟨.hbm, 206, rfl⟩
abbrev main_cst_15 : Ref sig .tc := ⟨.hbm, 207, rfl⟩
abbrev main_call15_v0 : Ref sig .tc := ⟨.hbm, 208, rfl⟩
abbrev main_call15_v1 : Ref sig .tc := ⟨.hbm, 209, rfl⟩
abbrev main_call15_v2 : Ref sig .tc := ⟨.hbm, 210, rfl⟩
abbrev main_v65 : Ref sig .tc := ⟨.hbm, 211, rfl⟩
abbrev main_v66 : Ref sig .tc := ⟨.hbm, 212, rfl⟩
abbrev main_c_16 : Ref sig .tc := ⟨.hbm, 213, rfl⟩
abbrev main_v67 : Ref sig .tc := ⟨.hbm, 214, rfl⟩
abbrev main_v68 : Ref sig .tc := ⟨.hbm, 215, rfl⟩
abbrev main_v69 : Ref sig .tc := ⟨.hbm, 216, rfl⟩
abbrev main_cst_17 : Ref sig .tc := ⟨.hbm, 217, rfl⟩
abbrev main_call16_v0 : Ref sig .tc := ⟨.hbm, 218, rfl⟩
abbrev main_call16_v1 : Ref sig .tc := ⟨.hbm, 219, rfl⟩
abbrev main_call16_v2 : Ref sig .tc := ⟨.hbm, 220, rfl⟩
abbrev main_v70 : Ref sig .tc := ⟨.hbm, 221, rfl⟩
abbrev main_v71 : Ref sig .tc := ⟨.hbm, 222, rfl⟩
abbrev main_v72 : Ref sig .tc := ⟨.hbm, 223, rfl⟩
abbrev main_v73 : Ref sig .tc := ⟨.hbm, 224, rfl⟩
abbrev main_v74 : Ref sig .tc := ⟨.hbm, 225, rfl⟩
abbrev main_v75 : Ref sig .tc := ⟨.hbm, 226, rfl⟩
abbrev main_v76 : Ref sig .tc := ⟨.hbm, 227, rfl⟩
abbrev main_v77 : Ref sig .tc := ⟨.hbm, 228, rfl⟩
abbrev main_v78 : Ref sig .tc := ⟨.hbm, 229, rfl⟩
abbrev main_v79 : Ref sig .tc := ⟨.hbm, 230, rfl⟩
abbrev main_v80 : Ref sig .tc := ⟨.hbm, 231, rfl⟩
abbrev main_v81 : Ref sig .tc := ⟨.hbm, 232, rfl⟩
abbrev main_v82 : Ref sig .tc := ⟨.hbm, 233, rfl⟩
abbrev main_v83 : Ref sig .tc := ⟨.hbm, 234, rfl⟩
abbrev main_c_18 : Ref sig .tc := ⟨.hbm, 235, rfl⟩
abbrev main_c_19 : Ref sig .tc := ⟨.hbm, 236, rfl⟩
abbrev main_call19_v0 : Ref sig .tc := ⟨.hbm, 237, rfl⟩
abbrev main_call19_v1 : Ref sig .tc := ⟨.hbm, 238, rfl⟩
abbrev main_call19_v2 : Ref sig .tc := ⟨.hbm, 239, rfl⟩
abbrev main_call19_v3 : Ref sig .tc := ⟨.hbm, 240, rfl⟩
abbrev main_call19_v4 : Ref sig .tc := ⟨.hbm, 241, rfl⟩
abbrev main_v84 : Ref sig .tc := ⟨.hbm, 242, rfl⟩
abbrev main_v85 : Ref sig .tc := ⟨.hbm, 243, rfl⟩
abbrev main_v86 : Ref sig .tc := ⟨.hbm, 244, rfl⟩
abbrev main_v87 : Ref sig .tc := ⟨.hbm, 245, rfl⟩
abbrev main_v88 : Ref sig .tc := ⟨.hbm, 246, rfl⟩
abbrev main_v89 : Ref sig .tc := ⟨.hbm, 247, rfl⟩
abbrev main_c_20 : Ref sig .tc := ⟨.hbm, 248, rfl⟩
abbrev main_c_21 : Ref sig .tc := ⟨.hbm, 249, rfl⟩
abbrev main_call20_v0 : Ref sig .tc := ⟨.hbm, 250, rfl⟩
abbrev main_call20_v1 : Ref sig .tc := ⟨.hbm, 251, rfl⟩
abbrev main_call20_v2 : Ref sig .tc := ⟨.hbm, 252, rfl⟩
abbrev main_call20_v3 : Ref sig .tc := ⟨.hbm, 253, rfl⟩
abbrev main_call20_v4 : Ref sig .tc := ⟨.hbm, 254, rfl⟩
abbrev main_v90 : Ref sig .tc := ⟨.hbm, 255, rfl⟩
abbrev main_v91 : Ref sig .tc := ⟨.hbm, 256, rfl⟩
abbrev main_v92 : Ref sig .tc := ⟨.hbm, 257, rfl⟩
abbrev main_c_22 : Ref sig .tc := ⟨.hbm, 258, rfl⟩
abbrev main_v93 : Ref sig .tc := ⟨.hbm, 259, rfl⟩
abbrev main_v94 : Ref sig .tc := ⟨.hbm, 260, rfl⟩
abbrev main_c_23 : Ref sig .tc := ⟨.hbm, 261, rfl⟩
abbrev main_v95 : Ref sig .tc := ⟨.hbm, 262, rfl⟩
abbrev main_v96 : Ref sig .tc := ⟨.hbm, 263, rfl⟩
abbrev main_v97 : Ref sig .tc := ⟨.hbm, 264, rfl⟩
abbrev main_c_24 : Ref sig .tc := ⟨.hbm, 265, rfl⟩
abbrev main_v98 : Ref sig .tc := ⟨.hbm, 266, rfl⟩
abbrev main_v99 : Ref sig .tc := ⟨.hbm, 267, rfl⟩
abbrev main_c_25 : Ref sig .tc := ⟨.hbm, 268, rfl⟩
abbrev main_v100 : Ref sig .tc := ⟨.hbm, 269, rfl⟩
abbrev main_v101 : Ref sig .tc := ⟨.hbm, 270, rfl⟩
abbrev main_v102 : Ref sig .tc := ⟨.hbm, 271, rfl⟩
abbrev main_v103 : Ref sig .tc := ⟨.hbm, 272, rfl⟩
abbrev main_v104 : Ref sig .tc := ⟨.hbm, 273, rfl⟩
abbrev main_v105 : Ref sig .tc := ⟨.hbm, 274, rfl⟩
abbrev main_v106 : Ref sig .tc := ⟨.hbm, 275, rfl⟩
abbrev main_v107 : Ref sig .tc := ⟨.hbm, 276, rfl⟩
abbrev main_v108 : Ref sig .tc := ⟨.hbm, 277, rfl⟩
abbrev main_v109 : Ref sig .tc := ⟨.hbm, 278, rfl⟩
abbrev main_v110 : Ref sig .tc := ⟨.hbm, 279, rfl⟩
abbrev main_cst_26 : Ref sig .tc := ⟨.hbm, 280, rfl⟩
abbrev main_call21_v0 : Ref sig .tc := ⟨.hbm, 281, rfl⟩
abbrev main_call21_v1 : Ref sig .tc := ⟨.hbm, 282, rfl⟩
abbrev main_call21_v2 : Ref sig .tc := ⟨.hbm, 283, rfl⟩
abbrev main_v111 : Ref sig .tc := ⟨.hbm, 284, rfl⟩
abbrev main_v112 : Ref sig .tc := ⟨.hbm, 285, rfl⟩
abbrev main_v113 : Ref sig .tc := ⟨.hbm, 286, rfl⟩
abbrev main_v114 : Ref sig .tc := ⟨.hbm, 287, rfl⟩
abbrev main_v115 : Ref sig .tc := ⟨.hbm, 288, rfl⟩
abbrev main_v116 : Ref sig .tc := ⟨.hbm, 289, rfl⟩
abbrev main_v117 : Ref sig .tc := ⟨.hbm, 290, rfl⟩
abbrev main_v118 : Ref sig .tc := ⟨.hbm, 291, rfl⟩
abbrev main_v119 : Ref sig .tc := ⟨.hbm, 292, rfl⟩
abbrev main_v120 : Ref sig .tc := ⟨.hbm, 293, rfl⟩
abbrev main_v121 : Ref sig .tc := ⟨.hbm, 294, rfl⟩
abbrev main_v122 : Ref sig .tc := ⟨.hbm, 295, rfl⟩
abbrev main_v123 : Ref sig .tc := ⟨.hbm, 296, rfl⟩
abbrev main_v124 : Ref sig .tc := ⟨.hbm, 297, rfl⟩
abbrev main_v125 : Ref sig .tc := ⟨.hbm, 298, rfl⟩
abbrev main_cst_27 : Ref sig .tc := ⟨.hbm, 299, rfl⟩
abbrev main_v126 : Ref sig .tc := ⟨.hbm, 300, rfl⟩
abbrev main_cst_28 : Ref sig .tc := ⟨.hbm, 301, rfl⟩
abbrev main_v127 : Ref sig .tc := ⟨.hbm, 302, rfl⟩
abbrev main_v128 : Ref sig .tc := ⟨.hbm, 303, rfl⟩
abbrev main_v129 : Ref sig .tc := ⟨.hbm, 304, rfl⟩
abbrev main_v130 : Ref sig .tc := ⟨.hbm, 305, rfl⟩
abbrev main_v131 : Ref sig .tc := ⟨.hbm, 306, rfl⟩
abbrev main_v132 : Ref sig .tc := ⟨.hbm, 307, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x1023 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1023 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1023 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1023 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1023 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S32x1024x2_S32x1024x1_0_0_0 : S32x1024x2.Slices ![0, 0, 0] S32x1024x1
  shapeCasts_S32x1024x1_S32x1024 : S32x1024x1.ShapeCasts S32x1024
  slices_S32x1024x2_S32x1024x1_0_0_1 : S32x1024x2.Slices ![0, 0, 1] S32x1024x1
  bcast_S_S32x1024 : S_.BroadcastsInDim S32x1024 (![] : Fin 0 → Fin S32x1024.rank)
  bcast_S32x1024_S32x1024x1_0_1 : S32x1024.BroadcastsInDim S32x1024x1 (![0, 1] : Fin 2 → Fin S32x1024x1.rank)
  bcast_S_S32x1024x1 : S_.BroadcastsInDim S32x1024x1 (![] : Fin 0 → Fin S32x1024x1.rank)
  bcast_S1_S1x1x1_2 : S1.BroadcastsInDim S1x1x1 (![2] : Fin 1 → Fin S1x1x1.rank)
  bcast_S1x1x1_S32x1024x1_0_1_2 : S1x1x1.BroadcastsInDim S32x1024x1 (![0, 1, 2] : Fin 3 → Fin S32x1024x1.rank)
  reducesTo_S32x1024x1_S32x1024_d2 : S32x1024x1.ReducesTo [2] S32x1024
  h_S_ : 0 < S_.numel
  bcast_S32x1024_S32x1024x2_0_1 : S32x1024.BroadcastsInDim S32x1024x2 (![0, 1] : Fin 2 → Fin S32x1024x2.rank)
  bcast_S_S32x1024x2 : S_.BroadcastsInDim S32x1024x2 (![] : Fin 0 → Fin S32x1024x2.rank)
  bcast_S32x1024x1_S32x1024x2_0_1_2 : S32x1024x1.BroadcastsInDim S32x1024x2 (![0, 1, 2] : Fin 3 → Fin S32x1024x2.rank)
  shapeCasts_S32x1024_S32x1024x1 : S32x1024.ShapeCasts S32x1024x1
  bcast_S_S16 : S_.BroadcastsInDim S16 (![] : Fin 0 → Fin S16.rank)
  bcast_S16_S1x1x16_2 : S16.BroadcastsInDim S1x1x16 (![2] : Fin 1 → Fin S1x1x16.rank)
  bcast_S32x1024x1_S32x1024x16_0_1_2 : S32x1024x1.BroadcastsInDim S32x1024x16 (![0, 1, 2] : Fin 3 → Fin S32x1024x16.rank)
  bcast_S1x1x16_S32x1024x16_0_1_2 : S1x1x16.BroadcastsInDim S32x1024x16 (![0, 1, 2] : Fin 3 → Fin S32x1024x16.rank)
  bcast_S_S32x1024x16 : S_.BroadcastsInDim S32x1024x16 (![] : Fin 0 → Fin S32x1024x16.rank)
  bcast_S32x1024x16_S32x1024x16x1_0_1_2 : S32x1024x16.BroadcastsInDim S32x1024x16x1 (![0, 1, 2] : Fin 3 → Fin S32x1024x16x1.rank)
  bcast_S32x1024x16_S32x1024x1x16_0_1_3 : S32x1024x16.BroadcastsInDim S32x1024x1x16 (![0, 1, 3] : Fin 3 → Fin S32x1024x1x16.rank)
  bcast_S_S32x1024x16x1 : S_.BroadcastsInDim S32x1024x16x1 (![] : Fin 0 → Fin S32x1024x16x1.rank)
  bcast_S_S32x1024x1x16 : S_.BroadcastsInDim S32x1024x1x16 (![] : Fin 0 → Fin S32x1024x1x16.rank)
  bcast_S32x1024x16x1_S32x1024x16x16_0_1_2_3 : S32x1024x16x1.BroadcastsInDim S32x1024x16x16 (![0, 1, 2, 3] : Fin 4 → Fin S32x1024x16x16.rank)
  bcast_S32x1024x1x16_S32x1024x16x16_0_1_2_3 : S32x1024x1x16.BroadcastsInDim S32x1024x16x16 (![0, 1, 2, 3] : Fin 4 → Fin S32x1024x16x16.rank)
  bcast_S32x1024x16x16_S32x1024x16x16x1_0_1_2_3 : S32x1024x16x16.BroadcastsInDim S32x1024x16x16x1 (![0, 1, 2, 3] : Fin 4 → Fin S32x1024x16x16x1.rank)
  concatenates_S32x1024x16x16x1_S32x1024x16x16x1_S32x1024x16x16x2_d4 : Shape.Concatenates [S32x1024x16x16x1, S32x1024x16x16x1] S32x1024x16x16x2 4
  transposes_S32x3x1024x16x16_S32x1024x3x16x16_0_2_1_3_4 : S32x3x1024x16x16.Transposes [0, 2, 1, 3, 4] S32x1024x3x16x16
  bcast_S32x1024_S32x1024x1x1x1_0_1 : S32x1024.BroadcastsInDim S32x1024x1x1x1 (![0, 1] : Fin 2 → Fin S32x1024x1x1x1.rank)
  bcast_S32x1024x1x1x1_S32x1024x3x16x16_0_1_2_3_4 : S32x1024x1x1x1.BroadcastsInDim S32x1024x3x16x16 (![0, 1, 2, 3, 4] : Fin 5 → Fin S32x1024x3x16x16.rank)
  bcast_S_S32x1024x3x16x16 : S_.BroadcastsInDim S32x1024x3x16x16 (![] : Fin 0 → Fin S32x1024x3x16x16.rank)
  concatenates_S32x1024x3x16x16_S32x1024x3x16x16_S32x2048x3x16x16_d1 : Shape.Concatenates [S32x1024x3x16x16, S32x1024x3x16x16] S32x2048x3x16x16 1
  shapeCasts_S32x2048x3x16x16_S32x2048x768 : S32x2048x3x16x16.ShapeCasts S32x2048x768
  shapeCasts_S32x2048x768_S65536x768 : S32x2048x768.ShapeCasts S65536x768
  bitsLt_bf16_f32 : FTy.bits .bf16 < FTy.bits .f32
  shapeCasts_S768_S1x768 : S768.ShapeCasts S1x768
  shapeCasts_S1023_S1x1023 : S1023.ShapeCasts S1x1023
  inb_S512x768_S512x768_0_0 : ∀ a, (![0, 0] : Fin 2 → Nat) a + S512x768.size a ≤ S512x768.size a
  h_S512x768 : 0 < S512x768.numel
  shapeCasts_S512x768_S512x768 : S512x768.ShapeCasts S512x768
  reduces_S512x768_S512 : S512x768.Reduces [1] S512
  shapeCasts_S512_S512x1 : S512.ShapeCasts S512x1
  broadcasts_S512x1_S512x768 : S512x1.Broadcasts S512x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S512x768 : S1x768.Broadcasts S512x768
  inb_S768x1023_S768x1023_0_0 : ∀ a, (![0, 0] : Fin 2 → Nat) a + S768x1023.size a ≤ S768x1023.size a
  h_S768x1023 : 0 < S768x1023.numel
  shapeCasts_S768x1023_S768x1023 : S768x1023.ShapeCasts S768x1023
  inb_S1x1023_S1x1023_0_0 : ∀ a, (![0, 0] : Fin 2 → Nat) a + S1x1023.size a ≤ S1x1023.size a
  h_S1x1023 : 0 < S1x1023.numel
  shapeCasts_S1x1023_S1x1023 : S1x1023.ShapeCasts S1x1023
  broadcasts_S1x1023_S512x1023 : S1x1023.Broadcasts S512x1023
  reduces_S512x1023_S512 : S512x1023.Reduces [1] S512
  broadcasts_S512x1_S512x1023 : S512x1.Broadcasts S512x1023
  inb_S512x1023_S512x1023_0_0 : ∀ a, (![0, 0] : Fin 2 → Nat) a + S512x1023.size a ≤ S512x1023.size a
  h_S512x1023 : 0 < S512x1023.numel
  shapeCasts_S65536x1023_S32x2048x1023 : S65536x1023.ShapeCasts S32x2048x1023
  concatenates_S32x1024_S32x1024_S32x2048_d1 : Shape.Concatenates [S32x1024, S32x1024] S32x2048 1
  bcast_S32x2048_S32x2048x1_0_1 : S32x2048.BroadcastsInDim S32x2048x1 (![0, 1] : Fin 2 → Fin S32x2048x1.rank)
  concatenates_S32x2048x1023_S32x2048x1_S32x2048x1024_d2 : Shape.Concatenates [S32x2048x1023, S32x2048x1] S32x2048x1024 2
  reducesTo_S32x1024x64_S32x1024_d2 : S32x1024x64.ReducesTo [2] S32x1024
  bcast_S6_S1x6_1 : S6.BroadcastsInDim S1x6 (![1] : Fin 1 → Fin S1x6.rank)
  bcast_S1x6_S32x6_0_1 : S1x6.BroadcastsInDim S32x6 (![0, 1] : Fin 2 → Fin S32x6.rank)
  gather_S32x2048x2_S32x1024x1_S32x1024x2_2_1_0_0_1_2_112_wf : GatherDims.WF S32x2048x2 S32x1024x1 S32x1024x2 [2] [1] [0] [1] [0] 2 ![1, 1, 2]
  gather_S32x2048_S32x1024x1_S32x1024_n_1_0_0_1_2_11_wf : GatherDims.WF S32x2048 S32x1024x1 S32x1024 [] [1] [0] [1] [0] 2 ![1, 1]
  gather_S32x3x256x256_S32x1024x16x16x2_S32x3x1024x16x16_1_23_0_0_23_4_1311_wf : GatherDims.WF S32x3x256x256 S32x1024x16x16x2 S32x3x1024x16x16 [1] [2, 3] [0] [2, 3] [0] 4 ![1, 3, 1, 1]
  dot_S512x768_S768x1023_S512x1023_1_0_0_1_n_n_wf : DotDims.WF S512x768 S768x1023 S512x1023 [1] [0] [0] [1] [] []
  dot_S32x1024_S1024x6_S32x6_1_0_0_1_n_n_wf : DotDims.WF S32x1024 S1024x6 S32x6 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x768.size a ≤ S65536x768.size a
  hwx0_0 : ∀ i : grid0.Coords, EltTy.bits .f32 = 32 ∨ (Rect.block (s := S65536x768) S512x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x768.size a ≤ S1x768.size a
  hwx0_1 : ∀ i : grid0.Coords, EltTy.bits .f32 = 32 ∨ (Rect.block (s := S1x768) S1x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x768.size a ≤ S1x768.size a
  hwx0_2 : ∀ i : grid0.Coords, EltTy.bits .f32 = 32 ∨ (Rect.block (s := S1x768) S1x768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x1023.size a ≤ S768x1023.size a
  hwx0_3 : ∀ i : grid0.Coords, EltTy.bits .bf16 = 32 ∨ (Rect.block (s := S768x1023) S768x1023.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1023.size a ≤ S1x1023.size a
  hwx0_4 : ∀ i : grid0.Coords, EltTy.bits .f32 = 32 ∨ (Rect.block (s := S1x1023) S1x1023.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1023.size a ≤ S1x1023.size a
  hwx0_5 : ∀ i : grid0.Coords, EltTy.bits .f32 = 32 ∨ (Rect.block (s := S1x1023) S1x1023.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1023.size a ≤ S1x1023.size a
  hwx0_6 : ∀ i : grid0.Coords, EltTy.bits .f32 = 32 ∨ (Rect.block (s := S1x1023) S1x1023.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1023.size a ≤ S65536x1023.size a
  hwx0_7 : ∀ i : grid0.Coords, EltTy.bits .f32 = 32 ∨ (Rect.block (s := S65536x1023) S512x1023.size (cc0_transform_7 i) (hinb0_7 i)).WholeWords (EltTy.packing .f32)

variable [Facts₀]

def gather_S32x2048x2_S32x1024x1_S32x1024x2_2_1_0_0_1_2_112 : GatherDims S32x2048x2 S32x1024x1 S32x1024x2 where
  offsetDims := [2]
  collapsedSliceDims := [1]
  operandBatchingDims := [0]
  startIndicesBatchingDims := [0]
  startIndexMap := [1]
  indexVectorDim := 2
  sliceSizes := ![1, 1, 2]
  wf := gather_S32x2048x2_S32x1024x1_S32x1024x2_2_1_0_0_1_2_112_wf
def gather_S32x2048_S32x1024x1_S32x1024_n_1_0_0_1_2_11 : GatherDims S32x2048 S32x1024x1 S32x1024 where
  offsetDims := []
  collapsedSliceDims := [1]
  operandBatchingDims := [0]
  startIndicesBatchingDims := [0]
  startIndexMap := [1]
  indexVectorDim := 2
  sliceSizes := ![1, 1]
  wf := gather_S32x2048_S32x1024x1_S32x1024_n_1_0_0_1_2_11_wf
def gather_S32x3x256x256_S32x1024x16x16x2_S32x3x1024x16x16_1_23_0_0_23_4_1311 : GatherDims S32x3x256x256 S32x1024x16x16x2 S32x3x1024x16x16 where
  offsetDims := [1]
  collapsedSliceDims := [2, 3]
  operandBatchingDims := [0]
  startIndicesBatchingDims := [0]
  startIndexMap := [2, 3]
  indexVectorDim := 4
  sliceSizes := ![1, 3, 1, 1]
  wf := gather_S32x3x256x256_S32x1024x16x16x2_S32x3x1024x16x16_1_23_0_0_23_4_1311_wf
def dot_S512x768_S768x1023_S512x1023_1_0_0_1_n_n : DotDims S512x768 S768x1023 S512x1023 where
  lhsContracting := [1]
  rhsContracting := [0]
  lhsNonContracting := [0]
  rhsNonContracting := [1]
  lhsBatch := []
  rhsBatch := []
  wf := dot_S512x768_S768x1023_S512x1023_1_0_0_1_n_n_wf
def dot_S32x1024_S1024x6_S32x6_1_0_0_1_n_n : DotDims S32x1024 S1024x6 S32x6 where
  lhsContracting := [1]
  rhsContracting := [0]
  lhsNonContracting := [0]
  rhsNonContracting := [1]
  lhsBatch := []
  rhsBatch := []
  wf := dot_S32x1024_S1024x6_S32x6_1_0_0_1_n_n_wf

abbrev win0_0 : Pipeline.Window sig grid0 :=
  Pipeline.Window.ofSpec (Memref.whole main_v114) S512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v116) S1x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v117) S1x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v115) S768x1023.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v118) S1x1023.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v119) S1x1023.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v120) S1x1023.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v121) S512x1023.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S32x3x256x256 : Shape := ⟨4, ![32, 3, 256, 256]⟩
abbrev S32x2048x2 : Shape := ⟨3, ![32, 2048, 2]⟩
abbrev S32x2048 : Shape := ⟨2, ![32, 2048]⟩
abbrev S32x1024x2 : Shape := ⟨3, ![32, 1024, 2]⟩
abbrev S32x1024x64 : Shape := ⟨3, ![32, 1024, 64]⟩
abbrev S768 : Shape := ⟨1, ![768]⟩
abbrev S768x1023 : Shape := ⟨2, ![768, 1023]⟩
abbrev S1023 : Shape := ⟨1, ![1023]⟩
abbrev S1024x6 : Shape := ⟨2, ![1024, 6]⟩
abbrev S6 : Shape := ⟨1, ![6]⟩
abbrev S32x1024x1 : Shape := ⟨3, ![32, 1024, 1]⟩
abbrev S32x1024 : Shape := ⟨2, ![32, 1024]⟩
abbrev S_ : Shape := ⟨0, ![]⟩
abbrev S1 : Shape := ⟨1, ![1]⟩
abbrev S1x1x1 : Shape := ⟨3, ![1, 1, 1]⟩
abbrev S16 : Shape := ⟨1, ![16]⟩
abbrev S1x1x16 : Shape := ⟨3, ![1, 1, 16]⟩
abbrev S32x1024x16 : Shape := ⟨3, ![32, 1024, 16]⟩
abbrev S32x1024x16x1 : Shape := ⟨4, ![32, 1024, 16, 1]⟩
abbrev S32x1024x1x16 : Shape := ⟨4, ![32, 1024, 1, 16]⟩
abbrev S32x1024x16x16 : Shape := ⟨4, ![32, 1024, 16, 16]⟩
abbrev S32x1024x16x16x1 : Shape := ⟨5, ![32, 1024, 16, 16, 1]⟩
abbrev S32x1024x16x16x2 : Shape := ⟨5, ![32, 1024, 16, 16, 2]⟩
abbrev S32x3x1024x16x16 : Shape := ⟨5, ![32, 3, 1024, 16, 16]⟩
abbrev S32x1024x3x16x16 : Shape := ⟨5, ![32, 1024, 3, 16, 16]⟩
abbrev S32x1024x1x1x1 : Shape := ⟨5, ![32, 1024, 1, 1, 1]⟩
abbrev S32x2048x3x16x16 : Shape := ⟨5, ![32, 2048, 3, 16, 16]⟩
abbrev S32x2048x768 : Shape := ⟨3, ![32, 2048, 768]⟩
abbrev S32x2048x1 : Shape := ⟨3, ![32, 2048, 1]⟩
abbrev S1x1x768 : Shape := ⟨3, ![1, 1, 768]⟩
abbrev S32x2048x1023 : Shape := ⟨3, ![32, 2048, 1023]⟩
abbrev S1x1x1023 : Shape := ⟨3, ![1, 1, 1023]⟩
abbrev S32x2048x1024 : Shape := ⟨3, ![32, 2048, 1024]⟩
abbrev S32x6 : Shape := ⟨2, ![32, 6]⟩
abbrev S1x6 : Shape := ⟨2, ![1, 6]⟩

abbrev nBuf : Space → Nat
  | .hbm => 361
  | .vmem => 0
  | .smem => 0
  | _ => 0

abbrev hbmTy0_0 (i : Nat) : BufTy := match i % 128 with
  | 0 => ⟨S32x3x256x256, .f32⟩
  | 1 => ⟨S32x3x256x256, .f32⟩
  | 2 => ⟨S32x2048x2, .f32⟩
  | 3 => ⟨S32x2048x2, .f32⟩
  | 4 => ⟨S32x2048, .f32⟩
  | 5 => ⟨S32x2048, .f32⟩
  | 6 => ⟨S32x1024x2, .i32⟩
  | 7 => ⟨S32x1024x64, .f32⟩
  | 8 => ⟨S768, .f32⟩
  | 9 => ⟨S768, .f32⟩
  | 10 => ⟨S768x1023, .f32⟩
  | 11 => ⟨S1023, .f32⟩
  | 12 => ⟨S1023, .f32⟩
  | 13 => ⟨S1023, .f32⟩
  | 14 => ⟨S1024x6, .f32⟩
  | 15 => ⟨S6, .f32⟩
  | 16 => ⟨S32x1024x1, .i32⟩
  | 17 => ⟨S32x1024, .i32⟩
  | 18 => ⟨S32x1024x1, .i32⟩
  | 19 => ⟨S32x1024, .i32⟩
  | 20 => ⟨S_, .i32⟩
  | 21 => ⟨S32x1024, .i32⟩
  | 22 => ⟨S32x1024, .i1⟩
  | 23 => ⟨S_, .i32⟩
  | 24 => ⟨S_, .i32⟩
  | 25 => ⟨S32x1024, .i32⟩
  | 26 => ⟨S32x1024, .i32⟩
  | 27 => ⟨S_, .i32⟩
  | 28 => ⟨S_, .i32⟩
  | 29 => ⟨S32x1024, .i32⟩
  | 30 => ⟨S32x1024, .i32⟩
  | 31 => ⟨S32x1024x1, .i32⟩
  | 32 => ⟨S_, .i32⟩
  | 33 => ⟨S32x1024x1, .i32⟩
  | 34 => ⟨S32x1024x1, .i1⟩
  | 35 => ⟨S_, .i32⟩
  | 36 => ⟨S32x1024x1, .i32⟩
  | 37 => ⟨S32x1024x1, .i32⟩
  | 38 => ⟨S32x1024x1, .i32⟩
  | 39 => ⟨S1, .i32⟩
  | 40 => ⟨S_, .i32⟩
  | 41 => ⟨S32x1024x1, .i32⟩
  | 42 => ⟨S32x1024x1, .i1⟩
  | 43 => ⟨S1x1x1, .i32⟩
  | 44 => ⟨S32x1024x1, .i32⟩
  | 45 => ⟨S32x1024x1, .i1⟩
  | 46 => ⟨S32x1024x1, .i1⟩
  | 47 => ⟨S_, .i1⟩
  | 48 => ⟨S32x1024, .i1⟩
  | 49 => ⟨S32x1024x2, .f32⟩
  | 50 => ⟨S32x1024x2, .i1⟩
  | 51 => ⟨S_, .f32⟩
  | 52 => ⟨S32x1024x2, .f32⟩
  | 53 => ⟨S32x1024x2, .f32⟩
  | 54 => ⟨S32x1024x1, .i32⟩
  | 55 => ⟨S_, .i32⟩
  | 56 => ⟨S32x1024x1, .i32⟩
  | 57 => ⟨S32x1024x1, .i1⟩
  | 58 => ⟨S_, .i32⟩
  | 59 => ⟨S32x1024x1, .i32⟩
  | 60 => ⟨S32x1024x1, .i32⟩
  | 61 => ⟨S32x1024x1, .i32⟩
  | 62 => ⟨S1, .i32⟩
  | 63 => ⟨S_, .i32⟩
  | 64 => ⟨S32x1024x1, .i32⟩
  | 65 => ⟨S32x1024x1, .i1⟩
  | 66 => ⟨S1x1x1, .i32⟩
  | 67 => ⟨S32x1024x1, .i32⟩
  | 68 => ⟨S32x1024x1, .i1⟩
  | 69 => ⟨S32x1024x1, .i1⟩
  | 70 => ⟨S_, .i1⟩
  | 71 => ⟨S32x1024, .i1⟩
  | 72 => ⟨S32x1024x2, .f32⟩
  | 73 => ⟨S32x1024x2, .i1⟩
  | 74 => ⟨S_, .f32⟩
  | 75 => ⟨S32x1024x2, .f32⟩
  | 76 => ⟨S32x1024x2, .f32⟩
  | 77 => ⟨S32x1024x1, .i1⟩
  | 78 => ⟨S_, .f32⟩
  | 79 => ⟨S32x1024x2, .i1⟩
  | 80 => ⟨S32x1024x2, .f32⟩
  | 81 => ⟨S32x1024x2, .f32⟩
  | 82 => ⟨S32x1024x1, .i1⟩
  | 83 => ⟨S_, .f32⟩
  | 84 => ⟨S32x1024x2, .i1⟩
  | 85 => ⟨S32x1024x2, .f32⟩
  | 86 => ⟨S32x1024x2, .f32⟩
  | 87 => ⟨S_, .i32⟩
  | 88 => ⟨S32x1024, .i32⟩
  | 89 => ⟨S32x1024, .i1⟩
  | 90 => ⟨S_, .i32⟩
  | 91 => ⟨S32x1024, .i32⟩
  | 92 => ⟨S32x1024, .i32⟩
  | 93 => ⟨S32x1024, .i32⟩
  | 94 => ⟨S32x1024x1, .i32⟩
  | 95 => ⟨S1, .i32⟩
  | 96 => ⟨S_, .i32⟩
  | 97 => ⟨S32x1024x1, .i32⟩
  | 98 => ⟨S32x1024x1, .i1⟩
  | 99 => ⟨S1x1x1, .i32⟩
  | 100 => ⟨S32x1024x1, .i32⟩
  | 101 => ⟨S32x1024x1, .i1⟩
  | 102 => ⟨S32x1024x1, .i1⟩
  | 103 => ⟨S_, .i1⟩
  | 104 => ⟨S32x1024, .i1⟩
  | 105 => ⟨S32x1024, .f32⟩
  | 106 => ⟨S_, .f32⟩
  | 107 => ⟨S32x1024, .f32⟩
  | 108 => ⟨S32x1024, .f32⟩
  | 109 => ⟨S_, .f32⟩
  | 110 => ⟨S_, .f32⟩
  | 111 => ⟨S32x1024, .f32⟩
  | 112 => ⟨S32x1024, .f32⟩
  | 113 => ⟨S_, .i32⟩
  | 114 => ⟨S32x1024, .i32⟩
  | 115 => ⟨S32x1024, .i1⟩
  | 116 => ⟨S_, .i32⟩
  | 117 => ⟨S32x1024, .i32⟩
  | 118 => ⟨S32x1024, .i32⟩
  | 119 => ⟨S32x1024, .i32⟩
  | 120 => ⟨S32x1024x1, .i32⟩
  | 121 => ⟨S1, .i32⟩
  | 122 => ⟨S_, .i32⟩
  | 123 => ⟨S32x1024x1, .i32⟩
  | 124 => ⟨S32x1024x1, .i1⟩
  | 125 => ⟨S1x1x1, .i32⟩
  | 126 => ⟨S32x1024x1, .i32⟩
  | 127 => ⟨S32x1024x1, .i1⟩
  | _ => ⟨S32x3x256x256, .f32⟩

abbrev hbmTy0_1 (i : Nat) : BufTy := match i % 128 with
  | 0 => ⟨S32x1024x1, .i1⟩
  | 1 => ⟨S_, .i1⟩
  | 2 => ⟨S32x1024, .i1⟩
  | 3 => ⟨S32x1024, .f32⟩
  | 4 => ⟨S_, .f32⟩
  | 5 => ⟨S32x1024, .f32⟩
  | 6 => ⟨S32x1024, .f32⟩
  | 7 => ⟨S_, .f32⟩
  | 8 => ⟨S_, .f32⟩
  | 9 => ⟨S32x1024, .f32⟩
  | 10 => ⟨S32x1024, .f32⟩
  | 11 => ⟨S16, .i32⟩
  | 12 => ⟨S_, .i32⟩
  | 13 => ⟨S16, .i32⟩
  | 14 => ⟨S16, .i32⟩
  | 15 => ⟨S32x1024x1, .i1⟩
  | 16 => ⟨S_, .f32⟩
  | 17 => ⟨S_, .f32⟩
  | 18 => ⟨S32x1024x2, .i1⟩
  | 19 => ⟨S32x1024x2, .f32⟩
  | 20 => ⟨S32x1024x2, .f32⟩
  | 21 => ⟨S32x1024x1, .f32⟩
  | 22 => ⟨S32x1024, .f32⟩
  | 23 => ⟨S32x1024, .f32⟩
  | 24 => ⟨S32x1024, .i32⟩
  | 25 => ⟨S32x1024x1, .f32⟩
  | 26 => ⟨S32x1024, .f32⟩
  | 27 => ⟨S32x1024, .f32⟩
  | 28 => ⟨S32x1024, .i32⟩
  | 29 => ⟨S32x1024x1, .i32⟩
  | 30 => ⟨S1x1x16, .i32⟩
  | 31 => ⟨S32x1024x16, .i32⟩
  | 32 => ⟨S32x1024x16, .i32⟩
  | 33 => ⟨S32x1024x16, .i32⟩
  | 34 => ⟨S_, .i32⟩
  | 35 => ⟨S_, .i32⟩
  | 36 => ⟨S_, .i32⟩
  | 37 => ⟨S32x1024x16, .i32⟩
  | 38 => ⟨S32x1024x16, .i32⟩
  | 39 => ⟨S_, .i32⟩
  | 40 => ⟨S32x1024x16, .i32⟩
  | 41 => ⟨S32x1024x16, .i32⟩
  | 42 => ⟨S32x1024x1, .i32⟩
  | 43 => ⟨S1x1x16, .i32⟩
  | 44 => ⟨S32x1024x16, .i32⟩
  | 45 => ⟨S32x1024x16, .i32⟩
  | 46 => ⟨S32x1024x16, .i32⟩
  | 47 => ⟨S_, .i32⟩
  | 48 => ⟨S_, .i32⟩
  | 49 => ⟨S_, .i32⟩
  | 50 => ⟨S32x1024x16, .i32⟩
  | 51 => ⟨S32x1024x16, .i32⟩
  | 52 => ⟨S_, .i32⟩
  | 53 => ⟨S32x1024x16, .i32⟩
  | 54 => ⟨S32x1024x16, .i32⟩
  | 55 => ⟨S32x1024x16x1, .i32⟩
  | 56 => ⟨S32x1024x1x16, .i32⟩
  | 57 => ⟨S_, .i32⟩
  | 58 => ⟨S32x1024x16x1, .i32⟩
  | 59 => ⟨S32x1024x16x1, .i1⟩
  | 60 => ⟨S_, .i32⟩
  | 61 => ⟨S32x1024x16x1, .i32⟩
  | 62 => ⟨S32x1024x16x1, .i32⟩
  | 63 => ⟨S32x1024x16x1, .i32⟩
  | 64 => ⟨S_, .i32⟩
  | 65 => ⟨S32x1024x1x16, .i32⟩
  | 66 => ⟨S32x1024x1x16, .i1⟩
  | 67 => ⟨S_, .i32⟩
  | 68 => ⟨S32x1024x1x16, .i32⟩
  | 69 => ⟨S32x1024x1x16, .i32⟩
  | 70 => ⟨S32x1024x1x16, .i32⟩
  | 71 => ⟨S32x1024x16x16, .i32⟩
  | 72 => ⟨S32x1024x16x16, .i32⟩
  | 73 => ⟨S32x1024x16x16x1, .i32⟩
  | 74 => ⟨S32x1024x16x16x1, .i32⟩
  | 75 => ⟨S32x1024x16x16x2, .i32⟩
  | 76 => ⟨S32x3x1024x16x16, .f32⟩
  | 77 => ⟨S32x1024x3x16x16, .f32⟩
  | 78 => ⟨S32x1024x1x1x1, .i1⟩
  | 79 => ⟨S_, .f32⟩
  | 80 => ⟨S_, .f32⟩
  | 81 => ⟨S32x1024x3x16x16, .i1⟩
  | 82 => ⟨S32x1024x3x16x16, .f32⟩
  | 83 => ⟨S32x1024x3x16x16, .f32⟩
  | 84 => ⟨S16, .i32⟩
  | 85 => ⟨S_, .i32⟩
  | 86 => ⟨S16, .i32⟩
  | 87 => ⟨S16, .i32⟩
  | 88 => ⟨S32x1024x1, .i1⟩
  | 89 => ⟨S_, .f32⟩
  | 90 => ⟨S_, .f32⟩
  | 91 => ⟨S32x1024x2, .i1⟩
  | 92 => ⟨S32x1024x2, .f32⟩
  | 93 => ⟨S32x1024x2, .f32⟩
  | 94 => ⟨S32x1024x1, .f32⟩
  | 95 => ⟨S32x1024, .f32⟩
  | 96 => ⟨S32x1024, .f32⟩
  | 97 => ⟨S32x1024, .i32⟩
  | 98 => ⟨S32x1024x1, .f32⟩
  | 99 => ⟨S32x1024, .f32⟩
  | 100 => ⟨S32x1024, .f32⟩
  | 101 => ⟨S32x1024, .i32⟩
  | 102 => ⟨S32x1024x1, .i32⟩
  | 103 => ⟨S1x1x16, .i32⟩
  | 104 => ⟨S32x1024x16, .i32⟩
  | 105 => ⟨S32x1024x16, .i32⟩
  | 106 => ⟨S32x1024x16, .i32⟩
  | 107 => ⟨S_, .i32⟩
  | 108 => ⟨S_, .i32⟩
  | 109 => ⟨S_, .i32⟩
  | 110 => ⟨S32x1024x16, .i32⟩
  | 111 => ⟨S32x1024x16, .i32⟩
  | 112 => ⟨S_, .i32⟩
  | 113 => ⟨S32x1024x16, .i32⟩
  | 114 => ⟨S32x1024x16, .i32⟩
  | 115 => ⟨S32x1024x1, .i32⟩
  | 116 => ⟨S1x1x16, .i32⟩
  | 117 => ⟨S32x1024x16, .i32⟩
  | 118 => ⟨S32x1024x16, .i32⟩
  | 119 => ⟨S32x1024x16, .i32⟩
  | 120 => ⟨S_, .i32⟩
  | 121 => ⟨S_, .i32⟩
  | 122 => ⟨S_, .i32⟩
  | 123 => ⟨S32x1024x16, .i32⟩
  | 124 => ⟨S32x1024x16, .i32⟩
  | 125 => ⟨S_, .i32⟩
  | 126 => ⟨S32x1024x16, .i32⟩
  | 127 => ⟨S32x1024x16, .i32⟩
  | _ => ⟨S32x3x256x256, .f32⟩

abbrev hbmTy0_2 (i : Nat) : BufTy := match i % 128 with
  | 0 => ⟨S32x1024x16x1, .i32⟩
  | 1 => ⟨S32x1024x1x16, .i32⟩
  | 2 => ⟨S_, .i32⟩
  | 3 => ⟨S32x1024x16x1, .i32⟩
  | 4 => ⟨S32x1024x16x1, .i1⟩
  | 5 => ⟨S_, .i32⟩
  | 6 => ⟨S32x1024x16x1, .i32⟩
  | 7 => ⟨S32x1024x16x1, .i32⟩
  | 8 => ⟨S32x1024x16x1, .i32⟩
  | 9 => ⟨S_, .i32⟩
  | 10 => ⟨S32x1024x1x16, .i32⟩
  | 11 => ⟨S32x1024x1x16, .i1⟩
  | 12 => ⟨S_, .i32⟩
  | 13 => ⟨S32x1024x1x16, .i32⟩
  | 14 => ⟨S32x1024x1x16, .i32⟩
  | 15 => ⟨S32x1024x1x16, .i32⟩
  | 16 => ⟨S32x1024x16x16, .i32⟩
  | 17 => ⟨S32x1024x16x16, .i32⟩
  | 18 => ⟨S32x1024x16x16x1, .i32⟩
  | 19 => ⟨S32x1024x16x16x1, .i32⟩
  | 20 => ⟨S32x1024x16x16x2, .i32⟩
  | 21 => ⟨S32x3x1024x16x16, .f32⟩
  | 22 => ⟨S32x1024x3x16x16, .f32⟩
  | 23 => ⟨S32x1024x1x1x1, .i1⟩
  | 24 => ⟨S_, .f32⟩
  | 25 => ⟨S_, .f32⟩
  | 26 => ⟨S32x1024x3x16x16, .i1⟩
  | 27 => ⟨S32x1024x3x16x16, .f32⟩
  | 28 => ⟨S32x1024x3x16x16, .f32⟩
  | 29 => ⟨S32x2048x3x16x16, .f32⟩
  | 30 => ⟨S32x2048x768, .f32⟩
  | 31 => ⟨S_, .f32⟩
  | 32 => ⟨S32x2048, .f32⟩
  | 33 => ⟨S32x2048x1, .f32⟩
  | 34 => ⟨S_, .f32⟩
  | 35 => ⟨S32x2048x1, .f32⟩
  | 36 => ⟨S32x2048x1, .f32⟩
  | 37 => ⟨S32x2048x768, .f32⟩
  | 38 => ⟨S32x2048x768, .f32⟩
  | 39 => ⟨S32x2048x768, .f32⟩
  | 40 => ⟨S_, .f32⟩
  | 41 => ⟨S32x2048, .f32⟩
  | 42 => ⟨S32x2048x1, .f32⟩
  | 43 => ⟨S_, .f32⟩
  | 44 => ⟨S32x2048x1, .f32⟩
  | 45 => ⟨S32x2048x1, .f32⟩
  | 46 => ⟨S32x2048x768, .f32⟩
  | 47 => ⟨S32x2048x768, .f32⟩
  | 48 => ⟨S_, .f32⟩
  | 49 => ⟨S32x2048x1, .f32⟩
  | 50 => ⟨S32x2048x1, .f32⟩
  | 51 => ⟨S32x2048x1, .f32⟩
  | 52 => ⟨S32x2048x768, .f32⟩
  | 53 => ⟨S32x2048x768, .f32⟩
  | 54 => ⟨S1x1x768, .f32⟩
  | 55 => ⟨S32x2048x768, .f32⟩
  | 56 => ⟨S32x2048x768, .f32⟩
  | 57 => ⟨S1x1x768, .f32⟩
  | 58 => ⟨S32x2048x768, .f32⟩
  | 59 => ⟨S32x2048x768, .f32⟩
  | 60 => ⟨S32x2048x1023, .f32⟩
  | 61 => ⟨S1x1x1023, .f32⟩
  | 62 => ⟨S32x2048x1023, .f32⟩
  | 63 => ⟨S32x2048x1023, .f32⟩
  | 64 => ⟨S_, .f32⟩
  | 65 => ⟨S32x2048, .f32⟩
  | 66 => ⟨S32x2048x1, .f32⟩
  | 67 => ⟨S_, .f32⟩
  | 68 => ⟨S32x2048x1, .f32⟩
  | 69 => ⟨S32x2048x1, .f32⟩
  | 70 => ⟨S32x2048x1023, .f32⟩
  | 71 => ⟨S32x2048x1023, .f32⟩
  | 72 => ⟨S32x2048x1023, .f32⟩
  | 73 => ⟨S_, .f32⟩
  | 74 => ⟨S32x2048, .f32⟩
  | 75 => ⟨S32x2048x1, .f32⟩
  | 76 => ⟨S_, .f32⟩
  | 77 => ⟨S32x2048x1, .f32⟩
  | 78 => ⟨S32x2048x1, .f32⟩
  | 79 => ⟨S32x2048x1023, .f32⟩
  | 80 => ⟨S32x2048x1023, .f32⟩
  | 81 => ⟨S_, .f32⟩
  | 82 => ⟨S32x2048x1, .f32⟩
  | 83 => ⟨S32x2048x1, .f32⟩
  | 84 => ⟨S32x2048x1, .f32⟩
  | 85 => ⟨S32x2048x1023, .f32⟩
  | 86 => ⟨S32x2048x1023, .f32⟩
  | 87 => ⟨S1x1x1023, .f32⟩
  | 88 => ⟨S32x2048x1023, .f32⟩
  | 89 => ⟨S32x2048x1023, .f32⟩
  | 90 => ⟨S1x1x1023, .f32⟩
  | 91 => ⟨S32x2048x1023, .f32⟩
  | 92 => ⟨S32x2048x1023, .f32⟩
  | 93 => ⟨S32x2048, .f32⟩
  | 94 => ⟨S32x2048x1, .f32⟩
  | 95 => ⟨S32x2048x1024, .f32⟩
  | 96 => ⟨S_, .f32⟩
  | 97 => ⟨S32x1024, .f32⟩
  | 98 => ⟨S_, .f32⟩
  | 99 => ⟨S32x1024, .f32⟩
  | 100 => ⟨S32x1024, .f32⟩
  | 101 => ⟨S32x6, .f32⟩
  | 102 => ⟨S1x6, .f32⟩
  | 103 => ⟨S32x6, .f32⟩
  | 104 => ⟨S32x6, .f32⟩
  | _ => ⟨S32x3x256x256, .f32⟩

abbrev hbmTy (i : Nat) : BufTy := match i / 128 with
  | 0 => hbmTy0_0 i
  | 1 => hbmTy0_1 i
  | 2 => hbmTy0_2 i
  | _ => ⟨S32x3x256x256, .f32⟩

abbrev bufTy : (tb : Table) → Fin (tcTables nBuf tb) → BufTy
  | .hbm, ⟨i, _⟩ => hbmTy i
  | _, _ => ⟨S32x3x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_call0_v0 : Ref sig .tc := ⟨.hbm, 24, rfl⟩
abbrev main_call0_v1 : Ref sig .tc := ⟨.hbm, 25, rfl⟩
abbrev main_v6 : Ref sig .tc := ⟨.hbm, 26, rfl⟩
abbrev main_c_1 : Ref sig .tc := ⟨.hbm, 27, rfl⟩
abbrev main_call1_v0 : Ref sig .tc := ⟨.hbm, 28, rfl⟩
abbrev main_call1_v1 : Ref sig .tc := ⟨.hbm, 29, rfl⟩
abbrev main_v7 : Ref sig .tc := ⟨.hbm, 30, rfl⟩
abbrev main_v8 : Ref sig .tc := ⟨.hbm, 31, rfl⟩
abbrev main_call2_c : Ref sig .tc := ⟨.hbm, 32, rfl⟩
abbrev main_call2_v0 : Ref sig .tc := ⟨.hbm, 33, rfl⟩
abbrev main_call2_v1 : Ref sig .tc := ⟨.hbm, 34, rfl⟩
abbrev main_call2_c_0 : Ref sig .tc := ⟨.hbm, 35, rfl⟩
abbrev main_call2_v2 : Ref sig .tc := ⟨.hbm, 36, rfl⟩
abbrev main_call2_v3 : Ref sig .tc := ⟨.hbm, 37, rfl⟩
abbrev main_call2_v4 : Ref sig .tc := ⟨.hbm, 38, rfl⟩
abbrev main_call2_c_1 : Ref sig .tc := ⟨.hbm, 39, rfl⟩
abbrev main_call2_c_2 : Ref sig .tc := ⟨.hbm, 40, rfl⟩
abbrev main_call2_v5 : Ref sig .tc := ⟨.hbm, 41, rfl⟩
abbrev main_call2_v6 : Ref sig .tc := ⟨.hbm, 42, rfl⟩
abbrev main_call2_v7 : Ref sig .tc := ⟨.hbm, 43, rfl⟩
abbrev main_call2_v8 : Ref sig .tc := ⟨.hbm, 44, rfl⟩
abbrev main_call2_v9 : Ref sig .tc := ⟨.hbm, 45, rfl⟩
abbrev main_call2_v10 : Ref sig .tc := ⟨.hbm, 46, rfl⟩
abbrev main_call2_c_3 : Ref sig .tc := ⟨.hbm, 47, rfl⟩
abbrev main_call2_v11 : Ref sig .tc := ⟨.hbm, 48, rfl⟩
abbrev main_call2_v12 : Ref sig .tc := ⟨.hbm, 49, rfl⟩
abbrev main_call2_v13 : Ref sig .tc := ⟨.hbm, 50, rfl⟩
abbrev main_call2_cst : Ref sig .tc := ⟨.hbm, 51, rfl⟩
abbrev main_call2_v14 : Ref sig .tc := ⟨.hbm, 52, rfl⟩
abbrev main_v9 : Ref sig .tc := ⟨.hbm, 53, rfl⟩
abbrev main_v10 : Ref sig .tc := ⟨.hbm, 54, rfl⟩
abbrev main_call3_c : Ref sig .tc := ⟨.hbm, 55, rfl⟩
abbrev main_call3_v0 : Ref sig .tc := ⟨.hbm, 56, rfl⟩
abbrev main_call3_v1 : Ref sig .tc := ⟨.hbm, 57, rfl⟩
abbrev main_call3_c_0 : Ref sig .tc := ⟨.hbm, 58, rfl⟩
abbrev main_call3_v2 : Ref sig .tc := ⟨.hbm, 59, rfl⟩
abbrev main_call3_v3 : Ref sig .tc := ⟨.hbm, 60, rfl⟩
abbrev main_call3_v4 : Ref sig .tc := ⟨.hbm, 61, rfl⟩
abbrev main_call3_c_1 : Ref sig .tc := ⟨.hbm, 62, rfl⟩
abbrev main_call3_c_2 : Ref sig .tc := ⟨.hbm, 63, rfl⟩
abbrev main_call3_v5 : Ref sig .tc := ⟨.hbm, 64, rfl⟩
abbrev main_call3_v6 : Ref sig .tc := ⟨.hbm, 65, rfl⟩
abbrev main_call3_v7 : Ref sig .tc := ⟨.hbm, 66, rfl⟩
abbrev main_call3_v8 : Ref sig .tc := ⟨.hbm, 67, rfl⟩
abbrev main_call3_v9 : Ref sig .tc := ⟨.hbm, 68, rfl⟩
abbrev main_call3_v10 : Ref sig .tc := ⟨.hbm, 69, rfl⟩
abbrev main_call3_c_3 : Ref sig .tc := ⟨.hbm, 70, rfl⟩
abbrev main_call3_v11 : Ref sig .tc := ⟨.hbm, 71, rfl⟩
abbrev main_call3_v12 : Ref sig .tc := ⟨.hbm, 72, rfl⟩
abbrev main_call3_v13 : Ref sig .tc := ⟨.hbm, 73, rfl⟩
abbrev main_call3_cst : Ref sig .tc := ⟨.hbm, 74, rfl⟩
abbrev main_call3_v14 : Ref sig .tc := ⟨.hbm, 75, rfl⟩
abbrev main_v11 : Ref sig .tc := ⟨.hbm, 76, rfl⟩
abbrev main_v12 : Ref sig .tc := ⟨.hbm, 77, rfl⟩
abbrev main_cst : Ref sig .tc := ⟨.hbm, 78, rfl⟩
abbrev main_call4_v0 : Ref sig .tc := ⟨.hbm, 79, rfl⟩
abbrev main_call4_v1 : Ref sig .tc := ⟨.hbm, 80, rfl⟩
abbrev main_v13 : Ref sig .tc := ⟨.hbm, 81, rfl⟩
abbrev main_v14 : Ref sig .tc := ⟨.hbm, 82, rfl⟩
abbrev main_cst_2 : Ref sig .tc := ⟨.hbm, 83, rfl⟩
abbrev main_call5_v0 : Ref sig .tc := ⟨.hbm, 84, rfl⟩
abbrev main_call5_v1 : Ref sig .tc := ⟨.hbm, 85, rfl⟩
abbrev main_v15 : Ref sig .tc := ⟨.hbm, 86, rfl⟩
abbrev main_call6_c : Ref sig .tc := ⟨.hbm, 87, rfl⟩
abbrev main_call6_v0 : Ref sig .tc := ⟨.hbm, 88, rfl⟩
abbrev main_call6_v1 : Ref sig .tc := ⟨.hbm, 89, rfl⟩
abbrev main_call6_c_0 : Ref sig .tc := ⟨.hbm, 90, rfl⟩
abbrev main_call6_v2 : Ref sig .tc := ⟨.hbm, 91, rfl⟩
abbrev main_call6_v3 : Ref sig .tc := ⟨.hbm, 92, rfl⟩
abbrev main_call6_v4 : Ref sig .tc := ⟨.hbm, 93, rfl⟩
abbrev main_call6_v5 : Ref sig .tc := ⟨.hbm, 94, rfl⟩
abbrev main_call6_c_1 : Ref sig .tc := ⟨.hbm, 95, rfl⟩
abbrev main_call6_c_2 : Ref sig .tc := ⟨.hbm, 96, rfl⟩
abbrev main_call6_v6 : Ref sig .tc := ⟨.hbm, 97, rfl⟩
abbrev main_call6_v7 : Ref sig .tc := ⟨.hbm, 98, rfl⟩
abbrev main_call6_v8 : Ref sig .tc := ⟨.hbm, 99, rfl⟩
abbrev main_call6_v9 : Ref sig .tc := ⟨.hbm, 100, rfl⟩
abbrev main_call6_v10 : Ref sig .tc := ⟨.hbm, 101, rfl⟩
abbrev main_call6_v11 : Ref sig .tc := ⟨.hbm, 102, rfl⟩
abbrev main_call6_c_3 : Ref sig .tc := ⟨.hbm, 103, rfl⟩
abbrev main_call6_v12 : Ref sig .tc := ⟨.hbm, 104, rfl⟩
abbrev main_call6_v13 : Ref sig .tc := ⟨.hbm, 105, rfl⟩
abbrev main_call6_cst : Ref sig .tc := ⟨.hbm, 106, rfl⟩
abbrev main_call6_v14 : Ref sig .tc := ⟨.hbm, 107, rfl⟩
abbrev main_v16 : Ref sig .tc := ⟨.hbm, 108, rfl⟩
abbrev main_cst_3 : Ref sig .tc := ⟨.hbm, 109, rfl⟩
abbrev main_call7_v0 : Ref sig .tc := ⟨.hbm, 110, rfl⟩
abbrev main_call7_v1 : Ref sig .tc := ⟨.hbm, 111, rfl⟩
abbrev main_v17 : Ref sig .tc := ⟨.hbm, 112, rfl⟩
abbrev main_call8_c : Ref sig .tc := ⟨.hbm, 113, rfl⟩
abbrev main_call8_v0 : Ref sig .tc := ⟨.hbm, 114, rfl⟩
abbrev main_call8_v1 : Ref sig .tc := ⟨.hbm, 115, rfl⟩
abbrev main_call8_c_0 : Ref sig .tc := ⟨.hbm, 116, rfl⟩
abbrev main_call8_v2 : Ref sig .tc := ⟨.hbm, 117, rfl⟩
abbrev main_call8_v3 : Ref sig .tc := ⟨.hbm, 118, rfl⟩
abbrev main_call8_v4 : Ref sig .tc := ⟨.hbm, 119, rfl⟩
abbrev main_call8_v5 : Ref sig .tc := ⟨.hbm, 120, rfl⟩
abbrev main_call8_c_1 : Ref sig .tc := ⟨.hbm, 121, rfl⟩
abbrev main_call8_c_2 : Ref sig .tc := ⟨.hbm, 122, rfl⟩
abbrev main_call8_v6 : Ref sig .tc := ⟨.hbm, 123, rfl⟩
abbrev main_call8_v7 : Ref sig .tc := ⟨.hbm, 124, rfl⟩
abbrev main_call8_v8 : Ref sig .tc := ⟨.hbm, 125, rfl⟩
abbrev main_call8_v9 : Ref sig .tc := ⟨.hbm, 126, rfl⟩
abbrev main_call8_v10 : Ref sig .tc := ⟨.hbm, 127, rfl⟩
abbrev main_call8_v11 : Ref sig .tc := ⟨.hbm, 128, rfl⟩
abbrev main_call8_c_3 : Ref sig .tc := ⟨.hbm, 129, rfl⟩
abbrev main_call8_v12 : Ref sig .tc := ⟨.hbm, 130, rfl⟩
abbrev main_call8_v13 : Ref sig .tc := ⟨.hbm, 131, rfl⟩
abbrev main_call8_cst : Ref sig .tc := ⟨.hbm, 132, rfl⟩
abbrev main_call8_v14 : Ref sig .tc := ⟨.hbm, 133, rfl⟩
abbrev main_v18 : Ref sig .tc := ⟨.hbm, 134, rfl⟩
abbrev main_cst_4 : Ref sig .tc := ⟨.hbm, 135, rfl⟩
abbrev main_call9_v0 : Ref sig .tc := ⟨.hbm, 136, rfl⟩
abbrev main_call9_v1 : Ref sig .tc := ⟨.hbm, 137, rfl⟩
abbrev main_v19 : Ref sig .tc := ⟨.hbm, 138, rfl⟩
abbrev main_v20 : Ref sig .tc := ⟨.hbm, 139, rfl⟩
abbrev main_c_5 : Ref sig .tc := ⟨.hbm, 140, rfl⟩
abbrev main_v21 : Ref sig .tc := ⟨.hbm, 141, rfl⟩
abbrev main_v22 : Ref sig .tc := ⟨.hbm, 142, rfl⟩
abbrev main_v23 : Ref sig .tc := ⟨.hbm, 143, rfl⟩
abbrev main_cst_6 : Ref sig .tc := ⟨.hbm, 144, rfl⟩
abbrev main_call10_v0 : Ref sig .tc := ⟨.hbm, 145, rfl⟩
abbrev main_call10_v1 : Ref sig .tc := ⟨.hbm, 146, rfl⟩
abbrev main_call10_v2 : Ref sig .tc := ⟨.hbm, 147, rfl⟩
abbrev main_v24 : Ref sig .tc := ⟨.hbm, 148, rfl⟩
abbrev main_v25 : Ref sig .tc := ⟨.hbm, 149, rfl⟩
abbrev main_v26 : Ref sig .tc := ⟨.hbm, 150, rfl⟩
abbrev main_v27 : Ref sig .tc := ⟨.hbm, 151, rfl⟩
abbrev main_v28 : Ref sig .tc := ⟨.hbm, 152, rfl⟩
abbrev main_v29 : Ref sig .tc := ⟨.hbm, 153, rfl⟩
abbrev main_v30 : Ref sig .tc := ⟨.hbm, 154, rfl⟩
abbrev main_v31 : Ref sig .tc := ⟨.hbm, 155, rfl⟩
abbrev main_v32 : Ref sig .tc := ⟨.hbm, 156, rfl⟩
abbrev main_v33 : Ref sig .tc := ⟨.hbm, 157, rfl⟩
abbrev main_v34 : Ref sig .tc := ⟨.hbm, 158, rfl⟩
abbrev main_v35 : Ref sig .tc := ⟨.hbm, 159, rfl⟩
abbrev main_v36 : Ref sig .tc := ⟨.hbm, 160, rfl⟩
abbrev main_v37 : Ref sig .tc := ⟨.hbm, 161, rfl⟩
abbrev main_c_7 : Ref sig .tc := ⟨.hbm, 162, rfl⟩
abbrev main_c_8 : Ref sig .tc := ⟨.hbm, 163, rfl⟩
abbrev main_call13_v0 : Ref sig .tc := ⟨.hbm, 164, rfl⟩
abbrev main_call13_v1 : Ref sig .tc := ⟨.hbm, 165, rfl⟩
abbrev main_call13_v2 : Ref sig .tc := ⟨.hbm, 166, rfl⟩
abbrev main_call13_v3 : Ref sig .tc := ⟨.hbm, 167, rfl⟩
abbrev main_call13_v4 : Ref sig .tc := ⟨.hbm, 168, rfl⟩
abbrev main_v38 : Ref sig .tc := ⟨.hbm, 169, rfl⟩
abbrev main_v39 : Ref sig .tc := ⟨.hbm, 170, rfl⟩
abbrev main_v40 : Ref sig .tc := ⟨.hbm, 171, rfl⟩
abbrev main_v41 : Ref sig .tc := ⟨.hbm, 172, rfl⟩
abbrev main_v42 : Ref sig .tc := ⟨.hbm, 173, rfl⟩
abbrev main_v43 : Ref sig .tc := ⟨.hbm, 174, rfl⟩
abbrev main_c_9 : Ref sig .tc := ⟨.hbm, 175, rfl⟩
abbrev main_c_10 : Ref sig .tc := ⟨.hbm, 176, rfl⟩
abbrev main_call14_v0 : Ref sig .tc := ⟨.hbm, 177, rfl⟩
abbrev main_call14_v1 : Ref sig .tc := ⟨.hbm, 178, rfl⟩
abbrev main_call14_v2 : Ref sig .tc := ⟨.hbm, 179, rfl⟩
abbrev main_call14_v3 : Ref sig .tc := ⟨.hbm, 180, rfl⟩
abbrev main_call14_v4 : Ref sig .tc := ⟨.hbm, 181, rfl⟩
abbrev main_v44 : Ref sig .tc := ⟨.hbm, 182, rfl⟩
abbrev main_v45 : Ref sig .tc := ⟨.hbm, 183, rfl⟩
abbrev main_v46 : Ref sig .tc := ⟨.hbm, 184, rfl⟩
abbrev main_c_11 : Ref sig .tc := ⟨.hbm, 185, rfl⟩
abbrev main_v47 : Ref sig .tc := ⟨.hbm, 186, rfl⟩
abbrev main_v48 : Ref sig .tc := ⟨.hbm, 187, rfl⟩
abbrev main_c_12 : Ref sig .tc := ⟨.hbm, 188, rfl⟩
abbrev main_v49 : Ref sig .tc := ⟨.hbm, 189, rfl⟩
abbrev main_v50 : Ref sig .tc := ⟨.hbm, 190, rfl⟩
abbrev main_v51 : Ref sig .tc := ⟨.hbm, 191, rfl⟩
abbrev main_c_13 : Ref sig .tc := ⟨.hbm, 192, rfl⟩
abbrev main_v52 : Ref sig .tc := ⟨.hbm, 193, rfl⟩
abbrev main_v53 : Ref sig .tc := ⟨.hbm, 194, rfl⟩
abbrev main_c_14 : Ref sig .tc := ⟨.hbm, 195, rfl⟩
abbrev main_v54 : Ref sig .tc := ⟨.hbm, 196, rfl⟩
abbrev main_v55 : Ref sig .tc := ⟨.hbm, 197, rfl⟩
abbrev main_v56 : Ref sig .tc := ⟨.hbm, 198, rfl⟩
abbrev main_v57 : Ref sig .tc := ⟨.hbm, 199, rfl⟩
abbrev main_v58 : Ref sig .tc := ⟨.hbm, 200, rfl⟩
abbrev main_v59 : Ref sig .tc := ⟨.hbm, 201, rfl⟩
abbrev main_v60 : Ref sig .tc := ⟨.hbm, 202, rfl⟩
abbrev main_v61 : Ref sig .tc := ⟨.hbm, 203, rfl⟩
abbrev main_v62 : Ref sig .tc := ⟨.hbm, 204, rfl⟩
abbrev main_v63 : Ref sig .tc := ⟨.hbm, 205, rfl⟩
abbrev main_v64 : Ref sig .tc := ⟨.hbm, 206, rfl⟩
abbrev main_cst_15 : Ref sig .tc := ⟨.hbm, 207, rfl⟩
abbrev main_call15_v0 : Ref sig .tc := ⟨.hbm, 208, rfl⟩
abbrev main_call15_v1 : Ref sig .tc := ⟨.hbm, 209, rfl⟩
abbrev main_call15_v2 : Ref sig .tc := ⟨.hbm, 210, rfl⟩
abbrev main_v65 : Ref sig .tc := ⟨.hbm, 211, rfl⟩
abbrev main_v66 : Ref sig .tc := ⟨.hbm, 212, rfl⟩
abbrev main_c_16 : Ref sig .tc := ⟨.hbm, 213, rfl⟩
abbrev main_v67 : Ref sig .tc := ⟨.hbm, 214, rfl⟩
abbrev main_v68 : Ref sig .tc := ⟨.hbm, 215, rfl⟩
abbrev main_v69 : Ref sig .tc := ⟨.hbm, 216, rfl⟩
abbrev main_cst_17 : Ref sig .tc := ⟨.hbm, 217, rfl⟩
abbrev main_call16_v0 : Ref sig .tc := ⟨.hbm, 218, rfl⟩
abbrev main_call16_v1 : Ref sig .tc := ⟨.hbm, 219, rfl⟩
abbrev main_call16_v2 : Ref sig .tc := ⟨.hbm, 220, rfl⟩
abbrev main_v70 : Ref sig .tc := ⟨.hbm, 221, rfl⟩
abbrev main_v71 : Ref sig .tc := ⟨.hbm, 222, rfl⟩
abbrev main_v72 : Ref sig .tc := ⟨.hbm, 223, rfl⟩
abbrev main_v73 : Ref sig .tc := ⟨.hbm, 224, rfl⟩
abbrev main_v74 : Ref sig .tc := ⟨.hbm, 225, rfl⟩
abbrev main_v75 : Ref sig .tc := ⟨.hbm, 226, rfl⟩
abbrev main_v76 : Ref sig .tc := ⟨.hbm, 227, rfl⟩
abbrev main_v77 : Ref sig .tc := ⟨.hbm, 228, rfl⟩
abbrev main_v78 : Ref sig .tc := ⟨.hbm, 229, rfl⟩
abbrev main_v79 : Ref sig .tc := ⟨.hbm, 230, rfl⟩
abbrev main_v80 : Ref sig .tc := ⟨.hbm, 231, rfl⟩
abbrev main_v81 : Ref sig .tc := ⟨.hbm, 232, rfl⟩
abbrev main_v82 : Ref sig .tc := ⟨.hbm, 233, rfl⟩
abbrev main_v83 : Ref sig .tc := ⟨.hbm, 234, rfl⟩
abbrev main_c_18 : Ref sig .tc := ⟨.hbm, 235, rfl⟩
abbrev main_c_19 : Ref sig .tc := ⟨.hbm, 236, rfl⟩
abbrev main_call19_v0 : Ref sig .tc := ⟨.hbm, 237, rfl⟩
abbrev main_call19_v1 : Ref sig .tc := ⟨.hbm, 238, rfl⟩
abbrev main_call19_v2 : Ref sig .tc := ⟨.hbm, 239, rfl⟩
abbrev main_call19_v3 : Ref sig .tc := ⟨.hbm, 240, rfl⟩
abbrev main_call19_v4 : Ref sig .tc := ⟨.hbm, 241, rfl⟩
abbrev main_v84 : Ref sig .tc := ⟨.hbm, 242, rfl⟩
abbrev main_v85 : Ref sig .tc := ⟨.hbm, 243, rfl⟩
abbrev main_v86 : Ref sig .tc := ⟨.hbm, 244, rfl⟩
abbrev main_v87 : Ref sig .tc := ⟨.hbm, 245, rfl⟩
abbrev main_v88 : Ref sig .tc := ⟨.hbm, 246, rfl⟩
abbrev main_v89 : Ref sig .tc := ⟨.hbm, 247, rfl⟩
abbrev main_c_20 : Ref sig .tc := ⟨.hbm, 248, rfl⟩
abbrev main_c_21 : Ref sig .tc := ⟨.hbm, 249, rfl⟩
abbrev main_call20_v0 : Ref sig .tc := ⟨.hbm, 250, rfl⟩
abbrev main_call20_v1 : Ref sig .tc := ⟨.hbm, 251, rfl⟩
abbrev main_call20_v2 : Ref sig .tc := ⟨.hbm, 252, rfl⟩
abbrev main_call20_v3 : Ref sig .tc := ⟨.hbm, 253, rfl⟩
abbrev main_call20_v4 : Ref sig .tc := ⟨.hbm, 254, rfl⟩
abbrev main_v90 : Ref sig .tc := ⟨.hbm, 255, rfl⟩
abbrev main_v91 : Ref sig .tc := ⟨.hbm, 256, rfl⟩
abbrev main_v92 : Ref sig .tc := ⟨.hbm, 257, rfl⟩
abbrev main_c_22 : Ref sig .tc := ⟨.hbm, 258, rfl⟩
abbrev main_v93 : Ref sig .tc := ⟨.hbm, 259, rfl⟩
abbrev main_v94 : Ref sig .tc := ⟨.hbm, 260, rfl⟩
abbrev main_c_23 : Ref sig .tc := ⟨.hbm, 261, rfl⟩
abbrev main_v95 : Ref sig .tc := ⟨.hbm, 262, rfl⟩
abbrev main_v96 : Ref sig .tc := ⟨.hbm, 263, rfl⟩
abbrev main_v97 : Ref sig .tc := ⟨.hbm, 264, rfl⟩
abbrev main_c_24 : Ref sig .tc := ⟨.hbm, 265, rfl⟩
abbrev main_v98 : Ref sig .tc := ⟨.hbm, 266, rfl⟩
abbrev main_v99 : Ref sig .tc := ⟨.hbm, 267, rfl⟩
abbrev main_c_25 : Ref sig .tc := ⟨.hbm, 268, rfl⟩
abbrev main_v100 : Ref sig .tc := ⟨.hbm, 269, rfl⟩
abbrev main_v101 : Ref sig .tc := ⟨.hbm, 270, rfl⟩
abbrev main_v102 : Ref sig .tc := ⟨.hbm, 271, rfl⟩
abbrev main_v103 : Ref sig .tc := ⟨.hbm, 272, rfl⟩
abbrev main_v104 : Ref sig .tc := ⟨.hbm, 273, rfl⟩
abbrev main_v105 : Ref sig .tc := ⟨.hbm, 274, rfl⟩
abbrev main_v106 : Ref sig .tc := ⟨.hbm, 275, rfl⟩
abbrev main_v107 : Ref sig .tc := ⟨.hbm, 276, rfl⟩
abbrev main_v108 : Ref sig .tc := ⟨.hbm, 277, rfl⟩
abbrev main_v109 : Ref sig .tc := ⟨.hbm, 278, rfl⟩
abbrev main_v110 : Ref sig .tc := ⟨.hbm, 279, rfl⟩
abbrev main_cst_26 : Ref sig .tc := ⟨.hbm, 280, rfl⟩
abbrev main_call21_v0 : Ref sig .tc := ⟨.hbm, 281, rfl⟩
abbrev main_call21_v1 : Ref sig .tc := ⟨.hbm, 282, rfl⟩
abbrev main_call21_v2 : Ref sig .tc := ⟨.hbm, 283, rfl⟩
abbrev main_v111 : Ref sig .tc := ⟨.hbm, 284, rfl⟩
abbrev main_v112 : Ref sig .tc := ⟨.hbm, 285, rfl⟩
abbrev main_v113 : Ref sig .tc := ⟨.hbm, 286, rfl⟩
abbrev main_cst_27 : Ref sig .tc := ⟨.hbm, 287, rfl⟩
abbrev main_v114 : Ref sig .tc := ⟨.hbm, 288, rfl⟩
abbrev main_v115 : Ref sig .tc := ⟨.hbm, 289, rfl⟩
abbrev main_cst_28 : Ref sig .tc := ⟨.hbm, 290, rfl⟩
abbrev main_v116 : Ref sig .tc := ⟨.hbm, 291, rfl⟩
abbrev main_v117 : Ref sig .tc := ⟨.hbm, 292, rfl⟩
abbrev main_v118 : Ref sig .tc := ⟨.hbm, 293, rfl⟩
abbrev main_v119 : Ref sig .tc := ⟨.hbm, 294, rfl⟩
abbrev main_v120 : Ref sig .tc := ⟨.hbm, 295, rfl⟩
abbrev main_cst_29 : Ref sig .tc := ⟨.hbm, 296, rfl⟩
abbrev main_v121 : Ref sig .tc := ⟨.hbm, 297, rfl⟩
abbrev main_v122 : Ref sig .tc := ⟨.hbm, 298, rfl⟩
abbrev main_cst_30 : Ref sig .tc := ⟨.hbm, 299, rfl⟩
abbrev main_v123 : Ref sig .tc := ⟨.hbm, 300, rfl⟩
abbrev main_v124 : Ref sig .tc := ⟨.hbm, 301, rfl⟩
abbrev main_v125 : Ref sig .tc := ⟨.hbm, 302, rfl⟩
abbrev main_v126 : Ref sig .tc := ⟨.hbm, 303, rfl⟩
abbrev main_cst_31 : Ref sig .tc := ⟨.hbm, 304, rfl⟩
abbrev main_v127 : Ref sig .tc := ⟨.hbm, 305, rfl⟩
abbrev main_v128 : Ref sig .tc := ⟨.hbm, 306, rfl⟩
abbrev main_v129 : Ref sig .tc := ⟨.hbm, 307, rfl⟩
abbrev main_v130 : Ref sig .tc := ⟨.hbm, 308, rfl⟩
abbrev main_v131 : Ref sig .tc := ⟨.hbm, 309, rfl⟩
abbrev main_v132 : Ref sig .tc := ⟨.hbm, 310, rfl⟩
abbrev main_v133 : Ref sig .tc := ⟨.hbm, 311, rfl⟩
abbrev main_v134 : Ref sig .tc := ⟨.hbm, 312, rfl⟩
abbrev main_v135 : Ref sig .tc := ⟨.hbm, 313, rfl⟩
abbrev main_v136 : Ref sig .tc := ⟨.hbm, 314, rfl⟩
abbrev main_v137 : Ref sig .tc := ⟨.hbm, 315, rfl⟩
abbrev main_v138 : Ref sig .tc := ⟨.hbm, 316, rfl⟩
abbrev main_v139 : Ref sig .tc := ⟨.hbm, 317, rfl⟩
abbrev main_v140 : Ref sig .tc := ⟨.hbm, 318, rfl⟩
abbrev main_v141 : Ref sig .tc := ⟨.hbm, 319, rfl⟩
abbrev main_cst_32 : Ref sig .tc := ⟨.hbm, 320, rfl⟩
abbrev main_v142 : Ref sig .tc := ⟨.hbm, 321, rfl⟩
abbrev main_v143 : Ref sig .tc := ⟨.hbm, 322, rfl⟩
abbrev main_cst_33 : Ref sig .tc := ⟨.hbm, 323, rfl⟩
abbrev main_v144 : Ref sig .tc := ⟨.hbm, 324, rfl⟩
abbrev main_v145 : Ref sig .tc := ⟨.hbm, 325, rfl⟩
abbrev main_v146 : Ref sig .tc := ⟨.hbm, 326, rfl⟩
abbrev main_v147 : Ref sig .tc := ⟨.hbm, 327, rfl⟩
abbrev main_v148 : Ref sig .tc := ⟨.hbm, 328, rfl⟩
abbrev main_cst_34 : Ref sig .tc := ⟨.hbm, 329, rfl⟩
abbrev main_v149 : Ref sig .tc := ⟨.hbm, 330, rfl⟩
abbrev main_v150 : Ref sig .tc := ⟨.hbm, 331, rfl⟩
abbrev main_cst_35 : Ref sig .tc := ⟨.hbm, 332, rfl⟩
abbrev main_v151 : Ref sig .tc := ⟨.hbm, 333, rfl⟩
abbrev main_v152 : Ref sig .tc := ⟨.hbm, 334, rfl⟩
abbrev main_v153 : Ref sig .tc := ⟨.hbm, 335, rfl⟩
abbrev main_v154 : Ref sig .tc := ⟨.hbm, 336, rfl⟩
abbrev main_cst_36 : Ref sig .tc := ⟨.hbm, 337, rfl⟩
abbrev main_v155 : Ref sig .tc := ⟨.hbm, 338, rfl⟩
abbrev main_v156 : Ref sig .tc := ⟨.hbm, 339, rfl⟩
abbrev main_v157 : Ref sig .tc := ⟨.hbm, 340, rfl⟩
abbrev main_v158 : Ref sig .tc := ⟨.hbm, 341, rfl⟩
abbrev main_v159 : Ref sig .tc := ⟨.hbm, 342, rfl⟩
abbrev main_v160 : Ref sig .tc := ⟨.hbm, 343, rfl⟩
abbrev main_v161 : Ref sig .tc := ⟨.hbm, 344, rfl⟩
abbrev main_v162 : Ref sig .tc := ⟨.hbm, 345, rfl⟩
abbrev main_v163 : Ref sig .tc := ⟨.hbm, 346, rfl⟩
abbrev main_v164 : Ref sig .tc := ⟨.hbm, 347, rfl⟩
abbrev main_v165 : Ref sig .tc := ⟨.hbm, 348, rfl⟩
abbrev main_v166 : Ref sig .tc := ⟨.hbm, 349, rfl⟩
abbrev main_v167 : Ref sig .tc := ⟨.hbm, 350, rfl⟩
abbrev main_v168 : Ref sig .tc := ⟨.hbm, 351, rfl⟩
abbrev main_cst_37 : Ref sig .tc := ⟨.hbm, 352, rfl⟩
abbrev main_v169 : Ref sig .tc := ⟨.hbm, 353, rfl⟩
abbrev main_cst_38 : Ref sig .tc := ⟨.hbm, 354, rfl⟩
abbrev main_v170 : Ref sig .tc := ⟨.hbm, 355, rfl⟩
abbrev main_v171 : Ref sig .tc := ⟨.hbm, 356, rfl⟩
abbrev main_v172 : Ref sig .tc := ⟨.hbm, 357, rfl⟩
abbrev main_v173 : Ref sig .tc := ⟨.hbm, 358, rfl⟩
abbrev main_v174 : Ref sig .tc := ⟨.hbm, 359, rfl⟩
abbrev main_v175 : Ref sig .tc := ⟨.hbm, 360, rfl⟩

abbrev nD : Nat := 1
abbrev τ : Topo := Topo.v7x

variable {F : FTy → Type} [FloatOps F]

class Facts₀ : Prop where
  slices_S32x1024x2_S32x1024x1_0_0_0 : S32x1024x2.Slices ![0, 0, 0] S32x1024x1
  shapeCasts_S32x1024x1_S32x1024 : S32x1024x1.ShapeCasts S32x1024
  slices_S32x1024x2_S32x1024x1_0_0_1 : S32x1024x2.Slices ![0, 0, 1] S32x1024x1
  bcast_S_S32x1024 : S_.BroadcastsInDim S32x1024 (![] : Fin 0 → Fin S32x1024.rank)
  bcast_S32x1024_S32x1024x1_0_1 : S32x1024.BroadcastsInDim S32x1024x1 (![0, 1] : Fin 2 → Fin S32x1024x1.rank)
  bcast_S_S32x1024x1 : S_.BroadcastsInDim S32x1024x1 (![] : Fin 0 → Fin S32x1024x1.rank)
  bcast_S1_S1x1x1_2 : S1.BroadcastsInDim S1x1x1 (![2] : Fin 1 → Fin S1x1x1.rank)
  bcast_S1x1x1_S32x1024x1_0_1_2 : S1x1x1.BroadcastsInDim S32x1024x1 (![0, 1, 2] : Fin 3 → Fin S32x1024x1.rank)
  reducesTo_S32x1024x1_S32x1024_d2 : S32x1024x1.ReducesTo [2] S32x1024
  h_S_ : 0 < S_.numel
  bcast_S32x1024_S32x1024x2_0_1 : S32x1024.BroadcastsInDim S32x1024x2 (![0, 1] : Fin 2 → Fin S32x1024x2.rank)
  bcast_S_S32x1024x2 : S_.BroadcastsInDim S32x1024x2 (![] : Fin 0 → Fin S32x1024x2.rank)
  bcast_S32x1024x1_S32x1024x2_0_1_2 : S32x1024x1.BroadcastsInDim S32x1024x2 (![0, 1, 2] : Fin 3 → Fin S32x1024x2.rank)
  shapeCasts_S32x1024_S32x1024x1 : S32x1024.ShapeCasts S32x1024x1
  bcast_S_S16 : S_.BroadcastsInDim S16 (![] : Fin 0 → Fin S16.rank)
  bcast_S16_S1x1x16_2 : S16.BroadcastsInDim S1x1x16 (![2] : Fin 1 → Fin S1x1x16.rank)
  bcast_S32x1024x1_S32x1024x16_0_1_2 : S32x1024x1.BroadcastsInDim S32x1024x16 (![0, 1, 2] : Fin 3 → Fin S32x1024x16.rank)
  bcast_S1x1x16_S32x1024x16_0_1_2 : S1x1x16.BroadcastsInDim S32x1024x16 (![0, 1, 2] : Fin 3 → Fin S32x1024x16.rank)
  bcast_S_S32x1024x16 : S_.BroadcastsInDim S32x1024x16 (![] : Fin 0 → Fin S32x1024x16.rank)
  bcast_S32x1024x16_S32x1024x16x1_0_1_2 : S32x1024x16.BroadcastsInDim S32x1024x16x1 (![0, 1, 2] : Fin 3 → Fin S32x1024x16x1.rank)
  bcast_S32x1024x16_S32x1024x1x16_0_1_3 : S32x1024x16.BroadcastsInDim S32x1024x1x16 (![0, 1, 3] : Fin 3 → Fin S32x1024x1x16.rank)
  bcast_S_S32x1024x16x1 : S_.BroadcastsInDim S32x1024x16x1 (![] : Fin 0 → Fin S32x1024x16x1.rank)
  bcast_S_S32x1024x1x16 : S_.BroadcastsInDim S32x1024x1x16 (![] : Fin 0 → Fin S32x1024x1x16.rank)
  bcast_S32x1024x16x1_S32x1024x16x16_0_1_2_3 : S32x1024x16x1.BroadcastsInDim S32x1024x16x16 (![0, 1, 2, 3] : Fin 4 → Fin S32x1024x16x16.rank)
  bcast_S32x1024x1x16_S32x1024x16x16_0_1_2_3 : S32x1024x1x16.BroadcastsInDim S32x1024x16x16 (![0, 1, 2, 3] : Fin 4 → Fin S32x1024x16x16.rank)
  bcast_S32x1024x16x16_S32x1024x16x16x1_0_1_2_3 : S32x1024x16x16.BroadcastsInDim S32x1024x16x16x1 (![0, 1, 2, 3] : Fin 4 → Fin S32x1024x16x16x1.rank)
  concatenates_S32x1024x16x16x1_S32x1024x16x16x1_S32x1024x16x16x2_d4 : Shape.Concatenates [S32x1024x16x16x1, S32x1024x16x16x1] S32x1024x16x16x2 4
  transposes_S32x3x1024x16x16_S32x1024x3x16x16_0_2_1_3_4 : S32x3x1024x16x16.Transposes [0, 2, 1, 3, 4] S32x1024x3x16x16
  bcast_S32x1024_S32x1024x1x1x1_0_1 : S32x1024.BroadcastsInDim S32x1024x1x1x1 (![0, 1] : Fin 2 → Fin S32x1024x1x1x1.rank)
  bcast_S32x1024x1x1x1_S32x1024x3x16x16_0_1_2_3_4 : S32x1024x1x1x1.BroadcastsInDim S32x1024x3x16x16 (![0, 1, 2, 3, 4] : Fin 5 → Fin S32x1024x3x16x16.rank)
  bcast_S_S32x1024x3x16x16 : S_.BroadcastsInDim S32x1024x3x16x16 (![] : Fin 0 → Fin S32x1024x3x16x16.rank)
  concatenates_S32x1024x3x16x16_S32x1024x3x16x16_S32x2048x3x16x16_d1 : Shape.Concatenates [S32x1024x3x16x16, S32x1024x3x16x16] S32x2048x3x16x16 1
  shapeCasts_S32x2048x3x16x16_S32x2048x768 : S32x2048x3x16x16.ShapeCasts S32x2048x768
  reducesTo_S32x2048x768_S32x2048_d2 : S32x2048x768.ReducesTo [2] S32x2048
  bcast_S32x2048_S32x2048x1_0_1 : S32x2048.BroadcastsInDim S32x2048x1 (![0, 1] : Fin 2 → Fin S32x2048x1.rank)
  bcast_S_S32x2048x1 : S_.BroadcastsInDim S32x2048x1 (![] : Fin 0 → Fin S32x2048x1.rank)
  bcast_S32x2048x1_S32x2048x768_0_1_2 : S32x2048x1.BroadcastsInDim S32x2048x768 (![0, 1, 2] : Fin 3 → Fin S32x2048x768.rank)
  bcast_S768_S1x1x768_2 : S768.BroadcastsInDim S1x1x768 (![2] : Fin 1 → Fin S1x1x768.rank)
  bcast_S1x1x768_S32x2048x768_0_1_2 : S1x1x768.BroadcastsInDim S32x2048x768 (![0, 1, 2] : Fin 3 → Fin S32x2048x768.rank)
  bcast_S1023_S1x1x1023_2 : S1023.BroadcastsInDim S1x1x1023 (![2] : Fin 1 → Fin S1x1x1023.rank)
  bcast_S1x1x1023_S32x2048x1023_0_1_2 : S1x1x1023.BroadcastsInDim S32x2048x1023 (![0, 1, 2] : Fin 3 → Fin S32x2048x1023.rank)
  reducesTo_S32x2048x1023_S32x2048_d2 : S32x2048x1023.ReducesTo [2] S32x2048
  bcast_S32x2048x1_S32x2048x1023_0_1_2 : S32x2048x1.BroadcastsInDim S32x2048x1023 (![0, 1, 2] : Fin 3 → Fin S32x2048x1023.rank)
  concatenates_S32x1024_S32x1024_S32x2048_d1 : Shape.Concatenates [S32x1024, S32x1024] S32x2048 1
  concatenates_S32x2048x1023_S32x2048x1_S32x2048x1024_d2 : Shape.Concatenates [S32x2048x1023, S32x2048x1] S32x2048x1024 2
  reducesTo_S32x1024x64_S32x1024_d2 : S32x1024x64.ReducesTo [2] S32x1024
  bcast_S6_S1x6_1 : S6.BroadcastsInDim S1x6 (![1] : Fin 1 → Fin S1x6.rank)
  bcast_S1x6_S32x6_0_1 : S1x6.BroadcastsInDim S32x6 (![0, 1] : Fin 2 → Fin S32x6.rank)
  gather_S32x2048x2_S32x1024x1_S32x1024x2_2_1_0_0_1_2_112_wf : GatherDims.WF S32x2048x2 S32x1024x1 S32x1024x2 [2] [1] [0] [1] [0] 2 ![1, 1, 2]
  gather_S32x2048_S32x1024x1_S32x1024_n_1_0_0_1_2_11_wf : GatherDims.WF S32x2048 S32x1024x1 S32x1024 [] [1] [0] [1] [0] 2 ![1, 1]
  gather_S32x3x256x256_S32x1024x16x16x2_S32x3x1024x16x16_1_23_0_0_23_4_1311_wf : GatherDims.WF S32x3x256x256 S32x1024x16x16x2 S32x3x1024x16x16 [1] [2, 3] [0] [2, 3] [0] 4 ![1, 3, 1, 1]
  dot_S32x2048x768_S768x1023_S32x2048x1023_2_0_01_1_n_n_wf : DotDims.WF S32x2048x768 S768x1023 S32x2048x1023 [2] [0] [0, 1] [1] [] []
  dot_S32x1024_S1024x6_S32x6_1_0_0_1_n_n_wf : DotDims.WF S32x1024 S1024x6 S32x6 [1] [0] [0] [1] [] []

variable [Facts₀]

def gather_S32x2048x2_S32x1024x1_S32x1024x2_2_1_0_0_1_2_112 : GatherDims S32x2048x2 S32x1024x1 S32x1024x2 where
  offsetDims := [2]
  collapsedSliceDims := [1]
  operandBatchingDims := [0]
  startIndicesBatchingDims := [0]
  startIndexMap := [1]
  indexVectorDim := 2
  sliceSizes := ![1, 1, 2]
  wf := gather_S32x2048x2_S32x1024x1_S32x1024x2_2_1_0_0_1_2_112_wf
def gather_S32x2048_S32x1024x1_S32x1024_n_1_0_0_1_2_11 : GatherDims S32x2048 S32x1024x1 S32x1024 where
  offsetDims := []
  collapsedSliceDims := [1]
  operandBatchingDims := [0]
  startIndicesBatchingDims := [0]
  startIndexMap := [1]
  indexVectorDim := 2
  sliceSizes := ![1, 1]
  wf := gather_S32x2048_S32x1024x1_S32x1024_n_1_0_0_1_2_11_wf
def gather_S32x3x256x256_S32x1024x16x16x2_S32x3x1024x16x16_1_23_0_0_23_4_1311 : GatherDims S32x3x256x256 S32x1024x16x16x2 S32x3x1024x16x16 where
  offsetDims := [1]
  collapsedSliceDims := [2, 3]
  operandBatchingDims := [0]
  startIndicesBatchingDims := [0]
  startIndexMap := [2, 3]
  indexVectorDim := 4
  sliceSizes := ![1, 3, 1, 1]
  wf := gather_S32x3x256x256_S32x1024x16x16x2_S32x3x1024x16x16_1_23_0_0_23_4_1311_wf
def dot_S32x2048x768_S768x1023_S32x2048x1023_2_0_01_1_n_n : DotDims S32x2048x768 S768x1023 S32x2048x1023 where
  lhsContracting := [2]
  rhsContracting := [0]
  lhsNonContracting := [0, 1]
  rhsNonContracting := [1]
  lhsBatch := []
  rhsBatch := []
  wf := dot_S32x2048x768_S768x1023_S32x2048x1023_2_0_01_1_n_n_wf
def dot_S32x1024_S1024x6_S32x6_1_0_0_1_n_n : DotDims S32x1024 S1024x6 S32x6 where
  lhsContracting := [1]
  rhsContracting := [0]
  lhsNonContracting := [0]
  rhsNonContracting := [1]
  lhsBatch := []
  rhsBatch := []
  wf := dot_S32x1024_S1024x6_S32x6_1_0_0_1_n_n_wf

class Facts : Prop extends Facts₀ where

variable [Facts]
-- ==== Proof.KerHostList.lean ====
/-
  The kernel program's host operations before its region, as ONE list: the stretches the launch side cuts them into,
  joined in order. The contents the region finds are the fold of this list over the launch contents.
-/
import proofs.«174740_j34617436405934_1_alg».proof.Proof.Gen.KernelIdeal.Frame

noncomputable section

namespace Cert.KernelIdeal.Pre

open Cert.KernelIdeal Cert.KernelIdeal.Gen
open Idealize.ShloMosaic Idealize.ShloMosaic.TcCoe Idealize.SL.Sem Idealize.ShloMosaic.StableHlo

variable {F : FTy → Type} [FloatOps F]

/-- The host operations before the region, in order. -/
abbrev hostBefore : List (HloOp τ sig (Elt F)) := List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42]

/-- What the region finds is the fold of them over the launch contents. -/
theorem V0_eq (m : (ℓ : Loc nD τ sig) → Buf (Elt F) ℓ) (c : Dev nD) :
    Gen.V0 m c = after hostBefore (fun b => m (c, b)) := rfl

end Cert.KernelIdeal.Pre

end
-- ==== Proof.LibConcatCongr.lean ====
/-
  A concatenation of two parts depends on the parts' values only — as a CONGRUENCE rule.

  A two-part concatenation `concatenate t ax [⟨s₁, a⟩, ⟨s₂, b⟩] h` carries a side condition `h` whose statement
  mentions the list of parts (through the parts' shapes), so a simplification's automatic congruence does not descend
  into the list, and rewrite rules never reach the operands `a`, `b` standing inside it. Declared a congruence rule
  where it is needed (`attribute [local congr] Idealize.ShloMosaic.concatenate_pair_congr`), this lemma makes the
  simplification rewrite the two operands like any other argument: reading a list of host operations back as one
  composed term then also rewrites what a concatenation joins, instead of leaving the operands as unread buffer
  contents after a prefix of the operations.
-/
import Idealize.ShloMosaic.Lib.Pipeline.Value

noncomputable section

namespace Idealize.ShloMosaic

/-- A concatenation of two parts depends on the parts' values only: equal first parts and equal second parts give
    equal concatenations, the side condition (which speaks of the parts' shapes alone) being the same. -/
theorem concatenate_pair_congr {α : Type} {t : Shape} {ax : Fin t.rank} {s₁ s₂ : Shape}
    {a a' : s₁.Idx → α} {b b' : s₂.Idx → α} (h : Shape.Concatenates [s₁, s₂] t ax) (ha : a = a') (hb : b = b') :
    concatenate t ax [⟨s₁, a⟩, ⟨s₂, b⟩] h = concatenate t ax [⟨s₁, a'⟩, ⟨s₂, b'⟩] h := by
  subst ha hb; rfl

end Idealize.ShloMosaic

end
-- ==== Proof.KerHostB.lean ====
/-
  The kernel's two masked score arrays as the lines after the region find them: after the host operations before the
  region, from ANY contents `W` of the buffers, they are the stages `val_main_v17`, `val_main_v19` the reference
  computes, of what `W` holds at the scores and the matches.
-/
import proofs.«174740_j34617436405934_1_alg».proof.Proof.KerHostList
import proofs.«174740_j34617436405934_1_alg».proof.Proof.RefStages
import proofs.«174740_j34617436405934_1_alg».proof.Proof.LibConcatCongr

noncomputable section

namespace Cert.KernelIdeal.Pre

open Cert.KernelIdeal Cert.KernelIdeal.Gen
open Idealize.ShloMosaic Idealize.ShloMosaic.TcCoe Idealize.SL.Sem Idealize.ShloMosaic.StableHlo

variable {F : FTy → Type} [FloatOps F]

attribute [local congr] Idealize.ShloMosaic.concatenate_pair_congr

set_option maxRecDepth 65536 in
set_option maxHeartbeats 0 in
theorem before_v17 (W : Valuation τ sig (Elt F)) :
    after hostBefore W (Proc.devRef .tc main_v17)
      = Cert.ReferenceIdeal.ReadP.val_main_v17 (F := F) (W (Proc.devRef .tc main_arg4)) (W (Proc.devRef .tc main_arg6)) := by
  simp only [hostBefore, List.flatten_cons, List.flatten_nil, List.append_nil, StableHlo.after_append]
  after_results_simp
  rfl

set_option maxRecDepth 65536 in
set_option maxHeartbeats 0 in
theorem before_v19 (W : Valuation τ sig (Elt F)) :
    after hostBefore W (Proc.devRef .tc main_v19)
      = Cert.ReferenceIdeal.ReadP.val_main_v19 (F := F) (W (Proc.devRef .tc main_arg5)) (W (Proc.devRef .tc main_arg6)) := by
  simp only [hostBefore, List.flatten_cons, List.flatten_nil, List.append_nil, StableHlo.after_append]
  after_results_simp
  rfl

end Cert.KernelIdeal.Pre

end
-- ==== Proof.KerHostC.lean ====
/-
  The kernel's two keypoint results and its six small window arrays after the host operations before the region, from
  ANY contents `W` of the buffers: the keypoint results are the stages `val_main_v13`, `val_main_v15` the reference
  computes; the weight array is the weight argument with its format changed; each gain, bias and the affine map's bias
  is its argument viewed as one row.
-/
import proofs.«174740_j34617436405934_1_alg».proof.Proof.KerHostList
import proofs.«174740_j34617436405934_1_alg».proof.Proof.RefStages
import proofs.«174740_j34617436405934_1_alg».proof.Proof.LibConcatCongr

noncomputable section

namespace Cert.KernelIdeal.Pre

open Cert.KernelIdeal Cert.KernelIdeal.Gen
open Idealize.ShloMosaic Idealize.ShloMosaic.TcCoe Idealize.SL.Sem Idealize.ShloMosaic.StableHlo

variable {F : FTy → Type} [FloatOps F]

attribute [local congr] Idealize.ShloMosaic.concatenate_pair_congr

set_option maxRecDepth 65536 in
set_option maxHeartbeats 0 in
theorem before_v13 (W : Valuation τ sig (Elt F)) :
    after hostBefore W (Proc.devRef .tc main_v13)
      = Cert.ReferenceIdeal.ReadP.val_main_v13 (F := F) (W (Proc.devRef .tc main_arg2)) (W (Proc.devRef .tc main_arg6)) := by
  simp only [hostBefore, List.flatten_cons, List.flatten_nil, List.append_nil, StableHlo.after_append]
  after_results_simp
  rfl

set_option maxRecDepth 65536 in
set_option maxHeartbeats 0 in
theorem before_v15 (W : Valuation τ sig (Elt F)) :
    after hostBefore W (Proc.devRef .tc main_v15)
      = Cert.ReferenceIdeal.ReadP.val_main_v15 (F := F) (W (Proc.devRef .tc main_arg3)) (W (Proc.devRef .tc main_arg6)) := by
  simp only [hostBefore, List.flatten_cons, List.flatten_nil, List.append_nil, StableHlo.after_append]
  after_results_simp
  rfl

set_option maxRecDepth 65536 in
set_option maxHeartbeats 0 in
theorem before_v115 (W : Valuation τ sig (Elt F)) :
    after hostBefore W (Proc.devRef .tc main_v115)
      = truncf .bf16 (W (Proc.devRef .tc main_arg10)) bitsLt_bf16_f32 := by
  simp only [hostBefore, List.flatten_cons, List.flatten_nil, List.append_nil, StableHlo.after_append]
  after_results_simp

set_option maxRecDepth 65536 in
set_option maxHeartbeats 0 in
theorem before_v116 (W : Valuation τ sig (Elt F)) :
    after hostBefore W (Proc.devRef .tc main_v116)
      = shapeCast S1x768 (W (Proc.devRef .tc main_arg8)) shapeCasts_S768_S1x768 := by
  simp only [hostBefore, List.flatten_cons, List.flatten_nil, List.append_nil, StableHlo.after_append]
  after_results_simp
  rfl

set_option maxRecDepth 65536 in
set_option maxHeartbeats 0 in
theorem before_v117 (W : Valuation τ sig (Elt F)) :
    after hostBefore W (Proc.devRef .tc main_v117)
      = shapeCast S1x768 (W (Proc.devRef .tc main_arg9)) shapeCasts_S768_S1x768 := by
  simp only [hostBefore, List.flatten_cons, List.flatten_nil, List.append_nil, StableHlo.after_append]
  after_results_simp
  rfl

set_option maxRecDepth 65536 in
set_option maxHeartbeats 0 in
theorem before_v118 (W : Valuation τ sig (Elt F)) :
    after hostBefore W (Proc.devRef .tc main_v118)
      = shapeCast S1x1023 (W (Proc.devRef .tc main_arg11)) shapeCasts_S1023_S1x1023 := by
  simp only [hostBefore, List.flatten_cons, List.flatten_nil, List.append_nil, StableHlo.after_append]
  after_results_simp
  rfl

set_option maxRecDepth 65536 in
set_option maxHeartbeats 0 in
theorem before_v119 (W : Valuation τ sig (Elt F)) :
    after hostBefore W (Proc.devRef .tc main_v119)
      = shapeCast S1x1023 (W (Proc.devRef .tc main_arg12)) shapeCasts_S1023_S1x1023 := by
  simp only [hostBefore, List.flatten_cons, List.flatten_nil, List.append_nil, StableHlo.after_append]
  after_results_simp
  rfl

set_option maxRecDepth 65536 in
set_option maxHeartbeats 0 in
theorem before_v120 (W : Valuation τ sig (Elt F)) :
    after hostBefore W (Proc.devRef .tc main_v120)
      = shapeCast S1x1023 (W (Proc.devRef .tc main_arg13)) shapeCasts_S1023_S1x1023 := by
  simp only [hostBefore, List.flatten_cons, List.flatten_nil, List.append_nil, StableHlo.after_append]
  after_results_simp
  rfl

end Cert.KernelIdeal.Pre

end
-- ==== Proof.KerTail.lean ====
/-
  The kernel program's thirteen host operations after its region, read over ANY contents `W` of the buffers. They view
  the region's output array as [32, 2048, 1023], join it with the two score arrays, and compute the pooled prediction —
  the same operations the reference ends with. So: if the output array, so viewed, is the reference's encoded features
  (`hout`) and the score arrays are the reference's (`h17`, `h19`), the second result is the reference's stage
  `val_main_v168`; the first result is the stage `val_main_v175` of the arguments; and the two keypoint results and the
  arguments, which none of the thirteen writes, keep what `W` holds.
-/
import proofs.«174740_j34617436405934_1_alg».proof.Proof.Gen.KernelIdeal.Frame
import proofs.«174740_j34617436405934_1_alg».proof.Proof.RefStages
import proofs.«174740_j34617436405934_1_alg».proof.Proof.LibConcatCongr

noncomputable section

namespace Cert.KernelIdeal.After

open Cert.KernelIdeal Cert.KernelIdeal.Gen
open Idealize.ShloMosaic Idealize.ShloMosaic.TcCoe Idealize.SL.Sem Idealize.ShloMosaic.StableHlo

variable {F : FTy → Type} [FloatOps F]

attribute [local congr] Idealize.ShloMosaic.concatenate_pair_congr

set_option maxRecDepth 65536 in
set_option maxHeartbeats 4000000 in
/-- The second result. -/
theorem after_v125 (W : Valuation τ sig (Elt F)) (a0 : (⟨Cert.ReferenceIdeal.S32x3x256x256, .f32⟩ : BufTy).Contents (Elt F)) (a1 : (⟨Cert.ReferenceIdeal.S32x3x256x256, .f32⟩ : BufTy).Contents (Elt F)) (a2 : (⟨Cert.ReferenceIdeal.S32x2048x2, .f32⟩ : BufTy).Contents (Elt F)) (a3 : (⟨Cert.ReferenceIdeal.S32x2048x2, .f32⟩ : BufTy).Contents (Elt F)) (a4 : (⟨Cert.ReferenceIdeal.S32x2048, .f32⟩ : BufTy).Contents (Elt F)) (a5 : (⟨Cert.ReferenceIdeal.S32x2048, .f32⟩ : BufTy).Contents (Elt F)) (a6 : (⟨Cert.ReferenceIdeal.S32x1024x2, .i32⟩ : BufTy).Contents (Elt F)) (a8 : (⟨Cert.ReferenceIdeal.S768, .f32⟩ : BufTy).Contents (Elt F)) (a9 : (⟨Cert.ReferenceIdeal.S768, .f32⟩ : BufTy).Contents (Elt F)) (a10 : (⟨Cert.ReferenceIdeal.S768x1023, .f32⟩ : BufTy).Contents (Elt F)) (a11 : (⟨Cert.ReferenceIdeal.S1023, .f32⟩ : BufTy).Contents (Elt F)) (a12 : (⟨Cert.ReferenceIdeal.S1023, .f32⟩ : BufTy).Contents (Elt F)) (a13 : (⟨Cert.ReferenceIdeal.S1023, .f32⟩ : BufTy).Contents (Elt F))
    (hout : shapeCast S32x2048x1023 (W (Proc.devRef .tc main_v121)) shapeCasts_S65536x1023_S32x2048x1023
      = Cert.ReferenceIdeal.ReadP.val_main_v165 (F := F) a0 a1 a2 a3 a6 a8 a9 a10 a11 a12 a13)
    (h17 : W (Proc.devRef .tc main_v17) = Cert.ReferenceIdeal.ReadP.val_main_v17 (F := F) a4 a6)
    (h19 : W (Proc.devRef .tc main_v19) = Cert.ReferenceIdeal.ReadP.val_main_v19 (F := F) a5 a6) :
    after hostOps1 W (Proc.devRef .tc main_v125) = Cert.ReferenceIdeal.ReadP.val_main_v168 (F := F) a0 a1 a2 a3 a4 a5 a6 a8 a9 a10 a11 a12 a13 := by
  after_results_simp
  rw [h17, h19]
  refine (concatenate_pair_congr (a' := Cert.ReferenceIdeal.ReadP.val_main_v165 (F := F) a0 a1 a2 a3 a6 a8 a9 a10 a11 a12 a13) _ ?_ rfl).trans ?_
  · exact hout
  · rfl

set_option maxRecDepth 65536 in
set_option maxHeartbeats 4000000 in
/-- The first result. -/
theorem after_v132 (W : Valuation τ sig (Elt F)) :
    after hostOps1 W (Proc.devRef .tc main_v132)
      = Cert.ReferenceIdeal.ReadP.val_main_v175 (F := F) (W (Proc.devRef .tc main_arg7)) (W (Proc.devRef .tc main_arg14)) (W (Proc.devRef .tc main_arg15)) := by
  after_results_simp
  rfl

/-- The buffers whose final contents the claims speak of and that the thirteen operations do not write. -/
abbrev kept : List (Ref sig .tc) :=
  [main_v13, main_v15, main_arg0, main_arg1, main_arg2, main_arg3, main_arg4, main_arg5, main_arg6, main_arg7, main_arg8,
   main_arg9, main_arg10, main_arg11, main_arg12, main_arg13, main_arg14, main_arg15]

set_option maxRecDepth 65536 in
set_option maxHeartbeats 40000000 in
theorem after_keep (W : Valuation τ sig (Elt F)) (b : Ref sig .tc) (hb : b ∈ kept) :
    after hostOps1 W (Proc.devRef .tc b) = W (Proc.devRef .tc b) := by
  simp only [kept, List.mem_cons, List.mem_nil_iff, or_false] at hb
  rcases hb with rfl | rfl | rfl | rfl | rfl | rfl | rfl | rfl | rfl | rfl | rfl | rfl | rfl | rfl | rfl | rfl | rfl | rfl
  all_goals
      after_results_simp

end Cert.KernelIdeal.After

end
-- ==== Proof.RowEncoder.lean ====
/-
  The patch encoder of one row, on the extended reals.

  A row `x` of `n` entries is normalised: its mean `μ = (∑ x) / N` is subtracted, the mean of the squared
  deviations `σ² = (∑ (x - μ)²) / N` is taken, and each deviation is scaled by `(σ² + ε)^(-1/2)`, then by a gain
  and shifted by a bias (`rowNorm`).  The encoder is a normalisation of the 768 patch entries, an affine map
  to 1023 features (`∑ₖ x̂ₖ · Wₖd + b_d`), and a second normalisation of those features (`encodeRow`).
  The quotient is the extended reals' own (`Ideal.div`), the inverse square root `Ideal.rsqrt`; `N` and `ε`
  stay the values of the words the programs print, never evaluated.  Nothing here needs the entries finite:
  both programs apply these same operations in this same order, and only the order of a sum's terms differs.
-/
import Idealize.ShloMosaic.PureOps.Ideal
import Idealize.ShloMosaic.Lib.ValueIdx

noncomputable section

namespace Cert.PatchEncoder

open Idealize.ShloMosaic

/-- The mean of a row: the sum of its entries over `N`. -/
def rowMean {n : Nat} (N : EReal) (x : Fin n → EReal) : EReal := Ideal.div (∑ k : Fin n, x k) N

/-- The mean of the squared deviations of a row from its mean. -/
def rowVar {n : Nat} (N : EReal) (x : Fin n → EReal) : EReal :=
  Ideal.div (∑ k : Fin n, (x k - rowMean N x) * (x k - rowMean N x)) N

/-- Layer normalisation of a row: deviation from the mean, times the inverse root of variance plus `ε`, times
    the gain, plus the bias — in this order of the products. -/
def rowNorm {n : Nat} (N ε : EReal) (x g b : Fin n → EReal) (j : Fin n) : EReal :=
  (x j - rowMean N x) * Ideal.rsqrt (rowVar N x + ε) * g j + b j

/-- The affine map of a row of `n` entries to `p` features. -/
def rowAffine {n p : Nat} (x : Fin n → EReal) (W : Fin n → Fin p → EReal) (b : Fin p → EReal) (d : Fin p) : EReal :=
  (∑ k : Fin n, x k * W k d) + b d

/-- The encoder of one row: normalise, map, normalise. -/
def encodeRow {n p : Nat} (N₁ N₂ ε : EReal) (x g₁ b₁ : Fin n → EReal) (W : Fin n → Fin p → EReal)
    (bl g₂ b₂ : Fin p → EReal) : Fin p → EReal :=
  rowNorm N₂ ε (rowAffine (rowNorm N₁ ε x g₁ b₁) W bl) g₂ b₂

/-- The three words both programs print: 768, 1023 and the `ε` of the normalisations. -/
abbrev n768 : EReal := Ideal.ofBits .f32 0x44400000#32
abbrev n1023 : EReal := Ideal.ofBits .f32 0x447FC000#32
abbrev eps : EReal := Ideal.ofBits .f32 0x3727C5AC#32

end Cert.PatchEncoder

end
-- ==== Proof.KerBody.lean ====
/-
  What the kernel's body leaves in its output block, entry by entry: row `r` of the 512-row block is the encoder
  (Proof/RowEncoder.lean `encodeRow`) of row `r` of the input block, with the gains, biases and weights read off the
  one-row and whole-array blocks.
-/
import proofs.«174740_j34617436405934_1_alg».proof.Proof.Gen.KernelIdeal.Frame
import proofs.«174740_j34617436405934_1_alg».proof.Proof.RowEncoder
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Body

open Idealize.ShloMosaic Idealize.ShloMosaic.ValueIdx Cert.KernelIdeal Cert.KernelIdeal.Gen Cert.PatchEncoder

/-! ## Layout operations and the lane sum, at coordinates -/

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- A sum along the lanes of an `[a, b]` array of extended reals, read at row `r`, is the sum of that row's entries. -/
theorem laneSum_apply {a b : ℕ} (v : FVec Ideal (⟨2, ![a, b]⟩ : Shape) .f32)
    (h : (⟨2, ![a, b]⟩ : Shape).Reduces [1] ⟨1, ![a]⟩) (hφ : FKind.Formats .f32)
    (hacc : (0x00000000#32 : BitVec 32) = 0x00000000#32) (r : Fin a) :
    multiReduction (F := Ideal) .add [1] ⟨1, ![a]⟩ v 0x00000000#32 h hφ hacc (ix1 r) = ∑ k : Fin b, v (ix2 r k) := by
  refine (Ideal.multiReduction_add_single v 0x00000000#32 h hφ hacc (ix1 r)).trans ?_
  refine Finset.sum_congr rfl fun k _ => congrArg v ?_
  funext ax
  match ax with
  | ⟨0, _⟩ => rfl
  | ⟨1, _⟩ => rfl

/-! ## The normalisation as the kernel writes it, over any block `[a, b]` -/

/-- The column of row means: the lane sum, cast to a column, over the word `N`. -/
def meanCol {a b : ℕ} (N : BitVec 32) (hR : (⟨2, ![a, b]⟩ : Shape).Reduces [1] ⟨1, ![a]⟩)
    (hC : (⟨1, ![a]⟩ : Shape).ShapeCasts ⟨2, ![a, 1]⟩) (v : FVec Ideal ⟨2, ![a, b]⟩ .f32) : FVec Ideal ⟨2, ![a, 1]⟩ .f32 :=
  divf (shapeCast ⟨2, ![a, 1]⟩ (multiReduction (F := Ideal) .add [1] ⟨1, ![a]⟩ v 0x00000000#32 hR (.inl rfl) rfl) hC)
    (broadcast ⟨2, ![a, 1]⟩ (Scalar.ofBits (F := Ideal) .f32 N))

/-- It holds, at row `r`, the mean of that row. -/
theorem meanCol_apply {a b : ℕ} (N : BitVec 32) (hR : (⟨2, ![a, b]⟩ : Shape).Reduces [1] ⟨1, ![a]⟩)
    (hC : (⟨1, ![a]⟩ : Shape).ShapeCasts ⟨2, ![a, 1]⟩) (v : FVec Ideal ⟨2, ![a, b]⟩ .f32) (r : Fin a) (u : Fin 1) :
    meanCol N hR hC v (ix2 r u) = rowMean (Ideal.ofBits .f32 N) (fun k : Fin b => v (ix2 r k)) :=
  (divf_apply _ _ (ix2 r u)).trans (congrArg (fun t => Ideal.div t (Ideal.ofBits .f32 N))
    ((shapeCast_a_a1_apply _ hC r u).trans (laneSum_apply v hR (.inl rfl) rfl r)))

/-- The deviation of every entry from its row's mean. -/
def devP {a b : ℕ} (N : BitVec 32) (hR : (⟨2, ![a, b]⟩ : Shape).Reduces [1] ⟨1, ![a]⟩)
    (hC : (⟨1, ![a]⟩ : Shape).ShapeCasts ⟨2, ![a, 1]⟩) (hB : (⟨2, ![a, 1]⟩ : Shape).Broadcasts ⟨2, ![a, b]⟩)
    (v : FVec Ideal ⟨2, ![a, b]⟩ .f32) : FVec Ideal ⟨2, ![a, b]⟩ .f32 :=
  subf v (broadcastTo ⟨2, ![a, b]⟩ (meanCol N hR hC v) hB)

theorem devP_apply {a b : ℕ} (N : BitVec 32) (hR : (⟨2, ![a, b]⟩ : Shape).Reduces [1] ⟨1, ![a]⟩)
    (hC : (⟨1, ![a]⟩ : Shape).ShapeCasts ⟨2, ![a, 1]⟩) (hB : (⟨2, ![a, 1]⟩ : Shape).Broadcasts ⟨2, ![a, b]⟩)
    (v : FVec Ideal ⟨2, ![a, b]⟩ .f32) (r : Fin a) (c : Fin b) :
    devP N hR hC hB v (ix2 r c) = v (ix2 r c) - rowMean (Ideal.ofBits .f32 N) (fun k : Fin b => v (ix2 r k)) :=
  (subf_apply v _ (ix2 r c)).trans (congrArg (fun t => v (ix2 r c) - t)
    ((broadcastTo_a1_ab_apply _ hB r c).trans (meanCol_apply N hR hC v r 0)))

/-- The scaling of the deviations `dv` by the inverse root of the mean of `sq` plus the word `E`, then by the gain row
    and shifted by the bias row. -/
def scaleP {a b : ℕ} (N E : BitVec 32) (hR : (⟨2, ![a, b]⟩ : Shape).Reduces [1] ⟨1, ![a]⟩)
    (hC : (⟨1, ![a]⟩ : Shape).ShapeCasts ⟨2, ![a, 1]⟩) (hB : (⟨2, ![a, 1]⟩ : Shape).Broadcasts ⟨2, ![a, b]⟩)
    (hC1 : (⟨2, ![1, b]⟩ : Shape).ShapeCasts ⟨2, ![1, b]⟩) (hB1 : (⟨2, ![1, b]⟩ : Shape).Broadcasts ⟨2, ![a, b]⟩)
    (dv sq : FVec Ideal ⟨2, ![a, b]⟩ .f32) (g bb : FVec Ideal ⟨2, ![1, b]⟩ .f32) : FVec Ideal ⟨2, ![a, b]⟩ .f32 :=
  addf (mulf (mulf dv (broadcastTo ⟨2, ![a, b]⟩
        (rsqrt (addf (meanCol N hR hC sq) (broadcast ⟨2, ![a, 1]⟩ (Scalar.ofBits (F := Ideal) .f32 E)))) hB))
      (broadcastTo ⟨2, ![a, b]⟩ (shapeCast ⟨2, ![1, b]⟩ g hC1) hB1))
    (broadcastTo ⟨2, ![a, b]⟩ (shapeCast ⟨2, ![1, b]⟩ bb hC1) hB1)

theorem scaleP_apply {a b : ℕ} (N E : BitVec 32) (hR : (⟨2, ![a, b]⟩ : Shape).Reduces [1] ⟨1, ![a]⟩)
    (hC : (⟨1, ![a]⟩ : Shape).ShapeCasts ⟨2, ![a, 1]⟩) (hB : (⟨2, ![a, 1]⟩ : Shape).Broadcasts ⟨2, ![a, b]⟩)
    (hC1 : (⟨2, ![1, b]⟩ : Shape).ShapeCasts ⟨2, ![1, b]⟩) (hB1 : (⟨2, ![1, b]⟩ : Shape).Broadcasts ⟨2, ![a, b]⟩)
    (dv sq : FVec Ideal ⟨2, ![a, b]⟩ .f32) (g bb : FVec Ideal ⟨2, ![1, b]⟩ .f32) (r : Fin a) (c : Fin b) :
    scaleP N E hR hC hB hC1 hB1 dv sq g bb (ix2 r c)
      = dv (ix2 r c) * Ideal.rsqrt (rowMean (Ideal.ofBits .f32 N) (fun k : Fin b => sq (ix2 r k)) + Ideal.ofBits .f32 E)
          * g (ix2 (0 : Fin 1) c) + bb (ix2 (0 : Fin 1) c) := by
  have e1 : broadcastTo ⟨2, ![a, b]⟩
        (rsqrt (addf (meanCol N hR hC sq) (broadcast ⟨2, ![a, 1]⟩ (Scalar.ofBits (F := Ideal) .f32 E)))) hB (ix2 r c)
      = Ideal.rsqrt (rowMean (Ideal.ofBits .f32 N) (fun k : Fin b => sq (ix2 r k)) + Ideal.ofBits .f32 E) :=
    (broadcastTo_a1_ab_apply _ hB r c).trans
      (congrArg (fun t => Ideal.rsqrt (t + Ideal.ofBits .f32 E)) (meanCol_apply N hR hC sq r 0))
  have e2 : broadcastTo ⟨2, ![a, b]⟩ (shapeCast ⟨2, ![1, b]⟩ g hC1) hB1 (ix2 r c) = g (ix2 (0 : Fin 1) c) :=
    (broadcastTo_1b_ab_apply _ hB1 r c).trans (congrFun (shapeCast_self g hC1) _)
  have e3 : broadcastTo ⟨2, ![a, b]⟩ (shapeCast ⟨2, ![1, b]⟩ bb hC1) hB1 (ix2 r c) = bb (ix2 (0 : Fin 1) c) :=
    (broadcastTo_1b_ab_apply _ hB1 r c).trans (congrFun (shapeCast_self bb hC1) _)
  unfold scaleP
  rw [addf_apply, mulf_apply, mulf_apply, e1, e2, e3]

/-- Deviations, their squares, and the scaling together are the normalisation of each row. -/
theorem lnP_apply {a b : ℕ} (N E : BitVec 32) (hR : (⟨2, ![a, b]⟩ : Shape).Reduces [1] ⟨1, ![a]⟩)
    (hC : (⟨1, ![a]⟩ : Shape).ShapeCasts ⟨2, ![a, 1]⟩) (hB : (⟨2, ![a, 1]⟩ : Shape).Broadcasts ⟨2, ![a, b]⟩)
    (hC1 : (⟨2, ![1, b]⟩ : Shape).ShapeCasts ⟨2, ![1, b]⟩) (hB1 : (⟨2, ![1, b]⟩ : Shape).Broadcasts ⟨2, ![a, b]⟩)
    (v : FVec Ideal ⟨2, ![a, b]⟩ .f32) (g bb : FVec Ideal ⟨2, ![1, b]⟩ .f32) (r : Fin a) (c : Fin b) :
    scaleP N E hR hC hB hC1 hB1 (devP N hR hC hB v) (mulf (devP N hR hC hB v) (devP N hR hC hB v)) g bb (ix2 r c)
      = rowNorm (Ideal.ofBits .f32 N) (Ideal.ofBits .f32 E) (fun k : Fin b => v (ix2 r k))
          (fun k : Fin b => g (ix2 (0 : Fin 1) k)) (fun k : Fin b => bb (ix2 (0 : Fin 1) k)) c := by
  refine (scaleP_apply N E hR hC hB hC1 hB1 _ _ g bb r c).trans ?_
  have hd : ∀ k : Fin b, devP N hR hC hB v (ix2 r k)
      = v (ix2 r k) - rowMean (Ideal.ofBits .f32 N) (fun j : Fin b => v (ix2 r j)) :=
    fun k => devP_apply N hR hC hB v r k
  have hsq : (fun k : Fin b => mulf (devP N hR hC hB v) (devP N hR hC hB v) (ix2 r k))
      = fun k : Fin b => (v (ix2 r k) - rowMean (Ideal.ofBits .f32 N) (fun j : Fin b => v (ix2 r j)))
          * (v (ix2 r k) - rowMean (Ideal.ofBits .f32 N) (fun j : Fin b => v (ix2 r j))) :=
    funext fun k => by rw [mulf_apply, hd k]
  rw [hsq, hd c]
  first | done | rfl

/-! ## The affine map: the product with the weights into a zero accumulator, plus the bias row -/

/-- The product into the zero accumulator, read at `(r, d)`, is the sum over the 768 contracted positions. -/
theorem matmul_apply_ix (lhs : FVec Ideal S512x768 .bf16) (rhs : FVec Ideal S768x1023 .bf16) (r : Fin 512) (d : Fin 1023) :
    matmul (F := Ideal) dot_S512x768_S768x1023_S512x1023_1_0_0_1_n_n none lhs rhs
        (constant (F := Ideal) S512x1023 .f32 0x00000000#32) (ix2 r d)
      = ∑ k : Fin 768, lhs (ix2 r k) * rhs (ix2 k d) := by
  refine (Ideal.matmul_constant_zero_apply dot_S512x768_S768x1023_S512x1023_1_0_0_1_n_n none lhs rhs (ix2 r d)).trans ?_
  refine (Equiv.sum_comp (contrEquiv1 dot_S512x768_S768x1023_S512x1023_1_0_0_1_n_n 768 rfl rfl).symm
    (fun q => lhs (dot_S512x768_S768x1023_S512x1023_1_0_0_1_n_n.lhsIdx (ix2 r d) q)
      * rhs (dot_S512x768_S768x1023_S512x1023_1_0_0_1_n_n.rhsIdx (ix2 r d) q))).symm.trans ?_
  refine Finset.sum_congr rfl fun k _ => ?_
  have hk := contrEquiv1_symm_val dot_S512x768_S768x1023_S512x1023_1_0_0_1_n_n 768 rfl rfl k
  have hl : dot_S512x768_S768x1023_S512x1023_1_0_0_1_n_n.lhsIdx (ix2 r d)
      ((contrEquiv1 dot_S512x768_S768x1023_S512x1023_1_0_0_1_n_n 768 rfl rfl).symm k) = ix2 r k := by
    funext ax
    match ax with
    | ⟨0, _⟩ => exact Fin.ext rfl
    | ⟨1, _⟩ =>
      exact Fin.ext ((dot_S512x768_S768x1023_S512x1023_1_0_0_1_n_n.lhsIdx_val_of_single rfl (ix2 r d) _).trans hk)
  have hr : dot_S512x768_S768x1023_S512x1023_1_0_0_1_n_n.rhsIdx (ix2 r d)
      ((contrEquiv1 dot_S512x768_S768x1023_S512x1023_1_0_0_1_n_n 768 rfl rfl).symm k) = ix2 k d := by
    funext ax
    match ax with
    | ⟨0, _⟩ =>
      exact Fin.ext ((dot_S512x768_S768x1023_S512x1023_1_0_0_1_n_n.rhsIdx_val_of_single rfl (ix2 r d) _).trans hk)
    | ⟨1, _⟩ => exact Fin.ext rfl
  exact congrArg₂ (fun x y : EReal => x * y) (congrArg lhs hl) (congrArg rhs hr)

/-- The affine map as the kernel writes it. -/
def affP (y : FVec Ideal S512x768 .f32) (w : FVec Ideal S768x1023 .bf16) (bl : FVec Ideal S1x1023 .f32) :
    FVec Ideal S512x1023 .f32 :=
  addf (matmul (F := Ideal) dot_S512x768_S768x1023_S512x1023_1_0_0_1_n_n none (truncf .bf16 y bitsLt_bf16_f32)
      (shapeCast S768x1023 w shapeCasts_S768x1023_S768x1023) (constant (F := Ideal) S512x1023 .f32 0x00000000#32))
    (broadcastTo S512x1023 (shapeCast S1x1023 bl shapeCasts_S1x1023_S1x1023) broadcasts_S1x1023_S512x1023)

theorem affP_apply (y : FVec Ideal S512x768 .f32) (w : FVec Ideal S768x1023 .bf16) (bl : FVec Ideal S1x1023 .f32)
    (r : Fin 512) (d : Fin 1023) :
    affP y w bl (ix2 r d) = rowAffine (fun k : Fin 768 => y (ix2 r k)) (fun (k : Fin 768) (e : Fin 1023) => w (ix2 k e))
      (fun e : Fin 1023 => bl (ix2 (0 : Fin 1) e)) d := by
  have e1 : matmul (F := Ideal) dot_S512x768_S768x1023_S512x1023_1_0_0_1_n_n none (truncf .bf16 y bitsLt_bf16_f32)
        (shapeCast S768x1023 w shapeCasts_S768x1023_S768x1023) (constant (F := Ideal) S512x1023 .f32 0x00000000#32) (ix2 r d)
      = ∑ k : Fin 768, y (ix2 r k) * w (ix2 k d) :=
    (matmul_apply_ix _ _ r d).trans (Finset.sum_congr rfl fun k _ => by rw [truncf_apply, shapeCast_self])
  have e2 : broadcastTo S512x1023 (shapeCast S1x1023 bl shapeCasts_S1x1023_S1x1023) broadcasts_S1x1023_S512x1023 (ix2 r d)
      = bl (ix2 (0 : Fin 1) d) :=
    (broadcastTo_1b_ab_apply _ broadcasts_S1x1023_S512x1023 r d).trans (congrFun (shapeCast_self bl _) _)
  unfold affP rowAffine
  rw [addf_apply, e1, e2]

/-! ## The kernel's three payloads in these terms -/

/-- The first normalisation, of the 768 patch entries of each row. -/
def ln1 (x0 : FVec Ideal S512x768 .f32) (x1 x2 : FVec Ideal S1x768 .f32) : FVec Ideal S512x768 .f32 :=
  scaleP 0x44400000#32 0x3727C5AC#32 reduces_S512x768_S512 shapeCasts_S512_S512x1 broadcasts_S512x1_S512x768
    shapeCasts_S1x768_S1x768 broadcasts_S1x768_S512x768
    (devP 0x44400000#32 reduces_S512x768_S512 shapeCasts_S512_S512x1 broadcasts_S512x1_S512x768
      (shapeCast S512x768 x0 shapeCasts_S512x768_S512x768))
    (mulf (devP 0x44400000#32 reduces_S512x768_S512 shapeCasts_S512_S512x1 broadcasts_S512x1_S512x768
        (shapeCast S512x768 x0 shapeCasts_S512x768_S512x768))
      (devP 0x44400000#32 reduces_S512x768_S512 shapeCasts_S512_S512x1 broadcasts_S512x1_S512x768
        (shapeCast S512x768 x0 shapeCasts_S512x768_S512x768)))
    x1 x2

/-- The deviations of the 1023 features from their row's mean: the operations in the order the payload applies them. -/
theorem pay2_eq (x0 : Vec Ideal S512x768 .f32) (x1 x2 : Vec Ideal S1x768 .f32) (x3 : Vec Ideal S768x1023 .bf16)
    (x4 : Vec Ideal S1x1023 .f32) :
    k0_pay2 (F := Ideal) x0 x1 x2 x3 x4
      = devP 0x447FC000#32 reduces_S512x1023_S512 shapeCasts_S512_S512x1 broadcasts_S512x1_S512x1023
          (affP (ln1 x0 x1 x2) x3 x4) := rfl

theorem pay3_eq (x0 : Vec Ideal S512x768 .f32) (x1 x2 : Vec Ideal S1x768 .f32) (x3 : Vec Ideal S768x1023 .bf16)
    (x4 : Vec Ideal S1x1023 .f32) :
    k0_pay3 (F := Ideal) x0 x1 x2 x3 x4
      = mulf (k0_pay2 (F := Ideal) x0 x1 x2 x3 x4) (k0_pay2 (F := Ideal) x0 x1 x2 x3 x4) := rfl

theorem pay1_eq (v39 v40 : FVec Ideal S512x1023 .f32) (x5 x6 : Vec Ideal S1x1023 .f32) :
    k0_pay1 (F := Ideal) v39 v40 x5 x6
      = scaleP 0x447FC000#32 0x3727C5AC#32 reduces_S512x1023_S512 shapeCasts_S512_S512x1 broadcasts_S512x1_S512x1023
          shapeCasts_S1x1023_S1x1023 broadcasts_S1x1023_S512x1023 v39 v40 x5 x6 := rfl

/-- The output block at row `r`, feature `d`. -/
theorem out_apply (x0 : Vec Ideal S512x768 .f32) (x1 x2 : Vec Ideal S1x768 .f32) (x3 : Vec Ideal S768x1023 .bf16)
    (x4 x5 x6 : Vec Ideal S1x1023 .f32) (r : Fin 512) (d : Fin 1023) :
    Gen.out0_7 (F := Ideal) x0 x1 x2 x3 x4 x5 x6 (ix2 r d)
      = encodeRow n768 n1023 eps (fun k : Fin 768 => x0 (ix2 r k)) (fun k : Fin 768 => x1 (ix2 (0 : Fin 1) k))
          (fun k : Fin 768 => x2 (ix2 (0 : Fin 1) k)) (fun (k : Fin 768) (e : Fin 1023) => x3 (ix2 k e))
          (fun e : Fin 1023 => x4 (ix2 (0 : Fin 1) e)) (fun e : Fin 1023 => x5 (ix2 (0 : Fin 1) e))
          (fun e : Fin 1023 => x6 (ix2 (0 : Fin 1) e)) d := by
  have hz : (![0, 0] : Fin 2 → Nat) = fun _ => 0 := funext fun a => by fin_cases a <;> rfl
  have hout : Gen.out0_7 (F := Ideal) x0 x1 x2 x3 x4 x5 x6
      = k0_pay1 (F := Ideal) (k0_pay2 (F := Ideal) x0 x1 x2 x3 x4) (k0_pay3 (F := Ideal) x0 x1 x2 x3 x4) x5 x6 := by
    unfold Gen.out0_7
    rw [View.canon_unit_zero hz]
    simp only [View.ld_unit_zero (S := S512x768) hz, View.ld_unit_zero (S := S1x768) hz,
      View.ld_unit_zero (S := S768x1023) hz, View.ld_unit_zero (S := S1x1023) hz]
  rw [hout, pay1_eq, pay3_eq, pay2_eq]
  refine (lnP_apply _ _ _ _ _ _ _ _ x5 x6 r d).trans ?_
  unfold encodeRow
  refine congrArg (fun f : Fin 1023 → EReal => rowNorm n1023 eps f (fun e : Fin 1023 => x5 (ix2 (0 : Fin 1) e))
    (fun e : Fin 1023 => x6 (ix2 (0 : Fin 1) e)) d) ?_
  funext e
  refine (affP_apply _ x3 x4 r e).trans ?_
  refine congrArg (fun f : Fin 768 → EReal => rowAffine f (fun (k : Fin 768) (e : Fin 1023) => x3 (ix2 k e))
    (fun e : Fin 1023 => x4 (ix2 (0 : Fin 1) e)) e) ?_
  funext k
  unfold ln1
  refine (lnP_apply _ _ _ _ _ _ _ _ x1 x2 r k).trans ?_
  rw [shapeCast_self]

end Cert.KernelIdeal.Body

end
-- ==== Proof.KerArray.lean ====
/-
  From blocks to the array. Grid point `t` of 128 stages rows `512·t … 512·t + 511` of the 65536-row input array and
  writes back the same rows of the output array; the six other operands are staged whole at every point. So the output
  array after the run holds, at row `R` and feature `d`, the encoder of row `R` of the input array.
-/
import proofs.«174740_j34617436405934_1_alg».proof.Proof.Gen.KernelIdeal.Frame
import proofs.«174740_j34617436405934_1_alg».proof.Proof.RowEncoder
import proofs.«174740_j34617436405934_1_alg».proof.Proof.KerBody
import Idealize.ShloMosaic.Lib.ValueIdx
import Idealize.ShloMosaic.Lib.Pipeline.Value

noncomputable section

namespace Cert.KernelIdeal.Blocks

open Idealize.ShloMosaic Idealize.ShloMosaic.ValueIdx Idealize.SL.Sem Cert.KernelIdeal Cert.KernelIdeal.Gen Cert.PatchEncoder

/-- The block index of every window at every grid point: the row windows (input rows, output rows) sit at block
    `t` of the row axis, every other window at block 0 of both axes. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0)

/-- Block `t` of the input rows' window, of any array: entry `(r, k)` of the block is entry `(512·t + r, k)` of the array. -/
theorem read_rows (A : S65536x768.Idx → EReal) (t : Fin cfg0.N) (r : Fin 512) (k : Fin 768) (R : Fin 65536)
    (e0 : win0_0.index t (0 : Fin 2) = t.val) (e1 : win0_0.index t (1 : Fin 2) = 0)
    (hR : R.val = 512 * t.val + r.val) :
    (((cfg0.win 0).blk t).view.read (Elt Ideal) A : S512x768.Idx → EReal) (ix2 r k) = A (ix2 R k) := by
  rw [View.read_apply]
  show A (((cfg0.win 0).blk t).view.emb (ix2 r k)) = A (ix2 R k)
  refine congrArg A ?_
  funext a; apply Fin.ext
  match a with
  | ⟨0, _⟩ => show win0_0.index t (0 : Fin 2) * 512 + 1 * r.val = R.val; omega
  | ⟨1, _⟩ => show win0_0.index t (1 : Fin 2) * 768 + 1 * k.val = k.val; omega

/-- Block `t` of the output rows' window, of any array: entry `(r, d)` of the block is entry `(512·t + r, d)` of the array. -/
theorem read_out (A : S65536x1023.Idx → EReal) (t : Fin cfg0.N) (r : Fin 512) (d : Fin 1023) (R : Fin 65536)
    (e0 : win0_7.index t (0 : Fin 2) = t.val) (e1 : win0_7.index t (1 : Fin 2) = 0)
    (hR : R.val = 512 * t.val + r.val) :
    (((cfg0.win 7).blk t).view.read (Elt Ideal) A : S512x1023.Idx → EReal) (ix2 r d) = A (ix2 R d) := by
  rw [View.read_apply]
  show A (((cfg0.win 7).blk t).view.emb (ix2 r d)) = A (ix2 R d)
  refine congrArg A ?_
  funext a; apply Fin.ext
  match a with
  | ⟨0, _⟩ => show win0_7.index t (0 : Fin 2) * 512 + 1 * r.val = R.val; omega
  | ⟨1, _⟩ => show win0_7.index t (1 : Fin 2) * 1023 + 1 * d.val = d.val; omega

/-- The first gain's window stages its whole array at every point. -/
theorem read_whole1 (A : S1x768.Idx → EReal) (t : Fin cfg0.N)
    (e0 : win0_1.index t (0 : Fin 2) = 0) (e1 : win0_1.index t (1 : Fin 2) = 0) (p : Fin 1) (q : Fin 768) :
    (((cfg0.win 1).blk t).view.read (Elt Ideal) A : S1x768.Idx → EReal) (ix2 p q) = A (ix2 p q) := by
  rw [View.read_apply]
  show A (((cfg0.win 1).blk t).view.emb (ix2 p q)) = A (ix2 p q)
  refine congrArg A ?_
  funext a; apply Fin.ext
  match a with
  | ⟨0, _⟩ => show win0_1.index t (0 : Fin 2) * 1 + 1 * p.val = p.val; omega
  | ⟨1, _⟩ => show win0_1.index t (1 : Fin 2) * 768 + 1 * q.val = q.val; omega

/-- The first bias's window stages its whole array at every point. -/
theorem read_whole2 (A : S1x768.Idx → EReal) (t : Fin cfg0.N)
    (e0 : win0_2.index t (0 : Fin 2) = 0) (e1 : win0_2.index t (1 : Fin 2) = 0) (p : Fin 1) (q : Fin 768) :
    (((cfg0.win 2).blk t).view.read (Elt Ideal) A : S1x768.Idx → EReal) (ix2 p q) = A (ix2 p q) := by
  rw [View.read_apply]
  show A (((cfg0.win 2).blk t).view.emb (ix2 p q)) = A (ix2 p q)
  refine congrArg A ?_
  funext a; apply Fin.ext
  match a with
  | ⟨0, _⟩ => show win0_2.index t (0 : Fin 2) * 1 + 1 * p.val = p.val; omega
  | ⟨1, _⟩ => show win0_2.index t (1 : Fin 2) * 768 + 1 * q.val = q.val; omega

/-- The weight's window stages its whole array at every point. -/
theorem read_whole3 (A : S768x1023.Idx → EReal) (t : Fin cfg0.N)
    (e0 : win0_3.index t (0 : Fin 2) = 0) (e1 : win0_3.index t (1 : Fin 2) = 0) (p : Fin 768) (q : Fin 1023) :
    (((cfg0.win 3).blk t).view.read (Elt Ideal) A : S768x1023.Idx → EReal) (ix2 p q) = A (ix2 p q) := by
  rw [View.read_apply]
  show A (((cfg0.win 3).blk t).view.emb (ix2 p q)) = A (ix2 p q)
  refine congrArg A ?_
  funext a; apply Fin.ext
  match a with
  | ⟨0, _⟩ => show win0_3.index t (0 : Fin 2) * 768 + 1 * p.val = p.val; omega
  | ⟨1, _⟩ => show win0_3.index t (1 : Fin 2) * 1023 + 1 * q.val = q.val; omega

/-- The affine map's bias's window stages its whole array at every point. -/
theorem read_whole4 (A : S1x1023.Idx → EReal) (t : Fin cfg0.N)
    (e0 : win0_4.index t (0 : Fin 2) = 0) (e1 : win0_4.index t (1 : Fin 2) = 0) (p : Fin 1) (q : Fin 1023) :
    (((cfg0.win 4).blk t).view.read (Elt Ideal) A : S1x1023.Idx → EReal) (ix2 p q) = A (ix2 p q) := by
  rw [View.read_apply]
  show A (((cfg0.win 4).blk t).view.emb (ix2 p q)) = A (ix2 p q)
  refine congrArg A ?_
  funext a; apply Fin.ext
  match a with
  | ⟨0, _⟩ => show win0_4.index t (0 : Fin 2) * 1 + 1 * p.val = p.val; omega
  | ⟨1, _⟩ => show win0_4.index t (1 : Fin 2) * 1023 + 1 * q.val = q.val; omega

/-- The second gain's window stages its whole array at every point. -/
theorem read_whole5 (A : S1x1023.Idx → EReal) (t : Fin cfg0.N)
    (e0 : win0_5.index t (0 : Fin 2) = 0) (e1 : win0_5.index t (1 : Fin 2) = 0) (p : Fin 1) (q : Fin 1023) :
    (((cfg0.win 5).blk t).view.read (Elt Ideal) A : S1x1023.Idx → EReal) (ix2 p q) = A (ix2 p q) := by
  rw [View.read_apply]
  show A (((cfg0.win 5).blk t).view.emb (ix2 p q)) = A (ix2 p q)
  refine congrArg A ?_
  funext a; apply Fin.ext
  match a with
  | ⟨0, _⟩ => show win0_5.index t (0 : Fin 2) * 1 + 1 * p.val = p.val; omega
  | ⟨1, _⟩ => show win0_5.index t (1 : Fin 2) * 1023 + 1 * q.val = q.val; omega

/-- The second bias's window stages its whole array at every point. -/
theorem read_whole6 (A : S1x1023.Idx → EReal) (t : Fin cfg0.N)
    (e0 : win0_6.index t (0 : Fin 2) = 0) (e1 : win0_6.index t (1 : Fin 2) = 0) (p : Fin 1) (q : Fin 1023) :
    (((cfg0.win 6).blk t).view.read (Elt Ideal) A : S1x1023.Idx → EReal) (ix2 p q) = A (ix2 p q) := by
  rw [View.read_apply]
  show A (((cfg0.win 6).blk t).view.emb (ix2 p q)) = A (ix2 p q)
  refine congrArg A ?_
  funext a; apply Fin.ext
  match a with
  | ⟨0, _⟩ => show win0_6.index t (0 : Fin 2) * 1 + 1 * p.val = p.val; omega
  | ⟨1, _⟩ => show win0_6.index t (1 : Fin 2) * 1023 + 1 * q.val = q.val; omega

/-- The encoder applied along the rows of an array: row `R` of the result is the encoder of row `R` of `A0`, with the
    gains, biases and weight read off the other six arrays. -/
def encodeArr (A0 : S65536x768.Idx → EReal) (A1 A2 : S1x768.Idx → EReal) (A3 : S768x1023.Idx → EReal)
    (A4 A5 A6 : S1x1023.Idx → EReal) : S65536x1023.Idx → EReal := fun j =>
  encodeRow n768 n1023 eps (fun k : Fin 768 => A0 (ix2 (j 0 : Fin 65536) k)) (fun k : Fin 768 => A1 (ix2 (0 : Fin 1) k))
    (fun k : Fin 768 => A2 (ix2 (0 : Fin 1) k)) (fun (k : Fin 768) (e : Fin 1023) => A3 (ix2 k e))
    (fun e : Fin 1023 => A4 (ix2 (0 : Fin 1) e)) (fun e : Fin 1023 => A5 (ix2 (0 : Fin 1) e))
    (fun e : Fin 1023 => A6 (ix2 (0 : Fin 1) e)) (j 1 : Fin 1023)

theorem encodeArr_apply (A0 : S65536x768.Idx → EReal) (A1 A2 : S1x768.Idx → EReal) (A3 : S768x1023.Idx → EReal)
    (A4 A5 A6 : S1x1023.Idx → EReal) (R : Fin 65536) (d : Fin 1023) :
    encodeArr A0 A1 A2 A3 A4 A5 A6 (ix2 R d)
      = encodeRow n768 n1023 eps (fun k : Fin 768 => A0 (ix2 R k)) (fun k : Fin 768 => A1 (ix2 (0 : Fin 1) k))
          (fun k : Fin 768 => A2 (ix2 (0 : Fin 1) k)) (fun (k : Fin 768) (e : Fin 1023) => A3 (ix2 k e))
          (fun e : Fin 1023 => A4 (ix2 (0 : Fin 1) e)) (fun e : Fin 1023 => A5 (ix2 (0 : Fin 1) e))
          (fun e : Fin 1023 => A6 (ix2 (0 : Fin 1) e)) d := rfl

/-- The encoder of a row depends on its seven operands only through their entries. -/
theorem encodeRow_congr {n p : Nat} (N₁ N₂ ε : EReal) {x x' g₁ g₁' b₁ b₁' : Fin n → EReal} {W W' : Fin n → Fin p → EReal}
    {bl bl' g₂ g₂' b₂ b₂' : Fin p → EReal} (hx : ∀ k, x k = x' k) (hg₁ : ∀ k, g₁ k = g₁' k) (hb₁ : ∀ k, b₁ k = b₁' k)
    (hW : ∀ k e, W k e = W' k e) (hbl : ∀ e, bl e = bl' e) (hg₂ : ∀ e, g₂ e = g₂' e) (hb₂ : ∀ e, b₂ e = b₂' e) (d : Fin p) :
    encodeRow N₁ N₂ ε x g₁ b₁ W bl g₂ b₂ d = encodeRow N₁ N₂ ε x' g₁' b₁' W' bl' g₂' b₂' d := by
  obtain rfl : x = x' := funext hx
  obtain rfl : g₁ = g₁' := funext hg₁
  obtain rfl : b₁ = b₁' := funext hb₁
  obtain rfl : W = W' := funext fun k => funext (hW k)
  obtain rfl : bl = bl' := funext hbl
  obtain rfl : g₂ = g₂' := funext hg₂
  obtain rfl : b₂ = b₂' := funext hb₂
  rfl

/-- ONE GRID POINT, over any seven arrays: the body's result on the windows' blocks at point `t` is block `t` of the
    encoder applied along the rows. -/
theorem point_block (A0 : S65536x768.Idx → EReal) (A1 A2 : S1x768.Idx → EReal) (A3 : S768x1023.Idx → EReal)
    (A4 A5 A6 : S1x1023.Idx → EReal) (t : Fin cfg0.N) (r : Fin 512) (d : Fin 1023) :
    out0_7 (F := Ideal) (((cfg0.win 0).blk t).view.read (Elt Ideal) A0) (((cfg0.win 1).blk t).view.read (Elt Ideal) A1)
        (((cfg0.win 2).blk t).view.read (Elt Ideal) A2) (((cfg0.win 3).blk t).view.read (Elt Ideal) A3)
        (((cfg0.win 4).blk t).view.read (Elt Ideal) A4) (((cfg0.win 5).blk t).view.read (Elt Ideal) A5)
        (((cfg0.win 6).blk t).view.read (Elt Ideal) A6) (ix2 r d)
      = (((cfg0.win 7).blk t).view.read (Elt Ideal) (encodeArr A0 A1 A2 A3 A4 A5 A6) : S512x1023.Idx → EReal) (ix2 r d) := by
  obtain ⟨a0, a1, b0, b1, c0, c1, d0, d1, f0, f1, g0, g1, h0, h1, o0, o1⟩ := index_facts t
  have hN : cfg0.N = 128 := N_0
  have ht : t.val < 128 := lt_of_lt_of_eq t.isLt hN
  have hr : r.val < 512 := r.isLt
  have hR : 512 * t.val + r.val < 65536 := by omega
  refine Eq.trans ?_ (read_out (encodeArr A0 A1 A2 A3 A4 A5 A6) t r d (⟨512 * t.val + r.val, hR⟩ : Fin 65536) o0 o1 rfl).symm
  refine Eq.trans ?_ (encodeArr_apply A0 A1 A2 A3 A4 A5 A6 (⟨512 * t.val + r.val, hR⟩ : Fin 65536) d).symm
  refine (Body.out_apply _ _ _ _ _ _ _ r d).trans ?_
  exact encodeRow_congr n768 n1023 eps
    (fun k => read_rows A0 t r k (⟨512 * t.val + r.val, hR⟩ : Fin 65536) a0 a1 rfl)
    (fun k => read_whole1 A1 t b0 b1 (0 : Fin 1) k) (fun k => read_whole2 A2 t c0 c1 (0 : Fin 1) k)
    (fun k e => read_whole3 A3 t d0 d1 k e) (fun e => read_whole4 A4 t f0 f1 (0 : Fin 1) e)
    (fun e => read_whole5 A5 t g0 g1 (0 : Fin 1) e) (fun e => read_whole6 A6 t h0 h1 (0 : Fin 1) e) d

/-- The output array the run leaves: the encoder applied along the rows of the arrays as the region finds them. -/
def encoded (m : (ℓ : Loc nD τ sig) → Buf (Elt Ideal) ℓ) (c : Dev nD) : S65536x1023.Idx → EReal :=
  encodeArr (V (F := Ideal) m c main_v114) (V (F := Ideal) m c main_v116) (V (F := Ideal) m c main_v117) (V (F := Ideal) m c main_v115)
    (V (F := Ideal) m c main_v118) (V (F := Ideal) m c main_v119) (V (F := Ideal) m c main_v120)

/-- WHAT POINT `t` WRITES BACK is block `t` of `encoded`. -/
theorem flushed_eq (m : (ℓ : Loc nD τ sig) → Buf (Elt Ideal) ℓ) (c : Dev nD) (t : Fin cfg0.N) :
    (dats (F := Ideal) m 0 c).flushed 7 t = ((cfg0.win 7).blk t).view.read (Elt Ideal) (encoded m c) := by
  show (cfg0.win 7).cut (grid0.coords t) ((dats m 0 c).after 7 t) = _
  rw [Gen.after0_7]
  funext y
  obtain ⟨r, d, rfl⟩ : ∃ (r : Fin 512) (d : Fin 1023), y = ix2 r d := ⟨y 0, y 1, eq_ix2 y⟩
  exact point_block (V (F := Ideal) m c main_v114) (V (F := Ideal) m c main_v116) (V (F := Ideal) m c main_v117) (V (F := Ideal) m c main_v115)
    (V (F := Ideal) m c main_v118) (V (F := Ideal) m c main_v119) (V (F := Ideal) m c main_v120) t r d

/-- An index of the output array is in point `t`'s block iff each coordinate is in the block's range on its axis. -/
theorem mem_blk (t : Fin cfg0.N) (i : S65536x1023.Idx) :
    i ∈ ((cfg0.win 7).blk t).view.set ↔ ∀ a : Fin 2, win0_7.index t a * S512x1023.size a ≤ (i a).val ∧ (i a).val < win0_7.index t a * S512x1023.size a + S512x1023.size a := by
  show i ∈ ((View.whole main_v121).slice (win0_7.rect t)).set ↔ _
  rw [View.set_slice_whole, Rect.mem_set_unit]
  exact Iff.rfl

/-- Every index of the output array is in some point's block: row `R` in that of point `R / 512`. -/
theorem cover (i : S65536x1023.Idx) :
    ∃ t : Fin cfg0.N, (cfg0.win 7).flush t = true ∧ i ∈ ((cfg0.win 7).blk t).view.set := by
  have hi0 : (i 0).val < 65536 := (i 0).isLt
  have hi1 : (i 1).val < 1023 := (i 1).isLt
  have hN : cfg0.N = 128 := N_0
  have hq : (i 0).val / 512 < 128 := by omega
  obtain ⟨t, ht⟩ : ∃ t : Fin cfg0.N, t.val = (i 0).val / 512 := ⟨⟨(i 0).val / 512, lt_of_lt_of_eq hq hN.symm⟩, rfl⟩
  obtain ⟨-, -, -, -, -, -, -, -, -, -, -, -, -, -, o0, o1⟩ := index_facts t
  refine ⟨t, flush0_7 t, ?_⟩
  rw [mem_blk]
  intro a
  match a with
  | ⟨0, _⟩ => show win0_7.index t (0 : Fin 2) * 512 ≤ (i 0).val ∧ (i 0).val < win0_7.index t (0 : Fin 2) * 512 + 512; omega
  | ⟨1, _⟩ => show win0_7.index t (1 : Fin 2) * 1023 ≤ (i 1).val ∧ (i 1).val < win0_7.index t (1 : Fin 2) * 1023 + 1023; omega

/-- THE OUTPUT ARRAY after the run is `encoded`. -/
theorem final (m : (ℓ : Loc nD τ sig) → Buf (Elt Ideal) ℓ) (c : Dev nD) :
    (dats (F := Ideal) m 0 c).arrAt 7 cfg0.N = encoded m c :=
  (dats (F := Ideal) m 0 c).arrAt_eq_of_cover 7 (encoded m c) (fun t _ => flushed_eq m c t) cover

/-- The output array after the run, at row `R`, feature `d`, from the arrays as the region finds them. -/
theorem kout_apply (m : (ℓ : Loc nD τ sig) → Buf (Elt Ideal) ℓ) (c : Dev nD) (R : Fin 65536) (d : Fin 1023) :
    ((Gen.dats (F := Ideal) m 0 c).arrAt 7 cfg0.N : S65536x1023.Idx → EReal) (ix2 R d)
      = encodeRow n768 n1023 eps
          (fun k : Fin 768 => (Gen.V (F := Ideal) m c main_v114 : S65536x768.Idx → EReal) (ix2 R k))
          (fun k : Fin 768 => (Gen.V (F := Ideal) m c main_v116 : S1x768.Idx → EReal) (ix2 (0 : Fin 1) k))
          (fun k : Fin 768 => (Gen.V (F := Ideal) m c main_v117 : S1x768.Idx → EReal) (ix2 (0 : Fin 1) k))
          (fun (k : Fin 768) (e : Fin 1023) => (Gen.V (F := Ideal) m c main_v115 : S768x1023.Idx → EReal) (ix2 k e))
          (fun e : Fin 1023 => (Gen.V (F := Ideal) m c main_v118 : S1x1023.Idx → EReal) (ix2 (0 : Fin 1) e))
          (fun e : Fin 1023 => (Gen.V (F := Ideal) m c main_v119 : S1x1023.Idx → EReal) (ix2 (0 : Fin 1) e))
          (fun e : Fin 1023 => (Gen.V (F := Ideal) m c main_v120 : S1x1023.Idx → EReal) (ix2 (0 : Fin 1) e)) d := by
  refine (congrFun (final m c) (ix2 R d)).trans ?_
  exact encodeArr_apply (V (F := Ideal) m c main_v114) (V (F := Ideal) m c main_v116) (V (F := Ideal) m c main_v117) (V (F := Ideal) m c main_v115)
    (V (F := Ideal) m c main_v118) (V (F := Ideal) m c main_v119) (V (F := Ideal) m c main_v120) R d

end Cert.KernelIdeal.Blocks

end
-- ==== Proof.RefEnc.lean ====
/-
  The reference's normalise–map–normalise chain read at an index: at batch `b`, match `q`, feature `d` it is the encoder
  (Proof/RowEncoder.lean `encodeRow`) of the 768 patch entries at `(b, q)`, whatever array of patches it is applied to.
-/
import proofs.«174740_j34617436405934_1_alg».proof.Proof.RefStages
import proofs.«174740_j34617436405934_1_alg».proof.Proof.RowEncoder
import Idealize.ShloMosaic.Lib.ValueIdx
import Idealize.ShloMosaic.Lib.Pipeline.Value
import Idealize.ShloMosaic.PureOps.Ideal.Laws

noncomputable section

namespace Cert.ReferenceIdeal.Enc

open Idealize.ShloMosaic Idealize.ShloMosaic.ValueIdx Cert.ReferenceIdeal Cert.ReferenceIdeal.ReadP Cert.PatchEncoder

section
variable (a0 a1 : (⟨S32x3x256x256, .f32⟩ : BufTy).Contents (Elt Ideal)) (a2 a3 : (⟨S32x2048x2, .f32⟩ : BufTy).Contents (Elt Ideal))
    (a6 : (⟨S32x1024x2, .i32⟩ : BufTy).Contents (Elt Ideal)) (a8 a9 : (⟨S768, .f32⟩ : BufTy).Contents (Elt Ideal))
    (a10 : (⟨S768x1023, .f32⟩ : BufTy).Contents (Elt Ideal)) (a11 a12 a13 : (⟨S1023, .f32⟩ : BufTy).Contents (Elt Ideal))
    (b : Fin 32) (q : Fin 2048)

/-! ### The first normalisation: the 768 patch entries at `(b, q)` -/

/-- The 768 patch entries at batch `b`, match `q`. -/
abbrev patchRow : Fin 768 → EReal := fun k => val_main_v113 (F := Ideal) a0 a1 a2 a3 a6 (ix3 b q k)

/-- The sum of the row's entries (the initial value of the sum is zero). -/
theorem v114_at :
    val_main_v114 (F := Ideal) a0 a1 a2 a3 a6 (ix2 b q) = ∑ k : Fin 768, patchRow a0 a1 a2 a3 a6 b q k := by
  rw [val_main_v114_apply, val_main_cst_27_apply, Ideal.ofBits_def, Ideal.ofBits_zero_f32, zero_add]
  refine Finset.sum_congr rfl fun k _ => ?_
  exact congrArg (val_main_v113 (F := Ideal) a0 a1 a2 a3 a6) (funext fun a => by match a with | ⟨0, _⟩ => rfl | ⟨1, _⟩ => rfl | ⟨2, _⟩ => rfl)

/-- The row's mean, kept as a one-entry last axis. -/
theorem v117_at :
    val_main_v117 (F := Ideal) a0 a1 a2 a3 a6 (ix3 b q (0 : Fin 1)) = rowMean n768 (patchRow a0 a1 a2 a3 a6 b q) := by
  have hi : idx_main_v115 (ix3 b q (0 : Fin 1)) = ix2 b q := funext fun a => by match a with | ⟨0, _⟩ => rfl | ⟨1, _⟩ => rfl
  rw [val_main_v117_apply, val_main_v115_apply, hi, v114_at, val_main_v116_apply, val_main_cst_28_apply]
  rfl

/-- The deviation from the mean (as the variance reads it). -/
theorem v119_at (k : Fin 768) :
    val_main_v119 (F := Ideal) a0 a1 a2 a3 a6 (ix3 b q k) = patchRow a0 a1 a2 a3 a6 b q k - rowMean n768 (patchRow a0 a1 a2 a3 a6 b q) := by
  have hi : idx_main_v118 (ix3 b q k) = ix3 b q (0 : Fin 1) := funext fun a => by match a with | ⟨0, _⟩ => rfl | ⟨1, _⟩ => rfl | ⟨2, _⟩ => rfl
  rw [val_main_v119_apply, val_main_v118_apply, hi, v117_at] <;> rfl

/-- The sum of the squared deviations. -/
theorem v121_at :
    val_main_v121 (F := Ideal) a0 a1 a2 a3 a6 (ix2 b q)
      = ∑ k : Fin 768, (patchRow a0 a1 a2 a3 a6 b q k - rowMean n768 (patchRow a0 a1 a2 a3 a6 b q)) * (patchRow a0 a1 a2 a3 a6 b q k - rowMean n768 (patchRow a0 a1 a2 a3 a6 b q)) := by
  rw [val_main_v121_apply, val_main_cst_29_apply, Ideal.ofBits_def, Ideal.ofBits_zero_f32, zero_add]
  refine Finset.sum_congr rfl fun k _ => ?_
  have hi : idx_main_v121 (ix2 b q) k = ix3 b q k := funext fun a => by match a with | ⟨0, _⟩ => rfl | ⟨1, _⟩ => rfl | ⟨2, _⟩ => rfl
  rw [hi, val_main_v120_apply, v119_at] <;> rfl

/-- The row's variance. -/
theorem v124_at :
    val_main_v124 (F := Ideal) a0 a1 a2 a3 a6 (ix3 b q (0 : Fin 1)) = rowVar n768 (patchRow a0 a1 a2 a3 a6 b q) := by
  have hi : idx_main_v122 (ix3 b q (0 : Fin 1)) = ix2 b q := funext fun a => by match a with | ⟨0, _⟩ => rfl | ⟨1, _⟩ => rfl
  rw [val_main_v124_apply, val_main_v122_apply, hi, v121_at, val_main_v123_apply, val_main_cst_30_apply] <;> rfl

/-- The inverse root of the variance plus `ε`. -/
theorem v129_at :
    val_main_v129 (F := Ideal) a0 a1 a2 a3 a6 (ix3 b q (0 : Fin 1)) = Ideal.rsqrt (rowVar n768 (patchRow a0 a1 a2 a3 a6 b q) + eps) := by
  rw [val_main_v129_apply, val_main_v128_apply, v124_at, val_main_v127_apply, val_main_cst_31_apply] <;> rfl

/-- The deviation from the mean (as the scaling reads it). -/
theorem v126_at (k : Fin 768) :
    val_main_v126 (F := Ideal) a0 a1 a2 a3 a6 (ix3 b q k) = patchRow a0 a1 a2 a3 a6 b q k - rowMean n768 (patchRow a0 a1 a2 a3 a6 b q) := by
  have hi : idx_main_v125 (ix3 b q k) = ix3 b q (0 : Fin 1) := funext fun a => by match a with | ⟨0, _⟩ => rfl | ⟨1, _⟩ => rfl | ⟨2, _⟩ => rfl
  rw [val_main_v126_apply, val_main_v125_apply, hi, v117_at] <;> rfl

/-- The scaled deviation. -/
theorem v131_at (k : Fin 768) :
    val_main_v131 (F := Ideal) a0 a1 a2 a3 a6 (ix3 b q k)
      = (patchRow a0 a1 a2 a3 a6 b q k - rowMean n768 (patchRow a0 a1 a2 a3 a6 b q)) * Ideal.rsqrt (rowVar n768 (patchRow a0 a1 a2 a3 a6 b q) + eps) := by
  have hi : idx_main_v130 (ix3 b q k) = ix3 b q (0 : Fin 1) := funext fun a => by match a with | ⟨0, _⟩ => rfl | ⟨1, _⟩ => rfl | ⟨2, _⟩ => rfl
  rw [val_main_v131_apply, v126_at, val_main_v130_apply, hi, v129_at] <;> rfl

/-- The first gain, broadcast over the rows. -/
theorem v133_at (k : Fin 768) : val_main_v133 (F := Ideal) a8 (ix3 b q k) = a8 (ix1 k) := by
  have hi : idx_main_v132 (idx_main_v133 (ix3 b q k)) = ix1 k := funext fun a => by match a with | ⟨0, _⟩ => rfl
  rw [val_main_v133_apply, val_main_v132_apply, hi]

/-- The first bias, broadcast over the rows. -/
theorem v136_at (k : Fin 768) : val_main_v136 (F := Ideal) a9 (ix3 b q k) = a9 (ix1 k) := by
  have hi : idx_main_v135 (idx_main_v136 (ix3 b q k)) = ix1 k := funext fun a => by match a with | ⟨0, _⟩ => rfl
  rw [val_main_v136_apply, val_main_v135_apply, hi]

/-- The normalised row. -/
theorem v137_at (k : Fin 768) :
    val_main_v137 (F := Ideal) a0 a1 a2 a3 a6 a8 a9 (ix3 b q k) = rowNorm n768 eps (patchRow a0 a1 a2 a3 a6 b q) (fun j : Fin 768 => a8 (ix1 j)) (fun j : Fin 768 => a9 (ix1 j)) k := by
  rw [val_main_v137_apply, val_main_v134_apply, v131_at, v133_at, v136_at] <;> rfl

/-! ### The affine map to 1023 features -/

/-- The contraction with the weight, term by term. -/
theorem v138_at (e : Fin 1023) :
    val_main_v138 (F := Ideal) a0 a1 a2 a3 a6 a8 a9 a10 (ix3 b q e)
      = ∑ k : Fin 768, rowNorm n768 eps (patchRow a0 a1 a2 a3 a6 b q) (fun j : Fin 768 => a8 (ix1 j)) (fun j : Fin 768 => a9 (ix1 j)) k * a10 (ix2 k e) := by
  rw [val_main_v138_apply]
  refine Finset.sum_congr rfl fun k _ => ?_
  have hl : lidx_main_v138 (ix3 b q e) k = ix3 b q k := funext fun a => by match a with | ⟨0, _⟩ => rfl | ⟨1, _⟩ => rfl | ⟨2, _⟩ => rfl
  have hr : ridx_main_v138 (ix3 b q e) k = ix2 k e := funext fun a => by match a with | ⟨0, _⟩ => rfl | ⟨1, _⟩ => rfl
  rw [hl, hr, v137_at]

/-- The bias of the affine map, broadcast over the rows. -/
theorem v140_at (e : Fin 1023) : val_main_v140 (F := Ideal) a11 (ix3 b q e) = a11 (ix1 e) := by
  have hi : idx_main_v139 (idx_main_v140 (ix3 b q e)) = ix1 e := funext fun a => by match a with | ⟨0, _⟩ => rfl
  rw [val_main_v140_apply, val_main_v139_apply, hi]

/-- The 1023 features of the row. -/
theorem v141_at (e : Fin 1023) :
    val_main_v141 (F := Ideal) a0 a1 a2 a3 a6 a8 a9 a10 a11 (ix3 b q e)
      = rowAffine (rowNorm n768 eps (patchRow a0 a1 a2 a3 a6 b q) (fun j : Fin 768 => a8 (ix1 j)) (fun j : Fin 768 => a9 (ix1 j))) (fun (k : Fin 768) (e : Fin 1023) => a10 (ix2 k e)) (fun e : Fin 1023 => a11 (ix1 e)) e := by
  rw [val_main_v141_apply, v138_at, v140_at] <;> rfl

/-! ### The second normalisation: the 1023 features at `(b, q)` -/

/-- The 1023 features at batch `b`, match `q`. -/
abbrev featRow : Fin 1023 → EReal := fun e => val_main_v141 (F := Ideal) a0 a1 a2 a3 a6 a8 a9 a10 a11 (ix3 b q e)

/-- The sum of the features (the initial value of the sum is zero). -/
theorem v142_at :
    val_main_v142 (F := Ideal) a0 a1 a2 a3 a6 a8 a9 a10 a11 (ix2 b q) = ∑ e : Fin 1023, featRow a0 a1 a2 a3 a6 a8 a9 a10 a11 b q e := by
  rw [val_main_v142_apply, val_main_cst_32_apply, Ideal.ofBits_def, Ideal.ofBits_zero_f32, zero_add]
  refine Finset.sum_congr rfl fun e _ => ?_
  exact congrArg (val_main_v141 (F := Ideal) a0 a1 a2 a3 a6 a8 a9 a10 a11) (funext fun a => by match a with | ⟨0, _⟩ => rfl | ⟨1, _⟩ => rfl | ⟨2, _⟩ => rfl)

/-- The features' mean, kept as a one-entry last axis. -/
theorem v145_at :
    val_main_v145 (F := Ideal) a0 a1 a2 a3 a6 a8 a9 a10 a11 (ix3 b q (0 : Fin 1)) = rowMean n1023 (featRow a0 a1 a2 a3 a6 a8 a9 a10 a11 b q) := by
  have hi : idx_main_v143 (ix3 b q (0 : Fin 1)) = ix2 b q := funext fun a => by match a with | ⟨0, _⟩ => rfl | ⟨1, _⟩ => rfl
  rw [val_main_v145_apply, val_main_v143_apply, hi, v142_at, val_main_v144_apply, val_main_cst_33_apply] <;> rfl

/-- The deviation from the mean (as the variance reads it). -/
theorem v147_at (e : Fin 1023) :
    val_main_v147 (F := Ideal) a0 a1 a2 a3 a6 a8 a9 a10 a11 (ix3 b q e) = featRow a0 a1 a2 a3 a6 a8 a9 a10 a11 b q e - rowMean n1023 (featRow a0 a1 a2 a3 a6 a8 a9 a10 a11 b q) := by
  have hi : idx_main_v146 (ix3 b q e) = ix3 b q (0 : Fin 1) := funext fun a => by match a with | ⟨0, _⟩ => rfl | ⟨1, _⟩ => rfl | ⟨2, _⟩ => rfl
  rw [val_main_v147_apply, val_main_v146_apply, hi, v145_at] <;> rfl

/-- The sum of the squared deviations. -/
theorem v149_at :
    val_main_v149 (F := Ideal) a0 a1 a2 a3 a6 a8 a9 a10 a11 (ix2 b q)
      = ∑ e : Fin 1023, (featRow a0 a1 a2 a3 a6 a8 a9 a10 a11 b q e - rowMean n1023 (featRow a0 a1 a2 a3 a6 a8 a9 a10 a11 b q)) * (featRow a0 a1 a2 a3 a6 a8 a9 a10 a11 b q e - rowMean n1023 (featRow a0 a1 a2 a3 a6 a8 a9 a10 a11 b q)) := by
  rw [val_main_v149_apply, val_main_cst_34_apply, Ideal.ofBits_def, Ideal.ofBits_zero_f32, zero_add]
  refine Finset.sum_congr rfl fun e _ => ?_
  have hi : idx_main_v149 (ix2 b q) e = ix3 b q e := funext fun a => by match a with | ⟨0, _⟩ => rfl | ⟨1, _⟩ => rfl | ⟨2, _⟩ => rfl
  rw [hi, val_main_v148_apply, v147_at] <;> rfl

/-- The features' variance. -/
theorem v152_at :
    val_main_v152 (F := Ideal) a0 a1 a2 a3 a6 a8 a9 a10 a11 (ix3 b q (0 : Fin 1)) = rowVar n1023 (featRow a0 a1 a2 a3 a6 a8 a9 a10 a11 b q) := by
  have hi : idx_main_v150 (ix3 b q (0 : Fin 1)) = ix2 b q := funext fun a => by match a with | ⟨0, _⟩ => rfl | ⟨1, _⟩ => rfl
  rw [val_main_v152_apply, val_main_v150_apply, hi, v149_at, val_main_v151_apply, val_main_cst_35_apply] <;> rfl

/-- The inverse root of the variance plus `ε`. -/
theorem v157_at :
    val_main_v157 (F := Ideal) a0 a1 a2 a3 a6 a8 a9 a10 a11 (ix3 b q (0 : Fin 1)) = Ideal.rsqrt (rowVar n1023 (featRow a0 a1 a2 a3 a6 a8 a9 a10 a11 b q) + eps) := by
  rw [val_main_v157_apply, val_main_v156_apply, v152_at, val_main_v155_apply, val_main_cst_36_apply] <;> rfl

/-- The deviation from the mean (as the scaling reads it). -/
theorem v154_at (e : Fin 1023) :
    val_main_v154 (F := Ideal) a0 a1 a2 a3 a6 a8 a9 a10 a11 (ix3 b q e) = featRow a0 a1 a2 a3 a6 a8 a9 a10 a11 b q e - rowMean n1023 (featRow a0 a1 a2 a3 a6 a8 a9 a10 a11 b q) := by
  have hi : idx_main_v153 (ix3 b q e) = ix3 b q (0 : Fin 1) := funext fun a => by match a with | ⟨0, _⟩ => rfl | ⟨1, _⟩ => rfl | ⟨2, _⟩ => rfl
  rw [val_main_v154_apply, val_main_v153_apply, hi, v145_at] <;> rfl

/-- The scaled deviation. -/
theorem v159_at (e : Fin 1023) :
    val_main_v159 (F := Ideal) a0 a1 a2 a3 a6 a8 a9 a10 a11 (ix3 b q e)
      = (featRow a0 a1 a2 a3 a6 a8 a9 a10 a11 b q e - rowMean n1023 (featRow a0 a1 a2 a3 a6 a8 a9 a10 a11 b q)) * Ideal.rsqrt (rowVar n1023 (featRow a0 a1 a2 a3 a6 a8 a9 a10 a11 b q) + eps) := by
  have hi : idx_main_v158 (ix3 b q e) = ix3 b q (0 : Fin 1) := funext fun a => by match a with | ⟨0, _⟩ => rfl | ⟨1, _⟩ => rfl | ⟨2, _⟩ => rfl
  rw [val_main_v159_apply, v154_at, val_main_v158_apply, hi, v157_at] <;> rfl

/-- The second gain, broadcast over the rows. -/
theorem v161_at (e : Fin 1023) : val_main_v161 (F := Ideal) a12 (ix3 b q e) = a12 (ix1 e) := by
  have hi : idx_main_v160 (idx_main_v161 (ix3 b q e)) = ix1 e := funext fun a => by match a with | ⟨0, _⟩ => rfl
  rw [val_main_v161_apply, val_main_v160_apply, hi]

/-- The second bias, broadcast over the rows. -/
theorem v164_at (e : Fin 1023) : val_main_v164 (F := Ideal) a13 (ix3 b q e) = a13 (ix1 e) := by
  have hi : idx_main_v163 (idx_main_v164 (ix3 b q e)) = ix1 e := funext fun a => by match a with | ⟨0, _⟩ => rfl
  rw [val_main_v164_apply, val_main_v163_apply, hi]

/-- The normalised features. -/
theorem v165_at (d : Fin 1023) :
    val_main_v165 (F := Ideal) a0 a1 a2 a3 a6 a8 a9 a10 a11 a12 a13 (ix3 b q d) = rowNorm n1023 eps (featRow a0 a1 a2 a3 a6 a8 a9 a10 a11 b q) (fun e : Fin 1023 => a12 (ix1 e)) (fun e : Fin 1023 => a13 (ix1 e)) d := by
  rw [val_main_v165_apply, val_main_v162_apply, v159_at, v161_at, v164_at] <;> rfl

end

/-- The reference's encoded features at `(b, q, d)`. -/
theorem v165_apply (a0 a1 : (⟨S32x3x256x256, .f32⟩ : BufTy).Contents (Elt Ideal)) (a2 a3 : (⟨S32x2048x2, .f32⟩ : BufTy).Contents (Elt Ideal))
    (a6 : (⟨S32x1024x2, .i32⟩ : BufTy).Contents (Elt Ideal)) (a8 a9 : (⟨S768, .f32⟩ : BufTy).Contents (Elt Ideal))
    (a10 : (⟨S768x1023, .f32⟩ : BufTy).Contents (Elt Ideal)) (a11 a12 a13 : (⟨S1023, .f32⟩ : BufTy).Contents (Elt Ideal))
    (b : Fin 32) (q : Fin 2048) (d : Fin 1023) :
    val_main_v165 (F := Ideal) a0 a1 a2 a3 a6 a8 a9 a10 a11 a12 a13 (ix3 b q d)
      = encodeRow n768 n1023 eps (fun k : Fin 768 => val_main_v113 (F := Ideal) a0 a1 a2 a3 a6 (ix3 b q k))
          (fun k : Fin 768 => a8 (ix1 k)) (fun k : Fin 768 => a9 (ix1 k)) (fun (k : Fin 768) (e : Fin 1023) => a10 (ix2 k e))
          (fun e : Fin 1023 => a11 (ix1 e)) (fun e : Fin 1023 => a12 (ix1 e)) (fun e : Fin 1023 => a13 (ix1 e)) d := by
  have hf : featRow a0 a1 a2 a3 a6 a8 a9 a10 a11 b q = rowAffine (rowNorm n768 eps (patchRow a0 a1 a2 a3 a6 b q) (fun j : Fin 768 => a8 (ix1 j)) (fun j : Fin 768 => a9 (ix1 j))) (fun (k : Fin 768) (e : Fin 1023) => a10 (ix2 k e)) (fun e : Fin 1023 => a11 (ix1 e)) :=
    funext fun e => v141_at a0 a1 a2 a3 a6 a8 a9 a10 a11 b q e
  rw [v165_at, hf]
  rfl

end Cert.ReferenceIdeal.Enc

end
-- ==== Proof.KerHostA.lean ====
/-
  The kernel's row array as the region finds it, read in three steps. After the host operations before the region, run
  from ANY contents `W` of the buffers, the array the first window stages (`main_v114`, 65536 rows of 768) is the row
  view of the patch array, and the patch array is the SAME stage `val_main_v113` the reference computes, of what `W`
  holds at the two images, the two keypoint arrays and the matches: the two programs apply the same operations up to
  there. The operations are taken in three groups of the stretches the launch side cuts them into. Between the first
  and the second only six buffers the row array depends on are live (the clipped row and column offsets of the first
  image's patches `main_v44`, `main_v38`, the validity mask `main_v5`, the second keypoint array `main_v15`, the two
  images); between the second and the third five (the first image's patches `main_v65`, the second image's offsets
  `main_v90`, `main_v84`, the mask, the second image). Each group is read over any contents, what the group before it
  left entering as hypotheses in the reference's stage names, so no term is carried across a group.
-/
import proofs.«174740_j34617436405934_1_alg».proof.Proof.KerHostList
import proofs.«174740_j34617436405934_1_alg».proof.Proof.RefStages
import proofs.«174740_j34617436405934_1_alg».proof.Proof.LibConcatCongr

noncomputable section

namespace Cert.KernelIdeal.Pre

open Cert.KernelIdeal Cert.KernelIdeal.Gen
open Idealize.ShloMosaic Idealize.ShloMosaic.TcCoe Idealize.SL.Sem Idealize.ShloMosaic.StableHlo

variable {F : FTy → Type} [FloatOps F]

attribute [local congr] Idealize.ShloMosaic.concatenate_pair_congr

/-- The three groups of stretches. -/
abbrev groupA : List (HloOp τ sig (Elt F)) := List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27]
abbrev groupB : List (HloOp τ sig (Elt F)) := List.flatten [hostOps0_28, hostOps0_29, hostOps0_30, hostOps0_31, hostOps0_32, hostOps0_33, hostOps0_34, hostOps0_35, hostOps0_36, hostOps0_37, hostOps0_38, hostOps0_39]
abbrev groupC : List (HloOp τ sig (Elt F)) := List.flatten [hostOps0_40, hostOps0_41, hostOps0_42]

theorem hostBefore_eq : (hostBefore : List (HloOp τ sig (Elt F))) = groupA ++ (groupB ++ groupC) := by
  simp only [hostBefore, groupA, groupB, groupC, List.flatten_cons, List.flatten_nil, List.append_nil, List.append_assoc]

/-! ## The first group, from any contents `W` -/

set_option maxRecDepth 65536 in
set_option maxHeartbeats 0 in
theorem first_v44 (W : Valuation τ sig (Elt F)) :
    after groupA W (Proc.devRef .tc main_v44) = Cert.ReferenceIdeal.ReadP.val_main_v44 (F := F) (W (Proc.devRef .tc main_arg2)) (W (Proc.devRef .tc main_arg6)) := by
  simp only [groupA, List.flatten_cons, List.flatten_nil, List.append_nil, StableHlo.after_append]
  after_results_simp
  rfl

set_option maxRecDepth 65536 in
set_option maxHeartbeats 0 in
theorem first_v38 (W : Valuation τ sig (Elt F)) :
    after groupA W (Proc.devRef .tc main_v38) = Cert.ReferenceIdeal.ReadP.val_main_v38 (F := F) (W (Proc.devRef .tc main_arg2)) (W (Proc.devRef .tc main_arg6)) := by
  simp only [groupA, List.flatten_cons, List.flatten_nil, List.append_nil, StableHlo.after_append]
  after_results_simp
  rfl

set_option maxRecDepth 65536 in
set_option maxHeartbeats 0 in
theorem first_v5 (W : Valuation τ sig (Elt F)) :
    after groupA W (Proc.devRef .tc main_v5) = Cert.ReferenceIdeal.ReadP.val_main_v5 (F := F) (W (Proc.devRef .tc main_arg6)) := by
  simp only [groupA, List.flatten_cons, List.flatten_nil, List.append_nil, StableHlo.after_append]
  after_results_simp
  rfl

set_option maxRecDepth 65536 in
set_option maxHeartbeats 0 in
theorem first_v15 (W : Valuation τ sig (Elt F)) :
    after groupA W (Proc.devRef .tc main_v15) = Cert.ReferenceIdeal.ReadP.val_main_v15 (F := F) (W (Proc.devRef .tc main_arg3)) (W (Proc.devRef .tc main_arg6)) := by
  simp only [groupA, List.flatten_cons, List.flatten_nil, List.append_nil, StableHlo.after_append]
  after_results_simp
  rfl

set_option maxRecDepth 65536 in
set_option maxHeartbeats 0 in
theorem first_arg0 (W : Valuation τ sig (Elt F)) : after groupA W (Proc.devRef .tc main_arg0) = W (Proc.devRef .tc main_arg0) := by
  simp only [groupA, List.flatten_cons, List.flatten_nil, List.append_nil, StableHlo.after_append]
  after_results_simp

set_option maxRecDepth 65536 in
set_option maxHeartbeats 0 in
theorem first_arg1 (W : Valuation τ sig (Elt F)) : after groupA W (Proc.devRef .tc main_arg1) = W (Proc.devRef .tc main_arg1) := by
  simp only [groupA, List.flatten_cons, List.flatten_nil, List.append_nil, StableHlo.after_append]
  after_results_simp

/-! ## The second group, from contents `W` that hold the first group's results -/

set_option maxRecDepth 65536 in
set_option maxHeartbeats 0 in
theorem second_v65 (W : Valuation τ sig (Elt F)) (a0 : (⟨Cert.ReferenceIdeal.S32x3x256x256, .f32⟩ : BufTy).Contents (Elt F)) (a2 : (⟨Cert.ReferenceIdeal.S32x2048x2, .f32⟩ : BufTy).Contents (Elt F)) (a6 : (⟨Cert.ReferenceIdeal.S32x1024x2, .i32⟩ : BufTy).Contents (Elt F))
    (h44 : W (Proc.devRef .tc main_v44) = Cert.ReferenceIdeal.ReadP.val_main_v44 (F := F) a2 a6) (h38 : W (Proc.devRef .tc main_v38) = Cert.ReferenceIdeal.ReadP.val_main_v38 (F := F) a2 a6)
    (h5 : W (Proc.devRef .tc main_v5) = Cert.ReferenceIdeal.ReadP.val_main_v5 (F := F) a6) (h0 : W (Proc.devRef .tc main_arg0) = a0) :
    after groupB W (Proc.devRef .tc main_v65) = Cert.ReferenceIdeal.ReadP.val_main_v65 (F := F) a0 a2 a6 := by
  simp only [groupB, List.flatten_cons, List.flatten_nil, List.append_nil, StableHlo.after_append]
  after_results_simp
  rw [h44, h38, h5, h0]
  rfl

set_option maxRecDepth 65536 in
set_option maxHeartbeats 0 in
theorem second_v90 (W : Valuation τ sig (Elt F)) (a3 : (⟨Cert.ReferenceIdeal.S32x2048x2, .f32⟩ : BufTy).Contents (Elt F)) (a6 : (⟨Cert.ReferenceIdeal.S32x1024x2, .i32⟩ : BufTy).Contents (Elt F))
    (h5 : W (Proc.devRef .tc main_v5) = Cert.ReferenceIdeal.ReadP.val_main_v5 (F := F) a6) (h15 : W (Proc.devRef .tc main_v15) = Cert.ReferenceIdeal.ReadP.val_main_v15 (F := F) a3 a6) :
    after groupB W (Proc.devRef .tc main_v90) = Cert.ReferenceIdeal.ReadP.val_main_v90 (F := F) a3 a6 := by
  simp only [groupB, List.flatten_cons, List.flatten_nil, List.append_nil, StableHlo.after_append]
  after_results_simp
  rw [h5, h15]
  rfl

set_option maxRecDepth 65536 in
set_option maxHeartbeats 0 in
theorem second_v84 (W : Valuation τ sig (Elt F)) (a3 : (⟨Cert.ReferenceIdeal.S32x2048x2, .f32⟩ : BufTy).Contents (Elt F)) (a6 : (⟨Cert.ReferenceIdeal.S32x1024x2, .i32⟩ : BufTy).Contents (Elt F))
    (h5 : W (Proc.devRef .tc main_v5) = Cert.ReferenceIdeal.ReadP.val_main_v5 (F := F) a6) (h15 : W (Proc.devRef .tc main_v15) = Cert.ReferenceIdeal.ReadP.val_main_v15 (F := F) a3 a6) :
    after groupB W (Proc.devRef .tc main_v84) = Cert.ReferenceIdeal.ReadP.val_main_v84 (F := F) a3 a6 := by
  simp only [groupB, List.flatten_cons, List.flatten_nil, List.append_nil, StableHlo.after_append]
  after_results_simp
  rw [h5, h15]
  rfl

set_option maxRecDepth 65536 in
set_option maxHeartbeats 0 in
theorem second_v5 (W : Valuation τ sig (Elt F)) : after groupB W (Proc.devRef .tc main_v5) = W (Proc.devRef .tc main_v5) := by
  simp only [groupB, List.flatten_cons, List.flatten_nil, List.append_nil, StableHlo.after_append]
  after_results_simp

set_option maxRecDepth 65536 in
set_option maxHeartbeats 0 in
theorem second_arg1 (W : Valuation τ sig (Elt F)) : after groupB W (Proc.devRef .tc main_arg1) = W (Proc.devRef .tc main_arg1) := by
  simp only [groupB, List.flatten_cons, List.flatten_nil, List.append_nil, StableHlo.after_append]
  after_results_simp

/-! ## The third group, from contents `W` that hold the second group's results -/

set_option maxRecDepth 65536 in
set_option maxHeartbeats 0 in
theorem third_v114 (W : Valuation τ sig (Elt F)) (a0 : (⟨Cert.ReferenceIdeal.S32x3x256x256, .f32⟩ : BufTy).Contents (Elt F)) (a1 : (⟨Cert.ReferenceIdeal.S32x3x256x256, .f32⟩ : BufTy).Contents (Elt F)) (a2 : (⟨Cert.ReferenceIdeal.S32x2048x2, .f32⟩ : BufTy).Contents (Elt F)) (a3 : (⟨Cert.ReferenceIdeal.S32x2048x2, .f32⟩ : BufTy).Contents (Elt F)) (a6 : (⟨Cert.ReferenceIdeal.S32x1024x2, .i32⟩ : BufTy).Contents (Elt F))
    (h65 : W (Proc.devRef .tc main_v65) = Cert.ReferenceIdeal.ReadP.val_main_v65 (F := F) a0 a2 a6) (h90 : W (Proc.devRef .tc main_v90) = Cert.ReferenceIdeal.ReadP.val_main_v90 (F := F) a3 a6)
    (h84 : W (Proc.devRef .tc main_v84) = Cert.ReferenceIdeal.ReadP.val_main_v84 (F := F) a3 a6) (h5 : W (Proc.devRef .tc main_v5) = Cert.ReferenceIdeal.ReadP.val_main_v5 (F := F) a6)
    (h1 : W (Proc.devRef .tc main_arg1) = a1) :
    after groupC W (Proc.devRef .tc main_v114)
      = shapeCast S65536x768 (Cert.ReferenceIdeal.ReadP.val_main_v113 (F := F) a0 a1 a2 a3 a6) shapeCasts_S32x2048x768_S65536x768 := by
  simp only [groupC, List.flatten_cons, List.flatten_nil, List.append_nil, StableHlo.after_append]
  after_results_simp
  rw [h65, h90, h84, h5, h1]
  rfl

/-! ## The three joined -/

theorem before_v114 (W : Valuation τ sig (Elt F)) :
    after hostBefore W (Proc.devRef .tc main_v114)
      = shapeCast S65536x768 (Cert.ReferenceIdeal.ReadP.val_main_v113 (F := F) (W (Proc.devRef .tc main_arg0)) (W (Proc.devRef .tc main_arg1))
          (W (Proc.devRef .tc main_arg2)) (W (Proc.devRef .tc main_arg3)) (W (Proc.devRef .tc main_arg6))) shapeCasts_S32x2048x768_S65536x768 := by
  rw [hostBefore_eq, StableHlo.after_append, StableHlo.after_append]
  have h5 := first_v5 W
  have h15 := first_v15 W
  exact third_v114 _ _ _ _ _ _
    (second_v65 _ _ _ _ (first_v44 W) (first_v38 W) h5 (first_arg0 W))
    (second_v90 _ _ _ h5 h15) (second_v84 _ _ _ h5 h15)
    ((second_v5 _).trans h5) ((second_arg1 _).trans (first_arg1 W))

end Cert.KernelIdeal.Pre

end
-- ==== Proof.LibFlattenRows.lean ====
/-
  The two leading axes of an array flattened into rows, read at an index: the [R, C] view of an [A, B, C] array has, at
  row `a·B + b`, the entries of the array at `(a, b)`; and the [A, B, C] view of an [R, C] array has, at `(a, b)`, the
  entries of row `a·B + b`. Both are the row-major order of the two shapes read off: `(a·B + b)·C + c` on either side.
-/
import Idealize.ShloMosaic.Lib.Pipeline.Value
import Idealize.ShloMosaic.Lib.ValueIdx

noncomputable section

namespace Cert.Layout

open Idealize.ShloMosaic Idealize.ShloMosaic.ValueIdx

variable {α : Type} {A B C R : Nat}

/-- Flattening the two leading axes: the row view at row `r = a·B + b`, column `c`, is the array at `(a, b, c)`. -/
theorem flattenRows_apply (x : (⟨3, ![A, B, C]⟩ : Shape).Idx → α) (h : (⟨3, ![A, B, C]⟩ : Shape).ShapeCasts ⟨2, ![R, C]⟩)
    (a : Fin A) (b : Fin B) (c : Fin C) (r : Fin R) (hr : r.val = a.val * B + b.val) :
    shapeCast ⟨2, ![R, C]⟩ x h (ix2 r c) = x (ix3 a b c) := by
  refine shapeCast_apply x h _ _ ?_
  rewrite [Shape.rowMajor_val_two, Shape.rowMajor_val_three]
  show (a.val * B + b.val) * C + c.val = r.val * C + c.val
  rw [hr]

/-- Splitting the rows back into two axes: the view at `(a, b, c)` is the row array at row `r = a·B + b`, column `c`. -/
theorem splitRows_apply (x : (⟨2, ![R, C]⟩ : Shape).Idx → α) (h : (⟨2, ![R, C]⟩ : Shape).ShapeCasts ⟨3, ![A, B, C]⟩)
    (a : Fin A) (b : Fin B) (c : Fin C) (r : Fin R) (hr : r.val = a.val * B + b.val) :
    shapeCast ⟨3, ![A, B, C]⟩ x h (ix3 a b c) = x (ix2 r c) := by
  refine shapeCast_apply x h _ _ ?_
  rewrite [Shape.rowMajor_val_two, Shape.rowMajor_val_three]
  show r.val * C + c.val = (a.val * B + b.val) * C + c.val
  rw [hr]

end Cert.Layout

end
-- ==== Proof.LibRowVector.lean ====
/-
  A vector viewed as a one-row matrix, read at an index: entry (0, q) of the row is entry q of the vector — for the
  reshape [N] → [1, N] and for the broadcast of [N] along the second axis of [1, N].
-/
import Idealize.ShloMosaic.Lib.Pipeline.Value
import Idealize.ShloMosaic.Lib.ValueIdx

noncomputable section

namespace Cert.Layout

open Idealize.ShloMosaic Idealize.ShloMosaic.ValueIdx

variable {α : Type} {N : Nat}

/-- The reshape of a vector to one row, at (0, q), is the vector at q. -/
theorem rowCast_apply (b : (⟨1, ![N]⟩ : Shape).Idx → α) (h : (⟨1, ![N]⟩ : Shape).ShapeCasts ⟨2, ![1, N]⟩) (q : Fin N) :
    shapeCast ⟨2, ![1, N]⟩ b h (ix2 (0 : Fin 1) q) = b (ix1 q) := by
  refine shapeCast_apply b h _ _ ?_
  rewrite [Shape.rowMajor_val_two, Shape.rowMajor_val_one]
  show q.val = 0 * N + q.val
  omega

/-- The broadcast of a vector along the second axis of one row, at (0, q), is the vector at q. -/
theorem rowBcast_apply (b : (⟨1, ![N]⟩ : Shape).Idx → α) (h : (⟨1, ![N]⟩ : Shape).BroadcastsInDim ⟨2, ![1, N]⟩ ![1]) (q : Fin N) :
    broadcastInDim ⟨2, ![1, N]⟩ ![1] h b (ix2 (0 : Fin 1) q) = b (ix1 q) :=
  broadcastInDim_apply _ h b _ _ fun a => by
    match a with
    | ⟨0, _⟩ =>
      show q.val = if N = 1 then 0 else q.val
      split
      · have := q.isLt; omega
      · rfl

end Cert.Layout

end
-- ==== Proof.Bridge.lean ====
/-
  The kernel's output array IS the reference's encoded features. Row `R = b·2048 + q` of the kernel's 65536-row input
  array is the 768 patch entries at batch `b`, match `q` (the array is the row view of the patch array both programs
  compute); the kernel's output at row `R` is the encoder of that row (Proof/KerArray.lean), with the gains, biases and
  weights the arguments themselves viewed as one row or converted in format; the reference's features at `(b, q)` are the
  encoder of the same 768 entries (Proof/RefEnc.lean). So the output array viewed as [32, 2048, 1023] equals the reference's
  features entry by entry.
-/
import proofs.«174740_j34617436405934_1_alg».proof.Proof.KerArray
import proofs.«174740_j34617436405934_1_alg».proof.Proof.RefEnc
import proofs.«174740_j34617436405934_1_alg».proof.Proof.KerHostList
import proofs.«174740_j34617436405934_1_alg».proof.Proof.KerHostA
import proofs.«174740_j34617436405934_1_alg».proof.Proof.KerHostC
import proofs.«174740_j34617436405934_1_alg».proof.Proof.LibFlattenRows
import proofs.«174740_j34617436405934_1_alg».proof.Proof.LibRowVector

noncomputable section

namespace Cert.Bridge

open Cert.KernelIdeal Cert.KernelIdeal.Gen Cert.KernelIdeal.Pre Cert.PatchEncoder Cert.Layout
open Idealize.ShloMosaic Idealize.ShloMosaic.ValueIdx Idealize.ShloMosaic.TcCoe Idealize.SL.Sem Idealize.ShloMosaic.StableHlo

variable (m : (ℓ : Loc nD τ sig) → Buf (Elt Ideal) ℓ) (c : Dev nD)

/-- The row array the first window stages is the row view of the patch array. -/
theorem rows_eq : (Gen.V (F := Ideal) m c main_v114 : S65536x768.Idx → EReal)
    = shapeCast S65536x768 (Cert.ReferenceIdeal.ReadP.val_main_v113 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6))) shapeCasts_S32x2048x768_S65536x768 :=
  before_v114 (F := Ideal) (fun b => m (c, b))

/-- The weight array the fourth window stages is the weight argument: at the ideal values the change of float format
    is the identity. -/
theorem weights_at (i : S768x1023.Idx) :
    (Gen.V (F := Ideal) m c main_v115 : S768x1023.Idx → EReal) i = ((m ((c.tc : Thread nD τ).loc main_arg10)) : S768x1023.Idx → EReal) i :=
  congrFun (before_v115 (F := Ideal) (fun b => m (c, b))) i
theorem gain1_eq : (Gen.V (F := Ideal) m c main_v116 : S1x768.Idx → EReal) = shapeCast S1x768 (m ((c.tc : Thread nD τ).loc main_arg8)) shapeCasts_S768_S1x768 :=
  before_v116 (F := Ideal) (fun b => m (c, b))
theorem bias1_eq : (Gen.V (F := Ideal) m c main_v117 : S1x768.Idx → EReal) = shapeCast S1x768 (m ((c.tc : Thread nD τ).loc main_arg9)) shapeCasts_S768_S1x768 :=
  before_v117 (F := Ideal) (fun b => m (c, b))
theorem biasL_eq : (Gen.V (F := Ideal) m c main_v118 : S1x1023.Idx → EReal) = shapeCast S1x1023 (m ((c.tc : Thread nD τ).loc main_arg11)) shapeCasts_S1023_S1x1023 :=
  before_v118 (F := Ideal) (fun b => m (c, b))
theorem gain2_eq : (Gen.V (F := Ideal) m c main_v119 : S1x1023.Idx → EReal) = shapeCast S1x1023 (m ((c.tc : Thread nD τ).loc main_arg12)) shapeCasts_S1023_S1x1023 :=
  before_v119 (F := Ideal) (fun b => m (c, b))
theorem bias2_eq : (Gen.V (F := Ideal) m c main_v120 : S1x1023.Idx → EReal) = shapeCast S1x1023 (m ((c.tc : Thread nD τ).loc main_arg13)) shapeCasts_S1023_S1x1023 :=
  before_v120 (F := Ideal) (fun b => m (c, b))

/-- The output array, viewed as [32, 2048, 1023], at batch `b`, match `q`, feature `d`. -/
theorem out_rows (b : Fin 32) (q : Fin 2048) (d : Fin 1023) :
    shapeCast S32x2048x1023 ((Gen.dats (F := Ideal) m 0 c).arrAt 7 cfg0.N : S65536x1023.Idx → EReal)
        shapeCasts_S65536x1023_S32x2048x1023 (ix3 b q d)
      = Cert.ReferenceIdeal.ReadP.val_main_v165 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (ix3 b q d) := by
  have hR : b.val * 2048 + q.val < 65536 := by have := b.isLt; have := q.isLt; omega
  have e0 : (fun k : Fin 768 => (Gen.V (F := Ideal) m c main_v114 : S65536x768.Idx → EReal) (ix2 (⟨b.val * 2048 + q.val, hR⟩ : Fin 65536) k))
      = fun k : Fin 768 => Cert.ReferenceIdeal.ReadP.val_main_v113 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (ix3 b q k) :=
    funext fun k => (congrFun (rows_eq m c) _).trans (flattenRows_apply _ _ b q k ⟨b.val * 2048 + q.val, hR⟩ rfl)
  have e1 : (fun k : Fin 768 => (Gen.V (F := Ideal) m c main_v116 : S1x768.Idx → EReal) (ix2 (0 : Fin 1) k)) = fun k : Fin 768 => (m ((c.tc : Thread nD τ).loc main_arg8)) (ix1 k) :=
    funext fun k => (congrFun (gain1_eq m c) _).trans (rowCast_apply _ _ k)
  have e2 : (fun k : Fin 768 => (Gen.V (F := Ideal) m c main_v117 : S1x768.Idx → EReal) (ix2 (0 : Fin 1) k)) = fun k : Fin 768 => (m ((c.tc : Thread nD τ).loc main_arg9)) (ix1 k) :=
    funext fun k => (congrFun (bias1_eq m c) _).trans (rowCast_apply _ _ k)
  have e3 : (fun (k : Fin 768) (e : Fin 1023) => (Gen.V (F := Ideal) m c main_v115 : S768x1023.Idx → EReal) (ix2 k e))
      = fun (k : Fin 768) (e : Fin 1023) => (m ((c.tc : Thread nD τ).loc main_arg10)) (ix2 k e) :=
    funext fun k => funext fun e => weights_at m c (ix2 k e)
  have e4 : (fun e : Fin 1023 => (Gen.V (F := Ideal) m c main_v118 : S1x1023.Idx → EReal) (ix2 (0 : Fin 1) e)) = fun e : Fin 1023 => (m ((c.tc : Thread nD τ).loc main_arg11)) (ix1 e) :=
    funext fun e => (congrFun (biasL_eq m c) _).trans (rowCast_apply _ _ e)
  have e5 : (fun e : Fin 1023 => (Gen.V (F := Ideal) m c main_v119 : S1x1023.Idx → EReal) (ix2 (0 : Fin 1) e)) = fun e : Fin 1023 => (m ((c.tc : Thread nD τ).loc main_arg12)) (ix1 e) :=
    funext fun e => (congrFun (gain2_eq m c) _).trans (rowCast_apply _ _ e)
  have e6 : (fun e : Fin 1023 => (Gen.V (F := Ideal) m c main_v120 : S1x1023.Idx → EReal) (ix2 (0 : Fin 1) e)) = fun e : Fin 1023 => (m ((c.tc : Thread nD τ).loc main_arg13)) (ix1 e) :=
    funext fun e => (congrFun (bias2_eq m c) _).trans (rowCast_apply _ _ e)
  refine (splitRows_apply _ _ b q d ⟨b.val * 2048 + q.val, hR⟩ rfl).trans ?_
  rw [Cert.KernelIdeal.Blocks.kout_apply m c ⟨b.val * 2048 + q.val, hR⟩ d, e0, e1, e2, e3, e4, e5, e6,
    Cert.ReferenceIdeal.Enc.v165_apply]

/-- The output array viewed as [32, 2048, 1023] is the reference's encoded features. -/
theorem out_eq :
    shapeCast S32x2048x1023 ((Gen.dats (F := Ideal) m 0 c).arrAt 7 cfg0.N : S65536x1023.Idx → EReal)
        shapeCasts_S65536x1023_S32x2048x1023
      = Cert.ReferenceIdeal.ReadP.val_main_v165 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) :=
  funext fun i => by
    rw [eq_ix3 i]
    exact out_rows m c (i 0) (i 1) (i 2)

end Cert.Bridge

end
-- ==== Proof.KerRun.lean ====
/-
  The kernel program's run with its four results named: every weakly fair execution terminates with the pooled
  prediction, the encoded features joined with the scores, and the two keypoint arrays at the SAME stages' terms of the
  launch contents of the arguments as the reference's run (Proof/RefRun.lean), and with the arguments unchanged. The
  frame run leaves the output array at what the blocks wrote and every other buffer as the lines after the region leave
  it; those lines are read over the contents the region leaves (Proof/KerTail.lean), the output array is the reference's
  features (Proof/Bridge.lean), and the buffers the host operations before the region wrote are the reference's stages
  (Proof/KerHostB.lean, Proof/KerHostC.lean).
-/
import proofs.«174740_j34617436405934_1_alg».proof.Proof.Gen.KernelIdeal.Frame
import proofs.«174740_j34617436405934_1_alg».proof.Proof.KerHostList
import proofs.«174740_j34617436405934_1_alg».proof.Proof.KerHostB
import proofs.«174740_j34617436405934_1_alg».proof.Proof.KerHostC
import proofs.«174740_j34617436405934_1_alg».proof.Proof.KerTail
import proofs.«174740_j34617436405934_1_alg».proof.Proof.Bridge

noncomputable section

namespace Cert.KernelIdeal.Named

open Cert.KernelIdeal Cert.KernelIdeal.Gen Cert.KernelIdeal.Pre Cert.KernelIdeal.After
open Idealize.ShloMosaic Idealize.ShloMosaic.TcCoe Idealize.SL.Sem Idealize.ShloMosaic.StableHlo

variable (m : (ℓ : Loc nD τ sig) → Buf (Elt Ideal) ℓ)

/-- The contents the lines after the region start from: the region's arrays at what the blocks wrote, every other
    buffer as the region found it. -/
abbrev left (c : Dev nD) : Valuation τ sig (Elt Ideal) :=
  Pipeline.withArrays spec0 c (Gen.V0 (F := Ideal) m c) fun w => (Gen.dats (F := Ideal) m 0 c).arrAt w cfg0.N

/-- What the lines after the region leave at a buffer is their fold over those contents. -/
theorem afterTail_eq (c : Dev nD) (b : Ref sig .tc) :
    Pipeline.afterTail₀ cfgs (Gen.dats (F := Ideal) m) 0 (Gen.V0 (F := Ideal) m) [hostOps1] c b
      = after hostOps1 (left m c) (Proc.devRef .tc b) := by
  unfold Pipeline.afterTail₀
  rfl

/-- A buffer that is no window's array is left as the region found it. -/
theorem left_of_ne (c : Dev nD) (b : Ref sig .tc) (hb : ∀ w, Pipeline.arrRef spec0 w ≠ b) :
    left m c (Proc.devRef .tc b) = after hostBefore (fun b => m (c, b)) (Proc.devRef .tc b) :=
  Pipeline.withArrays_of_ne _ c (Gen.V0 (F := Ideal) m c) _ b hb

/-- The output window's array is left at what the blocks wrote. -/
theorem left_out (c : Dev nD) :
    left m c (Proc.devRef .tc main_v121) = (Gen.dats (F := Ideal) m 0 c).arrAt 7 cfg0.N :=
  Pipeline.withArrays_arr spec0 launch0.win.arr_inj c _ _ 7

theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v132) = Cert.ReferenceIdeal.ReadP.val_main_v175 (F := Ideal) (m ((c.tc : Thread nD τ).loc main_arg7)) (m ((c.tc : Thread nD τ).loc main_arg14)) (m ((c.tc : Thread nD τ).loc main_arg15))
      ∧ r.2.mem ((c.tc : Thread nD τ).loc main_v125) = Cert.ReferenceIdeal.ReadP.val_main_v168 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_v13) = Cert.ReferenceIdeal.ReadP.val_main_v13 (F := Ideal) (m ((c.tc : Thread nD τ).loc main_arg2)) (m ((c.tc : Thread nD τ).loc main_arg6))
      ∧ r.2.mem ((c.tc : Thread nD τ).loc main_v15) = Cert.ReferenceIdeal.ReadP.val_main_v15 (F := Ideal) (m ((c.tc : Thread nD τ).loc main_arg3)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) := by
  refine (θ_run (defs (F := Ideal)) _ _).mono (fun r h c => ?_) (Gen.run_main (F := Ideal) m ρ)
  have hrest : ∀ b : Ref sig .tc, b ∈ Pipeline.restRefs sig (cfgs 0).spec →
      r.2.mem ((c.tc : Thread nD τ).loc b) = after hostOps1 (left m c) (Proc.devRef .tc b) :=
    fun b hb => ((h c).2 b hb).trans (afterTail_eq m c b)
  have harg : ∀ k : Ref sig .tc, (∀ w, Pipeline.arrRef spec0 w ≠ k) →
      Gen.V (F := Ideal) m c k = m ((c.tc : Thread nD τ).loc k) → left m c (Proc.devRef .tc k) = m ((c.tc : Thread nD τ).loc k) :=
    fun k hk hV => (Pipeline.withArrays_of_ne _ c (Gen.V0 (F := Ideal) m c) _ k hk).trans hV
  refine ⟨(hrest main_v132 (Pipeline.mem_restRefs_of main_v132 (by decide) (by decide))).trans ?_,
    (hrest main_v125 (Pipeline.mem_restRefs_of main_v125 (by decide) (by decide))).trans ?_,
    (hrest main_v13 (Pipeline.mem_restRefs_of main_v13 (by decide) (by decide))).trans ?_,
    (hrest main_v15 (Pipeline.mem_restRefs_of main_v15 (by decide) (by decide))).trans ?_,
    ((h c).2 main_arg0 (Pipeline.mem_restRefs_of main_arg0 (by decide) (by decide))).trans (Gen.W_main_arg0 m (Gen.dats m) c),
    ((h c).2 main_arg1 (Pipeline.mem_restRefs_of main_arg1 (by decide) (by decide))).trans (Gen.W_main_arg1 m (Gen.dats m) c),
    ((h c).2 main_arg2 (Pipeline.mem_restRefs_of main_arg2 (by decide) (by decide))).trans (Gen.W_main_arg2 m (Gen.dats m) c),
    ((h c).2 main_arg3 (Pipeline.mem_restRefs_of main_arg3 (by decide) (by decide))).trans (Gen.W_main_arg3 m (Gen.dats m) c),
    ((h c).2 main_arg4 (Pipeline.mem_restRefs_of main_arg4 (by decide) (by decide))).trans (Gen.W_main_arg4 m (Gen.dats m) c),
    ((h c).2 main_arg5 (Pipeline.mem_restRefs_of main_arg5 (by decide) (by decide))).trans (Gen.W_main_arg5 m (Gen.dats m) c),
    ((h c).2 main_arg6 (Pipeline.mem_restRefs_of main_arg6 (by decide) (by decide))).trans (Gen.W_main_arg6 m (Gen.dats m) c),
    ((h c).2 main_arg7 (Pipeline.mem_restRefs_of main_arg7 (by decide) (by decide))).trans (Gen.W_main_arg7 m (Gen.dats m) c),
    ((h c).2 main_arg8 (Pipeline.mem_restRefs_of main_arg8 (by decide) (by decide))).trans (Gen.W_main_arg8 m (Gen.dats m) c),
    ((h c).2 main_arg9 (Pipeline.mem_restRefs_of main_arg9 (by decide) (by decide))).trans (Gen.W_main_arg9 m (Gen.dats m) c),
    ((h c).2 main_arg10 (Pipeline.mem_restRefs_of main_arg10 (by decide) (by decide))).trans (Gen.W_main_arg10 m (Gen.dats m) c),
    ((h c).2 main_arg11 (Pipeline.mem_restRefs_of main_arg11 (by decide) (by decide))).trans (Gen.W_main_arg11 m (Gen.dats m) c),
    ((h c).2 main_arg12 (Pipeline.mem_restRefs_of main_arg12 (by decide) (by decide))).trans (Gen.W_main_arg12 m (Gen.dats m) c),
    ((h c).2 main_arg13 (Pipeline.mem_restRefs_of main_arg13 (by decide) (by decide))).trans (Gen.W_main_arg13 m (Gen.dats m) c),
    ((h c).2 main_arg14 (Pipeline.mem_restRefs_of main_arg14 (by decide) (by decide))).trans (Gen.W_main_arg14 m (Gen.dats m) c),
    ((h c).2 main_arg15 (Pipeline.mem_restRefs_of main_arg15 (by decide) (by decide))).trans (Gen.W_main_arg15 m (Gen.dats m) c)⟩
  · refine (after_v132 (F := Ideal) (left m c)).trans ?_
    rw [harg main_arg7 (by decide) (Gen.V_main_arg7 m c), harg main_arg14 (by decide) (Gen.V_main_arg14 m c),
      harg main_arg15 (by decide) (Gen.V_main_arg15 m c)]
  · exact after_v125 (F := Ideal) (left m c) _ _ _ _ _ _ _ _ _ _ _ _ _
      ((congrArg (fun x : S65536x1023.Idx → EReal => shapeCast S32x2048x1023 x shapeCasts_S65536x1023_S32x2048x1023) (left_out m c)).trans (Cert.Bridge.out_eq m c))
      ((left_of_ne m c main_v17 (by decide)).trans (before_v17 (F := Ideal) (fun b => m (c, b))))
      ((left_of_ne m c main_v19 (by decide)).trans (before_v19 (F := Ideal) (fun b => m (c, b))))
  · exact (after_keep (F := Ideal) (left m c) main_v13 (by decide)).trans
      ((left_of_ne m c main_v13 (by decide)).trans (before_v13 (F := Ideal) (fun b => m (c, b))))
  · exact (after_keep (F := Ideal) (left m c) main_v15 (by decide)).trans
      ((left_of_ne m c main_v15 (by decide)).trans (before_v15 (F := Ideal) (fun b => m (c, b))))

end Cert.KernelIdeal.Named

end
-- ==== Proof.RefPreA.lean ====
/-
  The reference's patch array, read in three steps. The operations up to the one that writes `main_v113` fall into the
  three lists `ops_p0`, `ops_p1`, `ops_p2a`. Between the first and the second only six buffers that the patch array
  depends on are live (the wrapped row and column offsets of the first image's patches `main_v45`, `main_v46`, the
  validity mask `main_v5`, the second keypoint array `main_v15`, and the two images); between the second and the third
  again six (the first image's patches `main_v65`, the second image's offsets `main_v91`, `main_v92` and their sign test
  `main_v94`, the mask and the second image). Each list is read over ANY contents of the buffers, with what the list
  before it left entering as hypotheses in the stages' names, so no term is ever carried across a list.
-/
import proofs.«174740_j34617436405934_1_alg».proof.Proof.RefOps
import proofs.«174740_j34617436405934_1_alg».proof.Proof.RefStages
import proofs.«174740_j34617436405934_1_alg».proof.Proof.LibConcatCongr

noncomputable section

namespace Cert.ReferenceIdeal.Pre

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

attribute [local congr] Idealize.ShloMosaic.concatenate_pair_congr

/-! ## The first list, from any contents `V` -/

set_option maxRecDepth 65536 in
set_option maxHeartbeats 0 in
theorem first_v45 (V : Valuation τ sig (Elt F)) :
    after ops_p0 V (Proc.devRef .tc main_v45) = val_main_v45 (F := F) (V (Proc.devRef .tc main_arg2)) (V (Proc.devRef .tc main_arg6)) := by
  after_results_simp
  rfl

set_option maxRecDepth 65536 in
set_option maxHeartbeats 0 in
theorem first_v46 (V : Valuation τ sig (Elt F)) :
    after ops_p0 V (Proc.devRef .tc main_v46) = val_main_v46 (F := F) (V (Proc.devRef .tc main_arg2)) (V (Proc.devRef .tc main_arg6)) := by
  after_results_simp
  rfl

set_option maxRecDepth 65536 in
set_option maxHeartbeats 0 in
theorem first_v5 (V : Valuation τ sig (Elt F)) :
    after ops_p0 V (Proc.devRef .tc main_v5) = val_main_v5 (F := F) (V (Proc.devRef .tc main_arg6)) := by
  after_results_simp
  rfl

set_option maxRecDepth 65536 in
set_option maxHeartbeats 0 in
theorem first_v15 (V : Valuation τ sig (Elt F)) :
    after ops_p0 V (Proc.devRef .tc main_v15) = val_main_v15 (F := F) (V (Proc.devRef .tc main_arg3)) (V (Proc.devRef .tc main_arg6)) := by
  after_results_simp
  rfl

set_option maxRecDepth 65536 in
set_option maxHeartbeats 0 in
theorem first_arg0 (V : Valuation τ sig (Elt F)) : after ops_p0 V (Proc.devRef .tc main_arg0) = V (Proc.devRef .tc main_arg0) := by
  after_results_simp

set_option maxRecDepth 65536 in
set_option maxHeartbeats 0 in
theorem first_arg1 (V : Valuation τ sig (Elt F)) : after ops_p0 V (Proc.devRef .tc main_arg1) = V (Proc.devRef .tc main_arg1) := by
  after_results_simp

/-! ## The second list, from contents `W` that hold the first list's results -/

set_option maxRecDepth 65536 in
set_option maxHeartbeats 0 in
theorem second_v65 (W : Valuation τ sig (Elt F)) (a0 : (⟨S32x3x256x256, .f32⟩ : BufTy).Contents (Elt F)) (a2 : (⟨S32x2048x2, .f32⟩ : BufTy).Contents (Elt F)) (a6 : (⟨S32x1024x2, .i32⟩ : BufTy).Contents (Elt F))
    (h45 : W (Proc.devRef .tc main_v45) = val_main_v45 (F := F) a2 a6) (h46 : W (Proc.devRef .tc main_v46) = val_main_v46 (F := F) a2 a6)
    (h5 : W (Proc.devRef .tc main_v5) = val_main_v5 (F := F) a6) (h0 : W (Proc.devRef .tc main_arg0) = a0) :
    after ops_p1 W (Proc.devRef .tc main_v65) = val_main_v65 (F := F) a0 a2 a6 := by
  after_results_simp
  rw [h45, h46, h5, h0]
  rfl

set_option maxRecDepth 65536 in
set_option maxHeartbeats 0 in
theorem second_v91 (W : Valuation τ sig (Elt F)) (a3 : (⟨S32x2048x2, .f32⟩ : BufTy).Contents (Elt F)) (a6 : (⟨S32x1024x2, .i32⟩ : BufTy).Contents (Elt F))
    (h5 : W (Proc.devRef .tc main_v5) = val_main_v5 (F := F) a6) (h15 : W (Proc.devRef .tc main_v15) = val_main_v15 (F := F) a3 a6) :
    after ops_p1 W (Proc.devRef .tc main_v91) = val_main_v91 (F := F) a3 a6 := by
  after_results_simp
  rw [h5, h15]
  rfl

set_option maxRecDepth 65536 in
set_option maxHeartbeats 0 in
theorem second_v92 (W : Valuation τ sig (Elt F)) (a3 : (⟨S32x2048x2, .f32⟩ : BufTy).Contents (Elt F)) (a6 : (⟨S32x1024x2, .i32⟩ : BufTy).Contents (Elt F))
    (h5 : W (Proc.devRef .tc main_v5) = val_main_v5 (F := F) a6) (h15 : W (Proc.devRef .tc main_v15) = val_main_v15 (F := F) a3 a6) :
    after ops_p1 W (Proc.devRef .tc main_v92) = val_main_v92 (F := F) a3 a6 := by
  after_results_simp
  rw [h5, h15]
  rfl

set_option maxRecDepth 65536 in
set_option maxHeartbeats 0 in
theorem second_v94 (W : Valuation τ sig (Elt F)) (a3 : (⟨S32x2048x2, .f32⟩ : BufTy).Contents (Elt F)) (a6 : (⟨S32x1024x2, .i32⟩ : BufTy).Contents (Elt F))
    (h5 : W (Proc.devRef .tc main_v5) = val_main_v5 (F := F) a6) (h15 : W (Proc.devRef .tc main_v15) = val_main_v15 (F := F) a3 a6) :
    after ops_p1 W (Proc.devRef .tc main_v94) = val_main_v94 (F := F) a3 a6 := by
  after_results_simp
  rw [h5, h15]
  rfl

set_option maxRecDepth 65536 in
set_option maxHeartbeats 0 in
theorem second_v5 (W : Valuation τ sig (Elt F)) : after ops_p1 W (Proc.devRef .tc main_v5) = W (Proc.devRef .tc main_v5) := by
  after_results_simp

set_option maxRecDepth 65536 in
set_option maxHeartbeats 0 in
theorem second_arg1 (W : Valuation τ sig (Elt F)) : after ops_p1 W (Proc.devRef .tc main_arg1) = W (Proc.devRef .tc main_arg1) := by
  after_results_simp

/-! ## The third list, from contents `W` that hold the second list's results -/

set_option maxRecDepth 65536 in
set_option maxHeartbeats 0 in
theorem third_v113 (W : Valuation τ sig (Elt F)) (a0 : (⟨S32x3x256x256, .f32⟩ : BufTy).Contents (Elt F)) (a1 : (⟨S32x3x256x256, .f32⟩ : BufTy).Contents (Elt F)) (a2 : (⟨S32x2048x2, .f32⟩ : BufTy).Contents (Elt F)) (a3 : (⟨S32x2048x2, .f32⟩ : BufTy).Contents (Elt F)) (a6 : (⟨S32x1024x2, .i32⟩ : BufTy).Contents (Elt F))
    (h65 : W (Proc.devRef .tc main_v65) = val_main_v65 (F := F) a0 a2 a6) (h91 : W (Proc.devRef .tc main_v91) = val_main_v91 (F := F) a3 a6)
    (h92 : W (Proc.devRef .tc main_v92) = val_main_v92 (F := F) a3 a6) (h94 : W (Proc.devRef .tc main_v94) = val_main_v94 (F := F) a3 a6)
    (h5 : W (Proc.devRef .tc main_v5) = val_main_v5 (F := F) a6) (h1 : W (Proc.devRef .tc main_arg1) = a1) :
    after ops_p2a W (Proc.devRef .tc main_v113) = val_main_v113 (F := F) a0 a1 a2 a3 a6 := by
  after_results_simp
  rw [h65, h91, h92, h94, h5, h1]
  rfl

/-! ## The three joined -/

/-- After the operations up to the one that writes `main_v113`, run from ANY contents `V` of the buffers, that buffer
    holds the stage `val_main_v113` of what `V` holds at the two images, the two keypoint arrays and the matches. -/
theorem pre_v113 (V : Valuation τ sig (Elt F)) :
    after opsPre V (Proc.devRef .tc main_v113)
      = val_main_v113 (F := F) (V (Proc.devRef .tc main_arg0)) (V (Proc.devRef .tc main_arg1)) (V (Proc.devRef .tc main_arg2)) (V (Proc.devRef .tc main_arg3)) (V (Proc.devRef .tc main_arg6)) := by
  simp only [opsPre, StableHlo.after_append]
  have h5 := first_v5 V
  have h15 := first_v15 V
  refine third_v113 _ _ _ _ _ _
    (second_v65 _ _ _ _ (first_v45 V) (first_v46 V) h5 (first_arg0 V))
    (second_v91 _ _ _ h5 h15) (second_v92 _ _ _ h5 h15) (second_v94 _ _ _ h5 h15)
    ((second_v5 _).trans h5) ((second_arg1 _).trans (first_arg1 V))

end Cert.ReferenceIdeal.Pre

end
-- ==== Proof.RefPreB.lean ====
/-
  The reference's two masked score arrays after the operations up to the patch array, from ANY contents `V` of the
  buffers: the stages `val_main_v17`, `val_main_v19` of what `V` holds at the scores and the matches.
-/
import proofs.«174740_j34617436405934_1_alg».proof.Proof.RefOps
import proofs.«174740_j34617436405934_1_alg».proof.Proof.RefStages
import proofs.«174740_j34617436405934_1_alg».proof.Proof.LibConcatCongr

noncomputable section

namespace Cert.ReferenceIdeal.Pre

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

attribute [local congr] Idealize.ShloMosaic.concatenate_pair_congr

set_option maxRecDepth 65536 in
set_option maxHeartbeats 0 in
theorem pre_v17 (V : Valuation τ sig (Elt F)) :
    after opsPre V (Proc.devRef .tc main_v17) = val_main_v17 (F := F) (V (Proc.devRef .tc main_arg4)) (V (Proc.devRef .tc main_arg6)) := by
  simp only [opsPre, StableHlo.after_append]
  after_results_simp
  rfl

set_option maxRecDepth 65536 in
set_option maxHeartbeats 0 in
theorem pre_v19 (V : Valuation τ sig (Elt F)) :
    after opsPre V (Proc.devRef .tc main_v19) = val_main_v19 (F := F) (V (Proc.devRef .tc main_arg5)) (V (Proc.devRef .tc main_arg6)) := by
  simp only [opsPre, StableHlo.after_append]
  after_results_simp
  rfl

end Cert.ReferenceIdeal.Pre

end
-- ==== Proof.RefPreC.lean ====
/-
  The reference's two keypoint results after the operations up to the patch array, from ANY contents `V` of the
  buffers — the stages `val_main_v13`, `val_main_v15` of what `V` holds at the keypoints and the matches — and the
  sixteen arguments, which none of those operations writes.
-/
import proofs.«174740_j34617436405934_1_alg».proof.Proof.RefOps
import proofs.«174740_j34617436405934_1_alg».proof.Proof.RefStages
import proofs.«174740_j34617436405934_1_alg».proof.Proof.LibConcatCongr

noncomputable section

namespace Cert.ReferenceIdeal.Pre

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

attribute [local congr] Idealize.ShloMosaic.concatenate_pair_congr

set_option maxRecDepth 65536 in
set_option maxHeartbeats 0 in
theorem pre_v13 (V : Valuation τ sig (Elt F)) :
    after opsPre V (Proc.devRef .tc main_v13) = val_main_v13 (F := F) (V (Proc.devRef .tc main_arg2)) (V (Proc.devRef .tc main_arg6)) := by
  simp only [opsPre, StableHlo.after_append]
  after_results_simp
  rfl

set_option maxRecDepth 65536 in
set_option maxHeartbeats 0 in
theorem pre_v15 (V : Valuation τ sig (Elt F)) :
    after opsPre V (Proc.devRef .tc main_v15) = val_main_v15 (F := F) (V (Proc.devRef .tc main_arg3)) (V (Proc.devRef .tc main_arg6)) := by
  simp only [opsPre, StableHlo.after_append]
  after_results_simp
  rfl

/-- @main's sixteen arguments. -/
abbrev arguments : List (Ref sig .tc) :=
  [main_arg0, main_arg1, main_arg2, main_arg3, main_arg4, main_arg5, main_arg6, main_arg7, main_arg8, main_arg9, main_arg10,
   main_arg11, main_arg12, main_arg13, main_arg14, main_arg15]

set_option maxRecDepth 65536 in
set_option maxHeartbeats 0 in
/-- No operation up to the patch array writes an argument. -/
theorem pre_arg (V : Valuation τ sig (Elt F)) (b : Ref sig .tc) (hb : b ∈ arguments) :
    after opsPre V (Proc.devRef .tc b) = V (Proc.devRef .tc b) := by
  simp only [arguments, List.mem_cons, List.mem_nil_iff, or_false] at hb
  rcases hb with rfl | rfl | rfl | rfl | rfl | rfl | rfl | rfl | rfl | rfl | rfl | rfl | rfl | rfl | rfl | rfl
  all_goals
    simp only [opsPre, StableHlo.after_append]
    after_results_simp

end Cert.ReferenceIdeal.Pre

end
-- ==== Proof.RefTail.lean ====
/-
  The reference's operations after the patch array `main_v113`, read over ANY contents `W` of the buffers: the encoded
  features joined with the scores (`main_v168`) and the pooled prediction (`main_v175`) as the stages' terms of what
  `W` holds at the patch array, the two score arrays and the arguments; every buffer these operations do not write
  keeps what `W` holds. The patch array enters as a hypothesis, so its 271 operations are never opened here.
-/
import proofs.«174740_j34617436405934_1_alg».proof.Proof.RefOps
import proofs.«174740_j34617436405934_1_alg».proof.Proof.RefStages
import proofs.«174740_j34617436405934_1_alg».proof.Proof.LibConcatCongr

noncomputable section

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

attribute [local congr] Idealize.ShloMosaic.concatenate_pair_congr

namespace Cert.ReferenceIdeal.Tail

set_option maxRecDepth 65536 in
set_option maxHeartbeats 4000000 in
/-- The second result: the normalise–map–normalise chain of the patch array, joined with the scores. -/
theorem tail_v168 (W : Valuation τ sig (Elt F)) (a0 : (⟨S32x3x256x256, .f32⟩ : BufTy).Contents (Elt F)) (a1 : (⟨S32x3x256x256, .f32⟩ : BufTy).Contents (Elt F)) (a2 : (⟨S32x2048x2, .f32⟩ : BufTy).Contents (Elt F)) (a3 : (⟨S32x2048x2, .f32⟩ : BufTy).Contents (Elt F)) (a4 : (⟨S32x2048, .f32⟩ : BufTy).Contents (Elt F)) (a5 : (⟨S32x2048, .f32⟩ : BufTy).Contents (Elt F)) (a6 : (⟨S32x1024x2, .i32⟩ : BufTy).Contents (Elt F)) (a8 : (⟨S768, .f32⟩ : BufTy).Contents (Elt F)) (a9 : (⟨S768, .f32⟩ : BufTy).Contents (Elt F)) (a10 : (⟨S768x1023, .f32⟩ : BufTy).Contents (Elt F)) (a11 : (⟨S1023, .f32⟩ : BufTy).Contents (Elt F)) (a12 : (⟨S1023, .f32⟩ : BufTy).Contents (Elt F)) (a13 : (⟨S1023, .f32⟩ : BufTy).Contents (Elt F))
    (h113 : W (Proc.devRef .tc main_v113) = val_main_v113 (F := F) a0 a1 a2 a3 a6)
    (h17 : W (Proc.devRef .tc main_v17) = val_main_v17 (F := F) a4 a6) (h19 : W (Proc.devRef .tc main_v19) = val_main_v19 (F := F) a5 a6)
    (h8 : W (Proc.devRef .tc main_arg8) = a8) (h9 : W (Proc.devRef .tc main_arg9) = a9) (h10 : W (Proc.devRef .tc main_arg10) = a10)
    (h11 : W (Proc.devRef .tc main_arg11) = a11) (h12 : W (Proc.devRef .tc main_arg12) = a12) (h13 : W (Proc.devRef .tc main_arg13) = a13) :
    after opsTail W (Proc.devRef .tc main_v168) = val_main_v168 (F := F) a0 a1 a2 a3 a4 a5 a6 a8 a9 a10 a11 a12 a13 := by
  simp only [opsTail, StableHlo.after_append]
  after_results_simp
  rw [h113, h17, h19, h8, h9, h10, h11, h12, h13]
  rfl

set_option maxRecDepth 65536 in
set_option maxHeartbeats 4000000 in
/-- The first result: the pooled embeddings' affine map. -/
theorem tail_v175 (W : Valuation τ sig (Elt F)) :
    after opsTail W (Proc.devRef .tc main_v175)
      = val_main_v175 (F := F) (W (Proc.devRef .tc main_arg7)) (W (Proc.devRef .tc main_arg14)) (W (Proc.devRef .tc main_arg15)) := by
  simp only [opsTail, StableHlo.after_append]
  after_results_simp
  rfl

/-- The buffers whose final contents the claims speak of and that no operation after the patch array writes: the two
    keypoint results and the sixteen arguments. -/
abbrev kept : List (Ref sig .tc) :=
  [main_v13, main_v15, main_arg0, main_arg1, main_arg2, main_arg3, main_arg4, main_arg5, main_arg6, main_arg7, main_arg8,
   main_arg9, main_arg10, main_arg11, main_arg12, main_arg13, main_arg14, main_arg15]

set_option maxRecDepth 65536 in
set_option maxHeartbeats 40000000 in
/-- Each of them keeps, through the operations after the patch array, what `W` holds there. -/
theorem tail_keep (W : Valuation τ sig (Elt F)) (b : Ref sig .tc) (hb : b ∈ kept) :
    after opsTail W (Proc.devRef .tc b) = W (Proc.devRef .tc b) := by
  simp only [kept, List.mem_cons, List.mem_nil_iff, or_false] at hb
  rcases hb with rfl | rfl | rfl | rfl | rfl | rfl | rfl | rfl | rfl | rfl | rfl | rfl | rfl | rfl | rfl | rfl | rfl | rfl
  all_goals
    simp only [opsTail, StableHlo.after_append]
    after_results_simp

end Cert.ReferenceIdeal.Tail

end
-- ==== Proof.RefRun.lean ====
/-
  The reference's run with its four results named: every weakly fair execution of the reference terminates with the
  pooled prediction, the encoded features joined with the scores, and the two keypoint arrays at the stages' terms of the
  launch contents of the arguments, and with the arguments unchanged. The operations up to the patch array are read
  from the launch contents (Proof/RefPreA … C), the operations after it from whatever the first part left
  (Proof/RefTail.lean); the two meet in the stages' names.
-/
import proofs.«174740_j34617436405934_1_alg».proof.Proof.RefOps
import proofs.«174740_j34617436405934_1_alg».proof.Proof.RefStages
import proofs.«174740_j34617436405934_1_alg».proof.Proof.RefPreA
import proofs.«174740_j34617436405934_1_alg».proof.Proof.RefPreB
import proofs.«174740_j34617436405934_1_alg».proof.Proof.RefPreC
import proofs.«174740_j34617436405934_1_alg».proof.Proof.RefTail

noncomputable section

namespace Cert.ReferenceIdeal.Named

open Cert.ReferenceIdeal Cert.ReferenceIdeal.Gen Cert.ReferenceIdeal.ValueP Cert.ReferenceIdeal.ReadP
open Cert.ReferenceIdeal.Pre Cert.ReferenceIdeal.Tail
open Idealize.ShloMosaic Idealize.ShloMosaic.TcCoe Idealize.SL.Sem Idealize.ShloMosaic.StableHlo

variable {F : FTy → Type} [FloatOps F]

/-- An argument, after all of @main's operations, holds its launch contents. -/
theorem arg_kept (m : (ℓ : Loc nD τ sig) → Buf (Elt F) ℓ) (c : Dev nD) (b : Ref sig .tc) (hb : b ∈ arguments) (hk : b ∈ kept) :
    after opsTail (after opsPre (launchContents m c)) (Proc.devRef .tc b) = m ((c.tc : Thread nD τ).loc b) :=
  (tail_keep _ b hk).trans (pre_arg _ b hb)

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v175) = val_main_v175 (F := F) (m ((c.tc : Thread nD τ).loc main_arg7)) (m ((c.tc : Thread nD τ).loc main_arg14)) (m ((c.tc : Thread nD τ).loc main_arg15))
      ∧ r.2.mem ((c.tc : Thread nD τ).loc main_v168) = val_main_v168 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_v13) = val_main_v13 (F := F) (m ((c.tc : Thread nD τ).loc main_arg2)) (m ((c.tc : Thread nD τ).loc main_arg6))
      ∧ r.2.mem ((c.tc : Thread nD τ).loc main_v15) = val_main_v15 (F := F) (m ((c.tc : Thread nD τ).loc main_arg3)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) := by
  refine (θ_run defs _ _).mono (fun r h c => ?_) (ValueP.run (F := F) m ρ)
  have hk : ∀ b, b ∈ arguments → after opsTail (after opsPre (launchContents m c)) (Proc.devRef .tc b) = m ((c.tc : Thread nD τ).loc b) :=
    fun b hb => arg_kept m c b hb (by
      simp only [arguments, List.mem_cons, List.mem_nil_iff, or_false] at hb
      rcases hb with rfl | rfl | rfl | rfl | rfl | rfl | rfl | rfl | rfl | rfl | rfl | rfl | rfl | rfl | rfl | rfl <;> decide)
  have ha : ∀ b, b ∈ arguments → after opsPre (launchContents m c) (Proc.devRef .tc b) = m ((c.tc : Thread nD τ).loc b) :=
    fun b hb => pre_arg _ b hb
  refine ⟨(h c main_v175).trans ?_, (h c main_v168).trans ?_, (h c main_v13).trans ?_, (h c main_v15).trans ?_,
    (h c main_arg0).trans (hk main_arg0 (by decide)),
    (h c main_arg1).trans (hk main_arg1 (by decide)),
    (h c main_arg2).trans (hk main_arg2 (by decide)),
    (h c main_arg3).trans (hk main_arg3 (by decide)),
    (h c main_arg4).trans (hk main_arg4 (by decide)),
    (h c main_arg5).trans (hk main_arg5 (by decide)),
    (h c main_arg6).trans (hk main_arg6 (by decide)),
    (h c main_arg7).trans (hk main_arg7 (by decide)),
    (h c main_arg8).trans (hk main_arg8 (by decide)),
    (h c main_arg9).trans (hk main_arg9 (by decide)),
    (h c main_arg10).trans (hk main_arg10 (by decide)),
    (h c main_arg11).trans (hk main_arg11 (by decide)),
    (h c main_arg12).trans (hk main_arg12 (by decide)),
    (h c main_arg13).trans (hk main_arg13 (by decide)),
    (h c main_arg14).trans (hk main_arg14 (by decide)),
    (h c main_arg15).trans (hk main_arg15 (by decide))⟩
  · exact (tail_v175 _).trans (by rw [ha main_arg7 (by decide), ha main_arg14 (by decide), ha main_arg15 (by decide)])
  · exact tail_v168 _ _ _ _ _ _ _ _ _ _ _ _ _ _ (pre_v113 _) (pre_v17 _) (pre_v19 _)
      (ha main_arg8 (by decide)) (ha main_arg9 (by decide)) (ha main_arg10 (by decide)) (ha main_arg11 (by decide))
      (ha main_arg12 (by decide)) (ha main_arg13 (by decide))
  · exact (tail_keep _ main_v13 (by decide)).trans (pre_v13 _)
  · exact (tail_keep _ main_v15 (by decide)).trans (pre_v15 _)

end Cert.ReferenceIdeal.Named

end
-- ==== Proof.lean ====
/-
  The certificate of a patch encoder: a layer normalisation of 768 patch entries, an affine map to 1023 features and a
  second layer normalisation, computed by a kernel over the 65536 rows of a flattened [32·2048, 768] array in 128 blocks
  of 512 rows (the normalised rows and the weights converted to a sixteen-bit format on the way into the matrix
  product), against the same three steps written over [32, 2048, 768] with an einsum; around it both programs gather
  the patches from two images at matched keypoints, join the encoded features with the matches' scores, and pool and
  map a second input. At the ideal values a change of float format is the identity and both programs apply the same
  operations in the same order, so no law of the extended reals is needed beyond re-indexing: row `b·2048 + q` of the
  flattened array is the patch at batch `b`, match `q`, and a sum's terms are the same terms.
  Both programs run the same host operations up to the patch array; each side's fold of them is read back once
  against one set of names for the intermediate arrays, so that the two meet in one term and the shared operations are
  never compared with each other. The kernel's block at a grid point is the encoder of its rows (Proof/KerBody.lean),
  the blocks tile the output array (Proof/KerArray.lean), the reference's features are the encoder of the same rows
  (Proof/RefEnc.lean), and the two runs end in the same four named results (Proof/KerRun.lean, Proof/RefRun.lean).
  The idealization rewrote nothing, so `preserves` is trivial; the frames of the two kernel programs are the generated
  ones, and the reference's frame is its named run with the results dropped.
-/
import proofs.«174740_j34617436405934_1_alg».proof.Defs
import proofs.«174740_j34617436405934_1_alg».proof.Proof.Gen.Kernel
import proofs.«174740_j34617436405934_1_alg».proof.Proof.Gen.Kernel.Skeleton
import proofs.«174740_j34617436405934_1_alg».proof.Proof.Gen.Kernel.Launch
import proofs.«174740_j34617436405934_1_alg».proof.Proof.Gen.Kernel.Points
import proofs.«174740_j34617436405934_1_alg».proof.Proof.Gen.Kernel.Frame
import proofs.«174740_j34617436405934_1_alg».proof.Proof.Gen.KernelIdeal
import proofs.«174740_j34617436405934_1_alg».proof.Proof.Gen.KernelIdeal.Skeleton
import proofs.«174740_j34617436405934_1_alg».proof.Proof.Gen.KernelIdeal.Launch
import proofs.«174740_j34617436405934_1_alg».proof.Proof.Gen.KernelIdeal.Points
import proofs.«174740_j34617436405934_1_alg».proof.Proof.Gen.KernelIdeal.Frame
import proofs.«174740_j34617436405934_1_alg».proof.Proof.Gen.ReferenceIdeal
import proofs.«174740_j34617436405934_1_alg».proof.Proof.Gen.Pre_finite_inputs
import proofs.«174740_j34617436405934_1_alg».proof.Proof.KerRun
import proofs.«174740_j34617436405934_1_alg».proof.Proof.RefRun
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its named run with the four results dropped. -/
theorem frame_referenceIdeal : Cert.frame_ReferenceIdeal := fun m ρ _ =>
  (θ_run Cert.ReferenceIdeal.defs _ _).mono (fun _ h c => (h c).2.2.2.2) (Cert.ReferenceIdeal.Named.run (F := Ideal) m ρ)

/-- The idealization rewrote no operation. -/
theorem preserves : Cert.preserves_Kernel_KernelIdeal := trivial

/-- From memories agreeing on the arguments both programs end with the same four arrays: each run names its results by
    the same terms of its own arguments' launch contents, and the agreement makes those the same arrays. -/
theorem algebraic : Cert.algebraic_KernelIdeal_ReferenceIdeal := by
  intro m ρ m' ρ' _ hagree
  refine ⟨_, _, _, _, Cert.KernelIdeal.Named.run m ρ, ?_⟩
  refine (θ_run Cert.ReferenceIdeal.defs _ _).mono (fun _ h c => ?_) (Cert.ReferenceIdeal.Named.run (F := Ideal) m' ρ')
  obtain ⟨h0, h1, h2, h3, hargs⟩ := h c
  obtain ⟨e0, e1, e2, e3, e4, e5, e6, e7, e8, e9, e10, e11, e12, e13, e14, e15⟩ := hagree c
  exact ⟨h0.trans (by rw [e7, e14, e15]), h1.trans (by rw [e0, e1, e2, e3, e4, e5, e6, e8, e9, e10, e11, e12, e13]),
    h2.trans (by rw [e2, e6]), h3.trans (by rw [e3, e6]), hargs⟩

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
